-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S2x600000 : Shape := ⟨2, ![2, 600000]⟩
abbrev S128x128 : Shape := ⟨2, ![128, 128]⟩
abbrev S256x128 : Shape := ⟨2, ![256, 128]⟩
abbrev S384x128 : Shape := ⟨2, ![384, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128x128 .f32) (main_arg8 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x400000 32) (main_arg2 : IVec S2x600000 32) (main_arg3 : IVec S2x600000 32) (main_arg4 : FVec F S128x128 .f32) (main_arg5 : FVec F S256x128 .f32) (main_arg6 : FVec F S384x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x128 .f32 := Host.absf main_arg5
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S384x128 .f32 := Host.absf main_arg6
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg7 main_arg8 main_v13 main_v16
-- ==== Kernel.lean ====
abbrev S100000x128 : Shape := ⟨2, ![100000, 128]⟩
abbrev S2x400000 : Shape := ⟨2, ![2, 400000]⟩
abbrev S2x600000 : Shape := ⟨2, ![2, 600000]⟩
abbrev S128x128 : Shape := ⟨2, ![128, 128]⟩
abbrev S256x128 : Shape := ⟨2, ![256, 128]⟩
abbrev S384x128 : Shape := ⟨2, ![384, 128]⟩
abbrev S128 : Shape := ⟨1, ![128]⟩
abbrev S1x400000 : Shape := ⟨2, ![1, 400000]⟩
abbrev S400000 : Shape := ⟨1, ![400000]⟩
abbrev S400000x1 : Shape := ⟨2, ![400000, 1]⟩
abbrev S_ : Shape := ⟨0, ![]⟩
abbrev S400000x1x1 : Shape := ⟨3, ![400000, 1, 1]⟩
abbrev S400000x1x128 : Shape := ⟨3, ![400000, 1, 128]⟩
abbrev S400000x128 : Shape := ⟨2, ![400000, 128]⟩
abbrev S10000x128 : Shape := ⟨2, ![10000, 128]⟩
abbrev S100000 : Shape := ⟨1, ![100000]⟩
abbrev S1x600000 : Shape := ⟨2, ![1, 600000]⟩
abbrev S600000 : Shape := ⟨1, ![600000]⟩
abbrev S300000x2 : Shape := ⟨2, ![300000, 2]⟩
abbrev S300000x1 : Shape := ⟨2, ![300000, 1]⟩
abbrev S300000 : Shape := ⟨1, ![300000]⟩
abbrev S300000x2x1 : Shape := ⟨3, ![300000, 2, 1]⟩
abbrev S300000x2x128 : Shape := ⟨3, ![300000, 2, 128]⟩
abbrev S300000x256 : Shape := ⟨2, ![300000, 256]⟩
abbrev S300000x128 : Shape := ⟨2, ![300000, 128]⟩
abbrev S10000x256 : Shape := ⟨2, ![10000, 256]⟩
abbrev S200000x3 : Shape := ⟨2, ![200000, 3]⟩
abbrev S200000x1 : Shape := ⟨2, ![200000, 1]⟩
abbrev S200000 : Shape := ⟨1, ![200000]⟩
abbrev S200000x3x1 : Shape := ⟨3, ![200000, 3, 1]⟩
abbrev S200000x3x128 : Shape := ⟨3, ![200000, 3, 128]⟩
abbrev S200000x384 : Shape := ⟨2, ![200000, 384]⟩
abbrev S200000x128 : Shape := ⟨2, ![200000, 128]⟩
abbrev S10000x384 : Shape := ⟨2, ![10000, 384]⟩
abbrev S100000x1 : Shape := ⟨2, ![100000, 1]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 134
  | .vmem => 33
  | .smem => 0
  | _ => 0

abbrev hbmTy0_0 (i : Nat) : BufTy := match i % 128 with
  | 0 => ⟨S100000x128, .f32⟩
  | 1 => ⟨S2x400000, .i32⟩
  | 2 => ⟨S2x600000, .i32⟩
  | 3 => ⟨S2x600000, .i32⟩
  | 4 => ⟨S128x128, .f32⟩
  | 5 => ⟨S256x128, .f32⟩
  | 6 => ⟨S384x128, .f32⟩
  | 7 => ⟨S128x128, .f32⟩
  | 8 => ⟨S128, .f32⟩
  | 9 => ⟨S100000x128, .bf16⟩
  | 10 => ⟨S128x128, .bf16⟩
  | 11 => ⟨S256x128, .bf16⟩
  | 12 => ⟨S384x128, .bf16⟩
  | 13 => ⟨S128x128, .bf16⟩
  | 14 => ⟨S1x400000, .i32⟩
  | 15 => ⟨S400000, .i32⟩
  | 16 => ⟨S400000x1, .i32⟩
  | 17 => ⟨S1x400000, .i32⟩
  | 18 => ⟨S400000, .i32⟩
  | 19 => ⟨S400000x1, .i32⟩
  | 20 => ⟨S400000, .i32⟩
  | 21 => ⟨S_, .i32⟩
  | 22 => ⟨S400000x1, .i32⟩
  | 23 => ⟨S400000x1, .i1⟩
  | 24 => ⟨S_, .i32⟩
  | 25 => ⟨S400000x1, .i32⟩
  | 26 => ⟨S400000x1, .i32⟩
  | 27 => ⟨S400000x1, .i32⟩
  | 28 => ⟨S400000x1x1, .i32⟩
  | 29 => ⟨S400000x1x128, .bf16⟩
  | 30 => ⟨S400000x128, .bf16⟩
  | 31 => ⟨S400000x128, .f32⟩
  | 32 => ⟨S_, .f32⟩
  | 33 => ⟨S400000, .f32⟩
  | 34 => ⟨S_, .f32⟩
  | 35 => ⟨S100000, .f32⟩
  | 36 => ⟨S400000x1, .i32⟩
  | 37 => ⟨S100000, .f32⟩
  | 38 => ⟨S_, .f32⟩
  | 39 => ⟨S100000x128, .f32⟩
  | 40 => ⟨S400000x1, .i32⟩
  | 41 => ⟨S100000x128, .f32⟩
  | 42 => ⟨S1x600000, .i32⟩
  | 43 => ⟨S600000, .i32⟩
  | 44 => ⟨S300000x2, .i32⟩
  | 45 => ⟨S1x600000, .i32⟩
  | 46 => ⟨S600000, .i32⟩
  | 47 => ⟨S300000x2, .i32⟩
  | 48 => ⟨S300000x1, .i32⟩
  | 49 => ⟨S300000, .i32⟩
  | 50 => ⟨S_, .i32⟩
  | 51 => ⟨S300000x2, .i32⟩
  | 52 => ⟨S300000x2, .i1⟩
  | 53 => ⟨S_, .i32⟩
  | 54 => ⟨S300000x2, .i32⟩
  | 55 => ⟨S300000x2, .i32⟩
  | 56 => ⟨S300000x2, .i32⟩
  | 57 => ⟨S300000x2x1, .i32⟩
  | 58 => ⟨S300000x2x128, .bf16⟩
  | 59 => ⟨S300000x256, .bf16⟩
  | 60 => ⟨S300000x128, .f32⟩
  | 61 => ⟨S_, .f32⟩
  | 62 => ⟨S300000, .f32⟩
  | 63 => ⟨S_, .f32⟩
  | 64 => ⟨S100000, .f32⟩
  | 65 => ⟨S300000x1, .i32⟩
  | 66 => ⟨S100000, .f32⟩
  | 67 => ⟨S_, .f32⟩
  | 68 => ⟨S100000x128, .f32⟩
  | 69 => ⟨S300000x1, .i32⟩
  | 70 => ⟨S100000x128, .f32⟩
  | 71 => ⟨S1x600000, .i32⟩
  | 72 => ⟨S600000, .i32⟩
  | 73 => ⟨S200000x3, .i32⟩
  | 74 => ⟨S1x600000, .i32⟩
  | 75 => ⟨S600000, .i32⟩
  | 76 => ⟨S200000x3, .i32⟩
  | 77 => ⟨S200000x1, .i32⟩
  | 78 => ⟨S200000, .i32⟩
  | 79 => ⟨S_, .i32⟩
  | 80 => ⟨S200000x3, .i32⟩
  | 81 => ⟨S200000x3, .i1⟩
  | 82 => ⟨S_, .i32⟩
  | 83 => ⟨S200000x3, .i32⟩
  | 84 => ⟨S200000x3, .i32⟩
  | 85 => ⟨S200000x3, .i32⟩
  | 86 => ⟨S200000x3x1, .i32⟩
  | 87 => ⟨S200000x3x128, .bf16⟩
  | 88 => ⟨S200000x384, .bf16⟩
  | 89 => ⟨S200000x128, .f32⟩
  | 90 => ⟨S_, .f32⟩
  | 91 => ⟨S200000, .f32⟩
  | 92 => ⟨S_, .f32⟩
  | 93 => ⟨S100000, .f32⟩
  | 94 => ⟨S200000x1, .i32⟩
  | 95 => ⟨S100000, .f32⟩
  | 96 => ⟨S_, .f32⟩
  | 97 => ⟨S100000x128, .f32⟩
  | 98 => ⟨S200000x1, .i32⟩
  | 99 => ⟨S100000x128, .f32⟩
  | 100 => ⟨S_, .f32⟩
  | 101 => ⟨S100000, .f32⟩
  | 102 => ⟨S100000, .i1⟩
  | 103 => ⟨S_, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S100000x1, .f32⟩
  | 111 => ⟨S_, .f32⟩
  | 112 => ⟨S100000, .f32⟩
  | 113 => ⟨S100000, .i1⟩
  | 114 => ⟨S_, .f32⟩
  | 115 => ⟨S100000, .f32⟩
  | 116 => ⟨S100000, .f32⟩
  | 117 => ⟨S_, .f32⟩
  | 118 => ⟨S_, .f32⟩
  | 119 => ⟨S100000, .f32⟩
  | 120 => ⟨S100000, .f32⟩
  | 121 => ⟨S100000x1, .f32⟩
  | 122 => ⟨S_, .f32⟩
  | 123 => ⟨S100000, .f32⟩
  | 124 => ⟨S100000, .i1⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S_, .f32⟩
  | 1 => ⟨S_, .f32⟩
  | 2 => ⟨S100000, .f32⟩
  | 3 => ⟨S100000, .f32⟩
  | 4 => ⟨S100000x1, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x256, .bf16⟩
  | .local _ .vmem, ⟨6, _⟩ => ⟨S10000x256, .bf16⟩
  | .local _ .vmem, ⟨7, _⟩ => ⟨S256x128, .bf16⟩
  | .local _ .vmem, ⟨8, _⟩ => ⟨S10000x128, .f32⟩
  | .local _ .vmem, ⟨9, _⟩ => ⟨S10000x128, .f32⟩
  | .local _ .vmem, ⟨10, _⟩ => ⟨S10000x384, .bf16⟩
  | .local _ .vmem, ⟨11, _⟩ => ⟨S10000x384, .bf16⟩
  | .local _ .vmem, ⟨12, _⟩ => ⟨S384x128, .bf16⟩
  | .local _ .vmem, ⟨13, _⟩ => ⟨S10000x128, .f32⟩
  | .local _ .vmem, ⟨14, _⟩ => ⟨S10000x128, .f32⟩
  | .local _ .vmem, ⟨15, _⟩ => ⟨S2000x128, .bf16⟩
  | .local _ .vmem, ⟨16, _⟩ => ⟨S2000x128, .bf16⟩
  | .local _ .vmem, ⟨17, _⟩ => ⟨S128x128, .bf16⟩
  | .local _ .vmem, ⟨18, _⟩ => ⟨S128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S2000x128, .f32⟩
  | .local _ .vmem, ⟨32, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_c_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_8 : Ref sig .tc := ⟨.hbm, 79, rfl⟩
abbrev main_v60 : Ref sig .tc := ⟨.hbm, 80, rfl⟩
abbrev main_v61 : Ref sig .tc := ⟨.hbm, 81, rfl⟩
abbrev main_c_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_call0_v0 : Ref sig .tc := ⟨.hbm, 107, rfl⟩
abbrev main_call0_v1 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_call1_v0 : Ref sig .tc := ⟨.hbm, 118, rfl⟩
abbrev main_call1_v1 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_cst_20 : Ref sig .tc := ⟨.hbm, 125, rfl⟩
abbrev main_v90 : Ref sig .tc := ⟨.hbm, 126, rfl⟩
abbrev main_v91 : Ref sig .tc := ⟨.hbm, 127, rfl⟩
abbrev main_cst_21 : Ref sig .tc := ⟨.hbm, 128, rfl⟩
abbrev main_call2_v0 : Ref sig .tc := ⟨.hbm, 129, rfl⟩
abbrev main_call2_v1 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc3_stg7_0 : Ref sig .tc := ⟨.vmem, 27, rfl⟩
abbrev cc3_stg7_1 : Ref sig .tc := ⟨.vmem, 28, rfl⟩
abbrev cc3_stg8_0 : Ref sig .tc := ⟨.vmem, 29, rfl⟩
abbrev cc3_stg8_1 : Ref sig .tc := ⟨.vmem, 30, rfl⟩
abbrev cc3_stg9_0 : Ref sig .tc := ⟨.vmem, 31, rfl⟩
abbrev cc3_stg9_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev cc3_sem4_1 : DmaSem sig := 22
abbrev cc3_sem5_0 : DmaSem sig := 23
abbrev cc3_sem5_1 : DmaSem sig := 24
abbrev cc3_sem6_0 : DmaSem sig := 25
abbrev cc3_sem6_1 : DmaSem sig := 26
abbrev cc3_sem7_0 : DmaSem sig := 27
abbrev cc3_sem7_1 : DmaSem sig := 28
abbrev cc3_sem8_0 : DmaSem sig := 29
abbrev cc3_sem8_1 : DmaSem sig := 30
abbrev cc3_sem9_0 : DmaSem sig := 31
abbrev cc3_sem9_1 : DmaSem sig := 32

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bitsLt_bf16_f32 : FTy.bits .bf16 < FTy.bits .f32
  slices_S2x400000_S1x400000_0_0 : S2x400000.Slices ![0, 0] S1x400000
  shapeCasts_S1x400000_S400000 : S1x400000.ShapeCasts S400000
  shapeCasts_S400000_S400000x1 : S400000.ShapeCasts S400000x1
  slices_S2x400000_S1x400000_1_0 : S2x400000.Slices ![1, 0] S1x400000
  shapeCasts_S400000x1_S400000 : S400000x1.ShapeCasts S400000
  bcast_S_S400000x1 : S_.BroadcastsInDim S400000x1 (![] : Fin 0 → Fin S400000x1.rank)
  bcast_S400000x1_S400000x1x1_0_1 : S400000x1.BroadcastsInDim S400000x1x1 (![0, 1] : Fin 2 → Fin S400000x1x1.rank)
  shapeCasts_S400000x1x128_S400000x128 : S400000x1x128.ShapeCasts S400000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  shapeCasts_S600000_S300000x2 : S600000.ShapeCasts S300000x2
  slices_S2x600000_S1x600000_1_0 : S2x600000.Slices ![1, 0] S1x600000
  slices_S300000x2_S300000x1_0_0 : S300000x2.Slices ![0, 0] S300000x1
  shapeCasts_S300000x1_S300000 : S300000x1.ShapeCasts S300000
  bcast_S_S300000x2 : S_.BroadcastsInDim S300000x2 (![] : Fin 0 → Fin S300000x2.rank)
  bcast_S300000x2_S300000x2x1_0_1 : S300000x2.BroadcastsInDim S300000x2x1 (![0, 1] : Fin 2 → Fin S300000x2x1.rank)
  shapeCasts_S300000x2x128_S300000x256 : S300000x2x128.ShapeCasts S300000x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S300000 : S_.BroadcastsInDim S300000 (![] : Fin 0 → Fin S300000.rank)
  bcast_S300000_S300000x1_0 : S300000.BroadcastsInDim S300000x1 (![0] : Fin 1 → Fin S300000x1.rank)
  shapeCasts_S600000_S200000x3 : S600000.ShapeCasts S200000x3
  slices_S200000x3_S200000x1_0_0 : S200000x3.Slices ![0, 0] S200000x1
  shapeCasts_S200000x1_S200000 : S200000x1.ShapeCasts S200000
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  shapeCasts_S200000x3x128_S200000x384 : S200000x3x128.ShapeCasts S200000x384
  inb_S10000x384_S10000x384_0_0 : ∀ a, (![0, 0] : Fin 2 → Nat) a + S10000x384.size a ≤ S10000x384.size a
  h_S10000x384 : 0 < S10000x384.numel
  shapeCasts_S10000x384_S10000x384 : S10000x384.ShapeCasts S10000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  bcast_S_S200000 : S_.BroadcastsInDim S200000 (![] : Fin 0 → Fin S200000.rank)
  bcast_S200000_S200000x1_0 : S200000.BroadcastsInDim S200000x1 (![0] : Fin 1 → Fin S200000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  gather_S100000x128_S400000x1x1_S400000x1x128_2_0_n_n_0_2_1128_wf : GatherDims.WF S100000x128 S400000x1x1 S400000x1x128 [2] [0] [] [0] [] 2 ![1, 128]
  dot_S10000x128_S128x128_S10000x128_1_0_0_1_n_n_wf : DotDims.WF S10000x128 S128x128 S10000x128 [1] [0] [0] [1] [] []
  scatter_S100000_S400000x1_S400000_n_0_0_1_wf : ScatterDims.WF S100000 S400000x1 S400000 [] [0] [0] 1
  scatter_S100000x128_S400000x1_S400000x128_1_0_0_1_wf : ScatterDims.WF S100000x128 S400000x1 S400000x128 [1] [0] [0] 1
  gather_S100000x128_S300000x2x1_S300000x2x128_2_0_n_n_0_2_1128_wf : GatherDims.WF S100000x128 S300000x2x1 S300000x2x128 [2] [0] [] [0] [] 2 ![1, 128]
  dot_S10000x256_S256x128_S10000x128_1_0_0_1_n_n_wf : DotDims.WF S10000x256 S256x128 S10000x128 [1] [0] [0] [1] [] []
  scatter_S100000_S300000x1_S300000_n_0_0_1_wf : ScatterDims.WF S100000 S300000x1 S300000 [] [0] [0] 1
  scatter_S100000x128_S300000x1_S300000x128_1_0_0_1_wf : ScatterDims.WF S100000x128 S300000x1 S300000x128 [1] [0] [0] 1
  gather_S100000x128_S200000x3x1_S200000x3x128_2_0_n_n_0_2_1128_wf : GatherDims.WF S100000x128 S200000x3x1 S200000x3x128 [2] [0] [] [0] [] 2 ![1, 128]
  dot_S10000x384_S384x128_S10000x128_1_0_0_1_n_n_wf : DotDims.WF S10000x384 S384x128 S10000x128 [1] [0] [0] [1] [] []
  scatter_S100000_S200000x1_S200000_n_0_0_1_wf : ScatterDims.WF S100000 S200000x1 S200000 [] [0] [0] 1
  scatter_S100000x128_S200000x1_S200000x128_1_0_0_1_wf : ScatterDims.WF S100000x128 S200000x1 S200000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S400000x128.size a
  hwx0_0 : ∀ i : grid0.Coords, EltTy.bits .bf16 = 32 ∨ (Rect.block (s := S400000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S400000x128.size a
  hwx0_2 : ∀ i : grid0.Coords, EltTy.bits .f32 = 32 ∨ (Rect.block (s := S400000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S300000x256.size a
  hwx1_0 : ∀ i : grid1.Coords, EltTy.bits .bf16 = 32 ∨ (Rect.block (s := S300000x256) S10000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S300000x128.size a
  hwx1_2 : ∀ i : grid1.Coords, EltTy.bits .f32 = 32 ∨ (Rect.block (s := S300000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x384.size a ≤ S200000x384.size a
  hwx2_0 : ∀ i : grid2.Coords, EltTy.bits .bf16 = 32 ∨ (Rect.block (s := S200000x384) S10000x384.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .bf16 = 32 ∨ (Rect.block (s := S384x128) S384x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S200000x128.size a
  hwx2_2 : ∀ i : grid2.Coords, EltTy.bits .f32 = 32 ∨ (Rect.block (s := S200000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .bf16 = 32 ∨ (Rect.block (s := S100000x128) S2000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x1.size a ≤ S100000x1.size a
  hwx3_6 : ∀ i : grid3.Coords, EltTy.bits .f32 = 32 ∨ (Rect.block (s := S100000x1) S2000x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x1.size a ≤ S100000x1.size a
  hwx3_7 : ∀ i : grid3.Coords, EltTy.bits .f32 = 32 ∨ (Rect.block (s := S100000x1) S2000x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x1.size a ≤ S100000x1.size a
  hwx3_8 : ∀ i : grid3.Coords, EltTy.bits .f32 = 32 ∨ (Rect.block (s := S100000x1) S2000x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S100000x128.size a
  hwx3_9 : ∀ i : grid3.Coords, EltTy.bits .f32 = 32 ∨ (Rect.block (s := S100000x128) S2000x128.size (cc3_transform_9 i) (hinb3_9 i)).WholeWords (EltTy.packing .f32)

variable [Facts₀]

def gather_S100000x128_S400000x1x1_S400000x1x128_2_0_n_n_0_2_1128 : GatherDims S100000x128 S400000x1x1 S400000x1x128 where
  offsetDims := [2]
  collapsedSliceDims := [0]
  operandBatchingDims := []
  startIndicesBatchingDims := []
  startIndexMap := [0]
  indexVectorDim := 2
  sliceSizes := ![1, 128]
  wf := gather_S100000x128_S400000x1x1_S400000x1x128_2_0_n_n_0_2_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S100000x128_S300000x2x1_S300000x2x128_2_0_n_n_0_2_1128 : GatherDims S100000x128 S300000x2x1 S300000x2x128 where
  offsetDims := [2]
  collapsedSliceDims := [0]
  operandBatchingDims := []
  startIndicesBatchingDims := []
  startIndexMap := [0]
  indexVectorDim := 2
  sliceSizes := ![1, 128]
  wf := gather_S100000x128_S300000x2x1_S300000x2x128_2_0_n_n_0_2_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def gather_S100000x128_S200000x3x1_S200000x3x128_2_0_n_n_0_2_1128 : GatherDims S100000x128 S200000x3x1 S200000x3x128 where
  offsetDims := [2]
  collapsedSliceDims := [0]
  operandBatchingDims := []
  startIndicesBatchingDims := []
  startIndexMap := [0]
  indexVectorDim := 2
  sliceSizes := ![1, 128]
  wf := gather_S100000x128_S200000x3x1_S200000x3x128_2_0_n_n_0_2_1128_wf
def dot_S10000x384_S384x128_S10000x128_1_0_0_1_n_n : DotDims S10000x384 S384x128 S10000x128 where
  lhsContracting := [1]
  rhsContracting := [0]
  lhsNonContracting := [0]
  rhsNonContracting := [1]
  lhsBatch := []
  rhsBatch := []
  wf := dot_S10000x384_S384x128_S10000x128_1_0_0_1_n_n_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v19) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S10000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v51) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v75) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v81) S2000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v87) S2000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v93) S2000x1.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v94) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S2x600000 : Shape := ⟨2, ![2, 600000]⟩
abbrev S128x128 : Shape := ⟨2, ![128, 128]⟩
abbrev S256x128 : Shape := ⟨2, ![256, 128]⟩
abbrev S384x128 : Shape := ⟨2, ![384, 128]⟩
abbrev S128 : Shape := ⟨1, ![128]⟩
abbrev S1x400000 : Shape := ⟨2, ![1, 400000]⟩
abbrev S400000 : Shape := ⟨1, ![400000]⟩
abbrev S400000x1 : Shape := ⟨2, ![400000, 1]⟩
abbrev S_ : Shape := ⟨0, ![]⟩
abbrev S400000x128 : Shape := ⟨2, ![400000, 128]⟩
abbrev S100000 : Shape := ⟨1, ![100000]⟩
abbrev S1x600000 : Shape := ⟨2, ![1, 600000]⟩
abbrev S600000 : Shape := ⟨1, ![600000]⟩
abbrev S300000x2 : Shape := ⟨2, ![300000, 2]⟩
abbrev S300000x1 : Shape := ⟨2, ![300000, 1]⟩
abbrev S300000 : Shape := ⟨1, ![300000]⟩
abbrev S600000x1 : Shape := ⟨2, ![600000, 1]⟩
abbrev S600000x128 : Shape := ⟨2, ![600000, 128]⟩
abbrev S300000x256 : Shape := ⟨2, ![300000, 256]⟩
abbrev S300000x128 : Shape := ⟨2, ![300000, 128]⟩
abbrev S200000x3 : Shape := ⟨2, ![200000, 3]⟩
abbrev S200000x1 : Shape := ⟨2, ![200000, 1]⟩
abbrev S200000 : Shape := ⟨1, ![200000]⟩
abbrev S200000x384 : Shape := ⟨2, ![200000, 384]⟩
abbrev S200000x128 : Shape := ⟨2, ![200000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x400000, .i32⟩
  | 2 => ⟨S2x600000, .i32⟩
  | 3 => ⟨S2x600000, .i32⟩
  | 4 => ⟨S128x128, .f32⟩
  | 5 => ⟨S256x128, .f32⟩
  | 6 => ⟨S384x128, .f32⟩
  | 7 => ⟨S128x128, .f32⟩
  | 8 => ⟨S128, .f32⟩
  | 9 => ⟨S1x400000, .i32⟩
  | 10 => ⟨S400000, .i32⟩
  | 11 => ⟨S400000x1, .i32⟩
  | 12 => ⟨S400000, .i32⟩
  | 13 => ⟨S1x400000, .i32⟩
  | 14 => ⟨S400000, .i32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x128, .f32⟩
  | 24 => ⟨S400000x128, .f32⟩
  | 25 => ⟨S_, .f32⟩
  | 26 => ⟨S400000, .f32⟩
  | 27 => ⟨S_, .f32⟩
  | 28 => ⟨S100000, .f32⟩
  | 29 => ⟨S400000x1, .i32⟩
  | 30 => ⟨S100000, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000, .f32⟩
  | 40 => ⟨S400000x1, .f32⟩
  | 41 => ⟨S400000x128, .f32⟩
  | 42 => ⟨S400000x128, .f32⟩
  | 43 => ⟨S_, .f32⟩
  | 44 => ⟨S100000x128, .f32⟩
  | 45 => ⟨S400000x1, .i32⟩
  | 46 => ⟨S100000x128, .f32⟩
  | 47 => ⟨S1x600000, .i32⟩
  | 48 => ⟨S600000, .i32⟩
  | 49 => ⟨S300000x2, .i32⟩
  | 50 => ⟨S300000x1, .i32⟩
  | 51 => ⟨S300000, .i32⟩
  | 52 => ⟨S1x600000, .i32⟩
  | 53 => ⟨S600000, .i32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S300000x256, .f32⟩
  | 64 => ⟨S300000x128, .f32⟩
  | 65 => ⟨S_, .f32⟩
  | 66 => ⟨S300000, .f32⟩
  | 67 => ⟨S_, .f32⟩
  | 68 => ⟨S100000, .f32⟩
  | 69 => ⟨S300000x1, .i32⟩
  | 70 => ⟨S100000, .f32⟩
  | 71 => ⟨S_, .i32⟩
  | 72 => ⟨S300000, .i32⟩
  | 73 => ⟨S300000, .i1⟩
  | 74 => ⟨S_, .i32⟩
  | 75 => ⟨S300000, .i32⟩
  | 76 => ⟨S300000, .i32⟩
  | 77 => ⟨S300000, .i32⟩
  | 78 => ⟨S300000x1, .i32⟩
  | 79 => ⟨S300000, .f32⟩
  | 80 => ⟨S300000x1, .f32⟩
  | 81 => ⟨S300000x128, .f32⟩
  | 82 => ⟨S300000x128, .f32⟩
  | 83 => ⟨S_, .f32⟩
  | 84 => ⟨S100000x128, .f32⟩
  | 85 => ⟨S300000x1, .i32⟩
  | 86 => ⟨S100000x128, .f32⟩
  | 87 => ⟨S100000x128, .f32⟩
  | 88 => ⟨S1x600000, .i32⟩
  | 89 => ⟨S600000, .i32⟩
  | 90 => ⟨S200000x3, .i32⟩
  | 91 => ⟨S200000x1, .i32⟩
  | 92 => ⟨S200000, .i32⟩
  | 93 => ⟨S1x600000, .i32⟩
  | 94 => ⟨S600000, .i32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S200000x384, .f32⟩
  | 105 => ⟨S200000x128, .f32⟩
  | 106 => ⟨S_, .f32⟩
  | 107 => ⟨S200000, .f32⟩
  | 108 => ⟨S_, .f32⟩
  | 109 => ⟨S100000, .f32⟩
  | 110 => ⟨S200000x1, .i32⟩
  | 111 => ⟨S100000, .f32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000, .f32⟩
  | 121 => ⟨S200000x1, .f32⟩
  | 122 => ⟨S200000x128, .f32⟩
  | 123 => ⟨S200000x128, .f32⟩
  | 124 => ⟨S_, .f32⟩
  | 125 => ⟨S100000x128, .f32⟩
  | 126 => ⟨S200000x1, .i32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_16 : Ref sig .tc := ⟨.hbm, 112, rfl⟩
abbrev main_v85 : Ref sig .tc := ⟨.hbm, 113, rfl⟩
abbrev main_v86 : Ref sig .tc := ⟨.hbm, 114, rfl⟩
abbrev main_c_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]

class Facts₀ : Prop where
  slices_S2x400000_S1x400000_1_0 : S2x400000.Slices ![1, 0] S1x400000
  shapeCasts_S1x400000_S400000 : S1x400000.ShapeCasts S400000
  shapeCasts_S400000_S400000x1 : S400000.ShapeCasts S400000x1
  shapeCasts_S400000x1_S400000 : S400000x1.ShapeCasts S400000
  slices_S2x400000_S1x400000_0_0 : S2x400000.Slices ![0, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000 : S_.BroadcastsInDim S100000 (![] : Fin 0 → Fin S100000.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  slices_S2x600000_S1x600000_1_0 : S2x600000.Slices ![1, 0] S1x600000
  shapeCasts_S1x600000_S600000 : S1x600000.ShapeCasts S600000
  shapeCasts_S600000_S300000x2 : S600000.ShapeCasts S300000x2
  slices_S300000x2_S300000x1_0_0 : S300000x2.Slices ![0, 0] S300000x1
  shapeCasts_S300000x1_S300000 : S300000x1.ShapeCasts S300000
  slices_S2x600000_S1x600000_0_0 : S2x600000.Slices ![0, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S600000x128_S300000x256 : S600000x128.ShapeCasts S300000x256
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  shapeCasts_S600000_S200000x3 : S600000.ShapeCasts S200000x3
  slices_S200000x3_S200000x1_0_0 : S200000x3.Slices ![0, 0] S200000x1
  shapeCasts_S200000x1_S200000 : S200000x1.ShapeCasts S200000
  shapeCasts_S600000x128_S200000x384 : S600000x128.ShapeCasts S200000x384
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S400000x1_S400000x128_1_0_n_n_0_1_1128_wf : GatherDims.WF S100000x128 S400000x1 S400000x128 [1] [0] [] [0] [] 1 ![1, 128]
  dot_S400000x128_S128x128_S400000x128_1_0_0_1_n_n_wf : DotDims.WF S400000x128 S128x128 S400000x128 [1] [0] [0] [1] [] []
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  scatter_S100000x128_S400000x1_S400000x128_1_0_0_1_wf : ScatterDims.WF S100000x128 S400000x1 S400000x128 [1] [0] [0] 1
  gather_S100000x128_S600000x1_S600000x128_1_0_n_n_0_1_1128_wf : GatherDims.WF S100000x128 S600000x1 S600000x128 [1] [0] [] [0] [] 1 ![1, 128]
  dot_S300000x256_S256x128_S300000x128_1_0_0_1_n_n_wf : DotDims.WF S300000x256 S256x128 S300000x128 [1] [0] [0] [1] [] []
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  scatter_S100000x128_S300000x1_S300000x128_1_0_0_1_wf : ScatterDims.WF S100000x128 S300000x1 S300000x128 [1] [0] [0] 1
  dot_S200000x384_S384x128_S200000x128_1_0_0_1_n_n_wf : DotDims.WF S200000x384 S384x128 S200000x128 [1] [0] [0] [1] [] []
  scatter_S100000_S200000x1_S200000_n_0_0_1_wf : ScatterDims.WF S100000 S200000x1 S200000 [] [0] [0] 1
  gather_S100000_S200000x1_S200000_n_0_n_n_0_1_1_wf : GatherDims.WF S100000 S200000x1 S200000 [] [0] [] [0] [] 1 ![1]
  scatter_S100000x128_S200000x1_S200000x128_1_0_0_1_wf : ScatterDims.WF S100000x128 S200000x1 S200000x128 [1] [0] [0] 1
  dot_S100000x128_S128x128_S100000x128_1_0_0_1_n_n_wf : DotDims.WF S100000x128 S128x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the idealized kernel program with its final memory NAMED.

  The program is four pipelined regions among stretches of host operations. The generated frame module folds the
  buffer contents through these segments: the contents at each boundary are a function of the launch memory, and the
  last boundary's contents are called W14 there. Its frame theorem reads only the argument arrays off the last
  boundary. Here the same run is stated with the whole last boundary kept: every buffer that is not scoped to a
  region ends at W14's contents. The result array is one of them.
-/
import proofs.«133609_j19868518711903_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer not scoped to a region
    ends at the contents the fold through the segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The result array and the argument arrays after the run: the result at the last boundary's contents, each argument
    as launched. -/
theorem run_result : θ_run defs (onTc (τ := τ) (main (F := F))) ⟨m, fun _ => 0, ρ⟩ (fun r => ∀ c : Dev nD,
      r.2.mem ((c.tc : Thread nD τ).loc main_v94) = W14 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v94 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)
    (run_all m ρ)

end Cert.KernelIdeal.RunValue

end
-- ==== Proof.HostTerms.lean ====
/-
  The host operations of the idealized kernel program between its regions, as named arrays.

  For each of the three relations the program reads the edge array (2 rows: sources, destinations), gathers the source
  rows of the node features into one wide operand per edge, and — after the relation's region has multiplied that
  operand by the relation's weights — scatters the messages by destination into a zero array, beside a scatter of ones
  that counts each node's in-degree. The inverse in-degree (zero where the in-degree is not positive) is kept as a
  one-column array. Each array is written here exactly as the program's operations spell it, as a function of the
  arrays it is computed from.
-/
import proofs.«133609_j19868518711903_2_alg».proof.Proof.Gen.KernelIdeal.Frame
import Idealize.ShloMosaic.Lib.ValueIdx

noncomputable section

namespace Cert.KernelIdeal.HostTerms

open Cert.KernelIdeal Cert.KernelIdeal.Gen Idealize.ShloMosaic Idealize.ShloMosaic.TcCoe

/-! ### Relation 1: 400000 edges of 1 source each -/

/-- The flat list of source numbers: row 0 of the edge array. -/
abbrev src1 (a : IVec S2x400000 32) : IVec S400000 32 :=
  shapeCast S400000 (extractStridedSlice S1x400000 ![0, 0] a slices_S2x400000_S1x400000_0_0) shapeCasts_S1x400000_S400000
/-- The same numbers as a table, one row of 1 per edge. -/
abbrev tbl1 (a : IVec S2x400000 32) : IVec S400000x1 32 := shapeCast S400000x1 (src1 a) shapeCasts_S400000_S400000x1
/-- The gathered operand: for each edge the 1 source rows of the features side by side, a negative number counted from
    the end. -/
abbrev gat1 (xb : FVec Ideal S100000x128 .bf16) (a : IVec S2x400000 32) : FVec Ideal S400000x128 .bf16 :=
  shapeCast S400000x128 (Host.gather gather_S100000x128_S400000x1x1_S400000x1x128_2_0_n_n_0_2_1128 xb
    (broadcastInDim S400000x1x1 ![0, 1] bcast_S400000x1_S400000x1x1_0_1
      (select (cmpi .slt (tbl1 a) (broadcastInDim S400000x1 ![] bcast_S_S400000x1 (constantI S_ 32 0#32)))
        (addi (tbl1 a) (broadcastInDim S400000x1 ![] bcast_S_S400000x1 (constantI S_ 32 100000#32))) (tbl1 a))))
    shapeCasts_S400000x1x128_S400000x128
/-- The destination number of each edge: row 1 of the edge array, the first of each edge's 1. -/
abbrev dest1 (a : IVec S2x400000 32) : IVec S400000 32 :=
  shapeCast S400000 (shapeCast S400000x1 (shapeCast S400000 (extractStridedSlice S1x400000 ![1, 0] a slices_S2x400000_S1x400000_1_0) shapeCasts_S1x400000_S400000) shapeCasts_S400000_S400000x1) shapeCasts_S400000x1_S400000
/-- The in-degree of every node: ones scattered by destination into zeros. -/
abbrev deg1 (d : IVec S400000 32) : FVec Ideal S100000 .f32 :=
  Host.scatterAdd scatter_S100000_S400000x1_S400000_n_0_0_1 (broadcastInDim S100000 ![] bcast_S_S100000 (constant (F := Ideal) S_ .f32 0x00000000#32))
    (broadcastInDim S400000x1 ![0] bcast_S400000_S400000x1_0 d) (broadcastInDim S400000 ![] bcast_S_S400000 (constant (F := Ideal) S_ .f32 0x3F800000#32))
/-- The raw aggregate: the messages scattered by destination into zeros. -/
abbrev raw1 (d : IVec S400000 32) (msg : FVec Ideal S400000x128 .f32) : FVec Ideal S100000x128 .f32 :=
  Host.scatterAdd scatter_S100000x128_S400000x1_S400000x128_1_0_0_1 (broadcastInDim S100000x128 ![] bcast_S_S100000x128 (constant (F := Ideal) S_ .f32 0x00000000#32))
    (broadcastInDim S400000x1 ![0] bcast_S400000_S400000x1_0 d) msg

/-! ### Relation 2: 300000 edges of 2 sources each -/

/-- The flat list of source numbers: row 0 of the edge array. -/
abbrev src2 (a : IVec S2x600000 32) : IVec S600000 32 :=
  shapeCast S600000 (extractStridedSlice S1x600000 ![0, 0] a slices_S2x600000_S1x600000_0_0) shapeCasts_S1x600000_S600000
/-- The same numbers as a table, one row of 2 per edge. -/
abbrev tbl2 (a : IVec S2x600000 32) : IVec S300000x2 32 := shapeCast S300000x2 (src2 a) shapeCasts_S600000_S300000x2
/-- The gathered operand: for each edge the 2 source rows of the features side by side, a negative number counted from
    the end. -/
abbrev gat2 (xb : FVec Ideal S100000x128 .bf16) (a : IVec S2x600000 32) : FVec Ideal S300000x256 .bf16 :=
  shapeCast S300000x256 (Host.gather gather_S100000x128_S300000x2x1_S300000x2x128_2_0_n_n_0_2_1128 xb
    (broadcastInDim S300000x2x1 ![0, 1] bcast_S300000x2_S300000x2x1_0_1
      (select (cmpi .slt (tbl2 a) (broadcastInDim S300000x2 ![] bcast_S_S300000x2 (constantI S_ 32 0#32)))
        (addi (tbl2 a) (broadcastInDim S300000x2 ![] bcast_S_S300000x2 (constantI S_ 32 100000#32))) (tbl2 a))))
    shapeCasts_S300000x2x128_S300000x256
/-- The destination number of each edge: row 1 of the edge array, the first of each edge's 2. -/
abbrev dest2 (a : IVec S2x600000 32) : IVec S300000 32 :=
  shapeCast S300000 (extractStridedSlice S300000x1 ![0, 0] (shapeCast S300000x2 (shapeCast S600000 (extractStridedSlice S1x600000 ![1, 0] a slices_S2x600000_S1x600000_1_0) shapeCasts_S1x600000_S600000) shapeCasts_S600000_S300000x2) slices_S300000x2_S300000x1_0_0) shapeCasts_S300000x1_S300000
/-- The in-degree of every node: ones scattered by destination into zeros. -/
abbrev deg2 (d : IVec S300000 32) : FVec Ideal S100000 .f32 :=
  Host.scatterAdd scatter_S100000_S300000x1_S300000_n_0_0_1 (broadcastInDim S100000 ![] bcast_S_S100000 (constant (F := Ideal) S_ .f32 0x00000000#32))
    (broadcastInDim S300000x1 ![0] bcast_S300000_S300000x1_0 d) (broadcastInDim S300000 ![] bcast_S_S300000 (constant (F := Ideal) S_ .f32 0x3F800000#32))
/-- The raw aggregate: the messages scattered by destination into zeros. -/
abbrev raw2 (d : IVec S300000 32) (msg : FVec Ideal S300000x128 .f32) : FVec Ideal S100000x128 .f32 :=
  Host.scatterAdd scatter_S100000x128_S300000x1_S300000x128_1_0_0_1 (broadcastInDim S100000x128 ![] bcast_S_S100000x128 (constant (F := Ideal) S_ .f32 0x00000000#32))
    (broadcastInDim S300000x1 ![0] bcast_S300000_S300000x1_0 d) msg

/-! ### Relation 3: 200000 edges of 3 sources each -/

/-- The flat list of source numbers: row 0 of the edge array. -/
abbrev src3 (a : IVec S2x600000 32) : IVec S600000 32 :=
  shapeCast S600000 (extractStridedSlice S1x600000 ![0, 0] a slices_S2x600000_S1x600000_0_0) shapeCasts_S1x600000_S600000
/-- The same numbers as a table, one row of 3 per edge. -/
abbrev tbl3 (a : IVec S2x600000 32) : IVec S200000x3 32 := shapeCast S200000x3 (src3 a) shapeCasts_S600000_S200000x3
/-- The gathered operand: for each edge the 3 source rows of the features side by side, a negative number counted from
    the end. -/
abbrev gat3 (xb : FVec Ideal S100000x128 .bf16) (a : IVec S2x600000 32) : FVec Ideal S200000x384 .bf16 :=
  shapeCast S200000x384 (Host.gather gather_S100000x128_S200000x3x1_S200000x3x128_2_0_n_n_0_2_1128 xb
    (broadcastInDim S200000x3x1 ![0, 1] bcast_S200000x3_S200000x3x1_0_1
      (select (cmpi .slt (tbl3 a) (broadcastInDim S200000x3 ![] bcast_S_S200000x3 (constantI S_ 32 0#32)))
        (addi (tbl3 a) (broadcastInDim S200000x3 ![] bcast_S_S200000x3 (constantI S_ 32 100000#32))) (tbl3 a))))
    shapeCasts_S200000x3x128_S200000x384
/-- The destination number of each edge: row 1 of the edge array, the first of each edge's 3. -/
abbrev dest3 (a : IVec S2x600000 32) : IVec S200000 32 :=
  shapeCast S200000 (extractStridedSlice S200000x1 ![0, 0] (shapeCast S200000x3 (shapeCast S600000 (extractStridedSlice S1x600000 ![1, 0] a slices_S2x600000_S1x600000_1_0) shapeCasts_S1x600000_S600000) shapeCasts_S600000_S200000x3) slices_S200000x3_S200000x1_0_0) shapeCasts_S200000x1_S200000
/-- The in-degree of every node: ones scattered by destination into zeros. -/
abbrev deg3 (d : IVec S200000 32) : FVec Ideal S100000 .f32 :=
  Host.scatterAdd scatter_S100000_S200000x1_S200000_n_0_0_1 (broadcastInDim S100000 ![] bcast_S_S100000 (constant (F := Ideal) S_ .f32 0x00000000#32))
    (broadcastInDim S200000x1 ![0] bcast_S200000_S200000x1_0 d) (broadcastInDim S200000 ![] bcast_S_S200000 (constant (F := Ideal) S_ .f32 0x3F800000#32))
/-- The raw aggregate: the messages scattered by destination into zeros. -/
abbrev raw3 (d : IVec S200000 32) (msg : FVec Ideal S200000x128 .f32) : FVec Ideal S100000x128 .f32 :=
  Host.scatterAdd scatter_S100000x128_S200000x1_S200000x128_1_0_0_1 (broadcastInDim S100000x128 ![] bcast_S_S100000x128 (constant (F := Ideal) S_ .f32 0x00000000#32))
    (broadcastInDim S200000x1 ![0] bcast_S200000_S200000x1_0 d) msg

/-- The inverse in-degree as one column: 1 / deg where deg > 0, zero elsewhere. -/
abbrev inv (dg : FVec Ideal S100000 .f32) : FVec Ideal S100000x1 .f32 :=
  shapeCast S100000x1
    (select (cmpf (F := Ideal) .ogt dg (broadcastInDim S100000 ![] bcast_S_S100000 (constant (F := Ideal) S_ .f32 0x00000000#32)))
      (Host.divf (broadcastInDim S100000 ![] bcast_S_S100000 (constant (F := Ideal) S_ .f32 0x3F800000#32)) dg)
      (broadcastInDim S100000 ![] bcast_S_S100000 (id (constant (F := Ideal) S_ .f32 0x00000000#32))))
    shapeCasts_S100000_S100000x1

end Cert.KernelIdeal.HostTerms

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«133609_j19868518711903_2_alg».proof.Proof.LibPlainMatmul
import proofs.«133609_j19868518711903_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.FinalRegion.lean ====
/-
  Region 3 of the idealized kernel program: the node update.

  The grid has 50 points; point t takes rows 2000·t … 2000·t + 1999 of the node features X, of the three raw
  aggregates A1, A2, A3 and of the three one-column factor arrays I1, I2, I3, together with the whole weight matrix W
  and bias vector b, and writes rows 2000·t … of the result:
      out(p, q) = ((X·W)(p, q) + b(q)) + ((A1(p, q)·I1(p, 0) + A2(p, q)·I2(p, 0)) + A3(p, q)·I3(p, 0)).
  Entry (p, q) depends on row p of X, A1, A2, A3, I1, I2, I3 only, so every written block is the restriction of one
  array 'combine X W b A1 A2 A3 I1 I2 I3'; the 50 row blocks tile the result, which therefore IS that array.
-/
import proofs.«133609_j19868518711903_2_alg».proof.Proof.Gen.KernelIdeal.Frame
import proofs.«133609_j19868518711903_2_alg».proof.Proof.LibMatrixProduct
import proofs.«133609_j19868518711903_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.FinalRegion

open Cert.KernelIdeal Cert.KernelIdeal.Gen Cert.MatrixProduct
open Idealize.ShloMosaic Idealize.ShloMosaic.TcCoe Idealize.ShloMosaic.ValueIdx Idealize.SL.Sem
open Idealize.ShloMosaic.Pipeline (Dat Cfg Window)

/-- The node update as one array: a matrix product plus a bias row, plus three aggregates each scaled row by row by
    the one column of its factor array. -/
def combine {M : ℕ} (X : (⟨2, ![M, 128]⟩ : Shape).Idx → EReal) (W : (⟨2, ![128, 128]⟩ : Shape).Idx → EReal)
    (b : (⟨1, ![128]⟩ : Shape).Idx → EReal)
    (A1 A2 A3 : (⟨2, ![M, 128]⟩ : Shape).Idx → EReal) (I1 I2 I3 : (⟨2, ![M, 1]⟩ : Shape).Idx → EReal) :
    (⟨2, ![M, 128]⟩ : Shape).Idx → EReal :=
  fun i => (mm X W i + b (ix1 (i 1)))
    + ((A1 i * I1 (ix2 (i 0) (0 : Fin 1)) + A2 i * I2 (ix2 (i 0) (0 : Fin 1))) + A3 i * I3 (ix2 (i 0) (0 : Fin 1)))

/-- An entry of the node update depends on one row of each row-indexed operand. If the small operands hold, at row
    'j 0', row 'i 0' of the large ones, and the two indices have the same column, the two entries are equal. -/
theorem combine_of_row {M R : ℕ}
    (X : (⟨2, ![M, 128]⟩ : Shape).Idx → EReal) (W : (⟨2, ![128, 128]⟩ : Shape).Idx → EReal)
    (b : (⟨1, ![128]⟩ : Shape).Idx → EReal)
    (A1 A2 A3 : (⟨2, ![M, 128]⟩ : Shape).Idx → EReal) (I1 I2 I3 : (⟨2, ![M, 1]⟩ : Shape).Idx → EReal)
    (x : (⟨2, ![R, 128]⟩ : Shape).Idx → EReal) (w : (⟨2, ![128, 128]⟩ : Shape).Idx → EReal)
    (b' : (⟨1, ![128]⟩ : Shape).Idx → EReal)
    (a1 a2 a3 : (⟨2, ![R, 128]⟩ : Shape).Idx → EReal) (i1 i2 i3 : (⟨2, ![R, 1]⟩ : Shape).Idx → EReal)
    (j : (⟨2, ![R, 128]⟩ : Shape).Idx) (i : (⟨2, ![M, 128]⟩ : Shape).Idx)
    (hx : ∀ k : Fin 128, x (ix2 (j 0) k) = X (ix2 (i 0) k))
    (hw : ∀ k : Fin 128, w (ix2 k (j 1)) = W (ix2 k (i 1)))
    (hb : b' (ix1 (j 1)) = b (ix1 (i 1)))
    (h1 : a1 j = A1 i) (h2 : a2 j = A2 i) (h3 : a3 j = A3 i)
    (g1 : i1 (ix2 (j 0) (0 : Fin 1)) = I1 (ix2 (i 0) (0 : Fin 1)))
    (g2 : i2 (ix2 (j 0) (0 : Fin 1)) = I2 (ix2 (i 0) (0 : Fin 1)))
    (g3 : i3 (ix2 (j 0) (0 : Fin 1)) = I3 (ix2 (i 0) (0 : Fin 1))) :
    combine x w b' a1 a2 a3 i1 i2 i3 j = combine X W b A1 A2 A3 I1 I2 I3 i := by
  unfold combine
  rw [mm_of_row_col X W x w j i hx hw, hb, h1, h2, h3, g1, g2, g3]

variable (V : (c : Dev nD) → (b : Ref sig .tc) → Buf (Elt Ideal) ((c : Thread nD τ).loc b))

theorem offsets_zero : (![0, 0] : Fin 2 → Nat) = fun _ => 0 := funext fun a => by fin_cases a <;> rfl
theorem offset_zero : (![0] : Fin 1 → Nat) = fun _ => 0 := funext fun a => by fin_cases a; rfl

/-- The body's one stored value is the node update of its nine loaded blocks. -/
theorem payload_eq (x0 : Vec Ideal S2000x128 .bf16) (x1 : Vec Ideal S128x128 .bf16) (x2 : Vec Ideal S128 .f32)
    (a1 : Vec Ideal S2000x128 .f32) (i1 : Vec Ideal S2000x1 .f32) (a2 : Vec Ideal S2000x128 .f32) (i2 : Vec Ideal S2000x1 .f32)
    (a3 : Vec Ideal S2000x128 .f32) (i3 : Vec Ideal S2000x1 .f32) :
    k3_pay1 x0 x1 x2 a1 i1 a2 i2 a3 i3 = combine (M := 2000) x0 x1 x2 a1 a2 a3 i1 i2 i3 := by
  have hm : matmul (φ₁ := .bf16) (φ₂ := .bf16) dot_S2000x128_S128x128_S2000x128_1_0_0_1_n_n none x0 x1
        (constant (F := Ideal) S2000x128 .f32 0x00000000#32)
      = mm (m := 2000) (k := 128) (n := 128) x0 x1 := matmul_zero_eq_mm (φ₁ := .bf16) (φ₂ := .bf16) _ none x0 x1
  funext j
  obtain ⟨p, q, rfl⟩ : ∃ (p : Fin 2000) (q : Fin 128), j = ix2 p q := ⟨j 0, j 1, eq_ix2 j⟩
  show k3_pay1 x0 x1 x2 a1 i1 a2 i2 a3 i3 (ix2 p q)
    = (mm (m := 2000) (k := 128) (n := 128) x0 x1 (ix2 p q) + x2 (ix1 q))
      + ((a1 (ix2 p q) * i1 (ix2 p (0 : Fin 1)) + a2 (ix2 p q) * i2 (ix2 p (0 : Fin 1))) + a3 (ix2 p q) * i3 (ix2 p (0 : Fin 1)))
  unfold k3_pay1
  simp only [shapeCast_self]
  rw [hm]
  simp only [addf_apply, mulf_apply]
  rw [broadcastTo_a1_ab_apply, broadcastTo_a1_ab_apply, broadcastTo_a1_ab_apply, broadcastTo_1b_ab_apply,
    shapeCast_a_1a_apply]

/-- The printed index maps over the grid: every row-indexed operand's and the result's row block is the point's number;
    the weight matrix, the bias vector and every column block index are at zero. First the features, the weights, the
    bias and the result … -/
theorem index_maps : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ win3_2.index t (0 : Fin 1) = 0
    ∧ (win3_9.index t (0 : Fin 2) = t.val ∧ win3_9.index t (1 : Fin 2) = 0) :=
  (by decide +kernel : ∀ t : Fin grid3.N, _)

/-- … then the three aggregates … -/
theorem index_maps_agg : ∀ t : Fin cfg3.N,
    (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = t.val ∧ win3_5.index t (1 : Fin 2) = 0) :=
  (by decide +kernel : ∀ t : Fin grid3.N, _)

/-- … and the three factor columns. -/
theorem index_maps_inv : ∀ t : Fin cfg3.N,
    (win3_6.index t (0 : Fin 2) = t.val ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

set_option maxHeartbeats 4000000 in
/-- What point t writes back is block t of the node update of the nine whole operand arrays. -/
theorem flushed_eq (c : Dev nD) (t : Fin cfg3.N) :
    (dat3 V c).flushed 9 t = ((cfg3.win 9).blk t).view.read (Elt Ideal)
      (combine (M := 100000) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  show (cfg3.win 9).cut (grid3.coords t) ((dat3 V c).after 9 t) = _
  rw [after3_9]
  unfold out3_9
  rw [View.canon_unit_zero offsets_zero]
  simp only [View.ld_unit_zero (S := S2000x128) offsets_zero, View.ld_unit_zero (S := S128x128) offsets_zero,
    View.ld_unit_zero (S := S128) offset_zero, View.ld_unit_zero (S := S2000x1) offsets_zero]
  rw [payload_eq]
  obtain ⟨⟨e00, e01⟩, ⟨e10, e11⟩, e2, ⟨e90, e91⟩⟩ := index_maps t
  obtain ⟨⟨e30, e31⟩, ⟨e40, e41⟩, ⟨e50, e51⟩⟩ := index_maps_agg t
  obtain ⟨⟨e60, e61⟩, ⟨e70, e71⟩, ⟨e80, e81⟩⟩ := index_maps_inv t
  funext j
  show combine (M := 2000) (iblk3 V c 0 t) (iblk3 V c 1 t) (iblk3 V c 2 t) (iblk3 V c 3 t) (iblk3 V c 4 t) (iblk3 V c 5 t)
      (iblk3 V c 6 t) (iblk3 V c 7 t) (iblk3 V c 8 t) j
    = combine (M := 100000) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))
      (((cfg3.win 9).blk t).view.emb j)
  refine combine_of_row (M := 100000) (R := 2000) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))
    (iblk3 V c 0 t) (iblk3 V c 1 t) (iblk3 V c 2 t) (iblk3 V c 3 t) (iblk3 V c 4 t) (iblk3 V c 5 t)
    (iblk3 V c 6 t) (iblk3 V c 7 t) (iblk3 V c 8 t) j (((cfg3.win 9).blk t).view.emb j)
    (fun k => ?_) (fun k => ?_) ?_ ?_ ?_ ?_ ?_ ?_ ?_
  · show V c (Pipeline.arrRef spec3 0) (((cfg3.win 0).blk t).view.emb (ix2 (j 0) k))
      = V c (Pipeline.arrRef spec3 0) (ix2 ((((cfg3.win 9).blk t).view.emb j) 0) k)
    refine congrArg _ (funext fun a => Fin.ext ?_)
    match a with
    | ⟨0, _⟩ =>
      show win3_0.index t (0 : Fin 2) * 2000 + 1 * (j 0).val = win3_9.index t (0 : Fin 2) * 2000 + 1 * (j 0).val
      omega
    | ⟨1, _⟩ =>
      show win3_0.index t (1 : Fin 2) * 128 + 1 * k.val = k.val
      omega
  · show V c (Pipeline.arrRef spec3 1) (((cfg3.win 1).blk t).view.emb (ix2 k (j 1)))
      = V c (Pipeline.arrRef spec3 1) (ix2 k ((((cfg3.win 9).blk t).view.emb j) 1))
    refine congrArg _ (funext fun a => Fin.ext ?_)
    match a with
    | ⟨0, _⟩ =>
      show win3_1.index t (0 : Fin 2) * 128 + 1 * k.val = k.val
      omega
    | ⟨1, _⟩ =>
      show win3_1.index t (1 : Fin 2) * 128 + 1 * (j 1).val = win3_9.index t (1 : Fin 2) * 128 + 1 * (j 1).val
      omega
  · show V c (Pipeline.arrRef spec3 2) (((cfg3.win 2).blk t).view.emb (ix1 (j 1)))
      = V c (Pipeline.arrRef spec3 2) (ix1 ((((cfg3.win 9).blk t).view.emb j) 1))
    refine congrArg _ (funext fun a => Fin.ext ?_)
    match a with
    | ⟨0, _⟩ =>
      show win3_2.index t (0 : Fin 1) * 128 + 1 * (j 1).val = win3_9.index t (1 : Fin 2) * 128 + 1 * (j 1).val
      omega
  ·
    show V c (Pipeline.arrRef spec3 3) (((cfg3.win 3).blk t).view.emb j) = V c (Pipeline.arrRef spec3 3) (((cfg3.win 9).blk t).view.emb j)
    refine congrArg _ (funext fun a => Fin.ext ?_)
    match a with
    | ⟨0, _⟩ =>
      show win3_3.index t (0 : Fin 2) * 2000 + 1 * (j 0).val = win3_9.index t (0 : Fin 2) * 2000 + 1 * (j 0).val
      omega
    | ⟨1, _⟩ =>
      show win3_3.index t (1 : Fin 2) * 128 + 1 * (j 1).val = win3_9.index t (1 : Fin 2) * 128 + 1 * (j 1).val
      omega
  ·
    show V c (Pipeline.arrRef spec3 4) (((cfg3.win 4).blk t).view.emb j) = V c (Pipeline.arrRef spec3 4) (((cfg3.win 9).blk t).view.emb j)
    refine congrArg _ (funext fun a => Fin.ext ?_)
    match a with
    | ⟨0, _⟩ =>
      show win3_4.index t (0 : Fin 2) * 2000 + 1 * (j 0).val = win3_9.index t (0 : Fin 2) * 2000 + 1 * (j 0).val
      omega
    | ⟨1, _⟩ =>
      show win3_4.index t (1 : Fin 2) * 128 + 1 * (j 1).val = win3_9.index t (1 : Fin 2) * 128 + 1 * (j 1).val
      omega
  ·
    show V c (Pipeline.arrRef spec3 5) (((cfg3.win 5).blk t).view.emb j) = V c (Pipeline.arrRef spec3 5) (((cfg3.win 9).blk t).view.emb j)
    refine congrArg _ (funext fun a => Fin.ext ?_)
    match a with
    | ⟨0, _⟩ =>
      show win3_5.index t (0 : Fin 2) * 2000 + 1 * (j 0).val = win3_9.index t (0 : Fin 2) * 2000 + 1 * (j 0).val
      omega
    | ⟨1, _⟩ =>
      show win3_5.index t (1 : Fin 2) * 128 + 1 * (j 1).val = win3_9.index t (1 : Fin 2) * 128 + 1 * (j 1).val
      omega
  ·
    show V c (Pipeline.arrRef spec3 6) (((cfg3.win 6).blk t).view.emb (ix2 (j 0) (0 : Fin 1)))
      = V c (Pipeline.arrRef spec3 6) (ix2 ((((cfg3.win 9).blk t).view.emb j) 0) (0 : Fin 1))
    refine congrArg _ (funext fun a => Fin.ext ?_)
    match a with
    | ⟨0, _⟩ =>
      show win3_6.index t (0 : Fin 2) * 2000 + 1 * (j 0).val = win3_9.index t (0 : Fin 2) * 2000 + 1 * (j 0).val
      omega
    | ⟨1, _⟩ =>
      show win3_6.index t (1 : Fin 2) * 1 + 1 * 0 = 0
      omega
  ·
    show V c (Pipeline.arrRef spec3 7) (((cfg3.win 7).blk t).view.emb (ix2 (j 0) (0 : Fin 1)))
      = V c (Pipeline.arrRef spec3 7) (ix2 ((((cfg3.win 9).blk t).view.emb j) 0) (0 : Fin 1))
    refine congrArg _ (funext fun a => Fin.ext ?_)
    match a with
    | ⟨0, _⟩ =>
      show win3_7.index t (0 : Fin 2) * 2000 + 1 * (j 0).val = win3_9.index t (0 : Fin 2) * 2000 + 1 * (j 0).val
      omega
    | ⟨1, _⟩ =>
      show win3_7.index t (1 : Fin 2) * 1 + 1 * 0 = 0
      omega
  ·
    show V c (Pipeline.arrRef spec3 8) (((cfg3.win 8).blk t).view.emb (ix2 (j 0) (0 : Fin 1)))
      = V c (Pipeline.arrRef spec3 8) (ix2 ((((cfg3.win 9).blk t).view.emb j) 0) (0 : Fin 1))
    refine congrArg _ (funext fun a => Fin.ext ?_)
    match a with
    | ⟨0, _⟩ =>
      show win3_8.index t (0 : Fin 2) * 2000 + 1 * (j 0).val = win3_9.index t (0 : Fin 2) * 2000 + 1 * (j 0).val
      omega
    | ⟨1, _⟩ =>
      show win3_8.index t (1 : Fin 2) * 1 + 1 * 0 = 0
      omega

/-- An index of the result array is in point t's block iff each coordinate is in the block's range on its axis. -/
theorem mem_block (t : Fin cfg3.N) (i : S100000x128.Idx) :
    i ∈ ((cfg3.win 9).blk t).view.set ↔ ∀ a : Fin 2, win3_9.index t a * S2000x128.size a ≤ (i a).val
      ∧ (i a).val < win3_9.index t a * S2000x128.size a + S2000x128.size a := by
  show i ∈ ((View.whole main_v94).slice (win3_9.rect t)).set ↔ _
  rw [View.set_slice_whole, Rect.mem_set_unit]
  exact Iff.rfl

/-- Every index of the result array lies in the block of the point numbered by its row divided by 2000. -/
theorem covered (i : S100000x128.Idx) :
    ∃ t : Fin cfg3.N, (cfg3.win 9).flush t = true ∧ i ∈ ((cfg3.win 9).blk t).view.set := by
  have hi0 : (i 0).val < 100000 := (i 0).isLt
  have hi1 : (i 1).val < 128 := (i 1).isLt
  have hN : (i 0).val / 2000 < cfg3.N := by
    show (i 0).val / 2000 < grid3.N
    rw [N_3]; omega
  refine ⟨⟨(i 0).val / 2000, hN⟩, flush3_9 _, ?_⟩
  rw [mem_block]
  obtain ⟨-, -, -, ⟨e90, e91⟩⟩ := index_maps ⟨(i 0).val / 2000, hN⟩
  intro a
  match a with
  | ⟨0, _⟩ =>
    show win3_9.index ⟨(i 0).val / 2000, hN⟩ (0 : Fin 2) * 2000 ≤ (i 0).val
      ∧ (i 0).val < win3_9.index ⟨(i 0).val / 2000, hN⟩ (0 : Fin 2) * 2000 + 2000
    rw [e90]
    show (i 0).val / 2000 * 2000 ≤ (i 0).val ∧ (i 0).val < (i 0).val / 2000 * 2000 + 2000
    omega
  | ⟨1, _⟩ =>
    show win3_9.index ⟨(i 0).val / 2000, hN⟩ (1 : Fin 2) * 128 ≤ (i 1).val
      ∧ (i 1).val < win3_9.index ⟨(i 0).val / 2000, hN⟩ (1 : Fin 2) * 128 + 128
    rw [e91]
    omega

/-- THE RESULT ARRAY after the region: the node update of the nine operand arrays as the region found them. -/
theorem array_eq (c : Dev nD) :
    (dat3 V c).arrAt 9 cfg3.N
      = combine (M := 100000) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 V c).arrAt_eq_of_cover 9 _ (fun t _ => flushed_eq V c t) (covered)

end Cert.KernelIdeal.FinalRegion

end
-- ==== Proof.KernelValue.lean ====
/-
  The idealized kernel program's result as ONE array of its nine arguments.

  With X the node features, W and b the update's weights and bias, and for each relation t the gathered operand G_t,
  its weights A_t, the destination numbers d_t and the in-degrees deg_t they give:
      result = combine X W b (scatter d_1 (G_1·A_1)) (scatter d_2 (G_2·A_2)) (scatter d_3 (G_3·A_3))
                             (inv deg_1) (inv deg_2) (inv deg_3).
  The program narrows X, W and the A_t to a 16-bit float format before use; over the extended reals a change of float
  format is the identity, and the narrowed arrays are written here as the program writes them.
-/
import proofs.«133609_j19868518711903_2_alg».proof.Proof.HostTerms
import proofs.«133609_j19868518711903_2_alg».proof.Proof.FinalRegion

noncomputable section

namespace Cert.KernelIdeal.HostTerms

open Cert.KernelIdeal Cert.KernelIdeal.Gen Cert.MatrixProduct Idealize.ShloMosaic Idealize.ShloMosaic.TcCoe

/-- The messages of relation 1: the gathered operand times the relation's weights. -/
abbrev msg1 (a0 : FVec Ideal S100000x128 .f32) (a1 : IVec S2x400000 32) (a4 : FVec Ideal S128x128 .f32) : FVec Ideal S400000x128 .f32 :=
  mm (m := 400000) (k := 128) (n := 128) (gat1 (truncf .bf16 a0 bitsLt_bf16_f32) a1) (truncf .bf16 a4 bitsLt_bf16_f32)
/-- The messages of relation 2. -/
abbrev msg2 (a0 : FVec Ideal S100000x128 .f32) (a2 : IVec S2x600000 32) (a5 : FVec Ideal S256x128 .f32) : FVec Ideal S300000x128 .f32 :=
  mm (m := 300000) (k := 256) (n := 128) (gat2 (truncf .bf16 a0 bitsLt_bf16_f32) a2) (truncf .bf16 a5 bitsLt_bf16_f32)
/-- The messages of relation 3. -/
abbrev msg3 (a0 : FVec Ideal S100000x128 .f32) (a3 : IVec S2x600000 32) (a6 : FVec Ideal S384x128 .f32) : FVec Ideal S200000x128 .f32 :=
  mm (m := 200000) (k := 384) (n := 128) (gat3 (truncf .bf16 a0 bitsLt_bf16_f32) a3) (truncf .bf16 a6 bitsLt_bf16_f32)

/-- The program's result array as a function of its nine arguments. -/
def kernelValue (a0 : FVec Ideal S100000x128 .f32) (a1 : IVec S2x400000 32) (a2 a3 : IVec S2x600000 32)
    (a4 : FVec Ideal S128x128 .f32) (a5 : FVec Ideal S256x128 .f32) (a6 : FVec Ideal S384x128 .f32)
    (a7 : FVec Ideal S128x128 .f32) (a8 : FVec Ideal S128 .f32) : FVec Ideal S100000x128 .f32 :=
  FinalRegion.combine (M := 100000) (truncf .bf16 a0 bitsLt_bf16_f32) (truncf .bf16 a7 bitsLt_bf16_f32) a8
    (raw1 (dest1 a1) (msg1 a0 a1 a4)) (raw2 (dest2 a2) (msg2 a0 a2 a5)) (raw3 (dest3 a3) (msg3 a0 a3 a6))
    (inv (deg1 (dest1 a1))) (inv (deg2 (dest2 a2))) (inv (deg3 (dest3 a3)))

end Cert.KernelIdeal.HostTerms

end
-- ==== Proof.MsgRegion0.lean ====
/-
  Region 0 of the idealized kernel program: the messages of one relation.

  The region's grid has 40 points; point t multiplies rows 10000·t … 10000·t + 9999 of the gathered 400000 × 128
  operand by the whole 128 × 128 weight matrix on the matrix unit, into an accumulator of zeros, and writes the
  10000 × 128 product back as the same rows of the result. An entry of a matrix product depends on one row of the left
  factor only, so each written block is the restriction of ONE array, the product of the two whole operands; the
  40 row blocks tile the result, so after the region the result array IS that product.
-/
import proofs.«133609_j19868518711903_2_alg».proof.Proof.Gen.KernelIdeal.Frame
import proofs.«133609_j19868518711903_2_alg».proof.Proof.LibMatrixProduct
import Idealize.ShloMosaic.Lib.Pipeline.Value
import Idealize.ShloMosaic.Lib.ValueIdx

set_option maxRecDepth 16384

noncomputable section

namespace Cert.KernelIdeal.MsgRegion0

open Cert.KernelIdeal Cert.KernelIdeal.Gen Cert.MatrixProduct
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's one stored value is the matrix product of its two loaded blocks. -/
theorem payload_eq (x0 : Vec Ideal S10000x128 .bf16) (x1 : Vec Ideal S128x128 .bf16) :
    k0_pay1 x0 x1 = mm (m := 10000) (k := 128) (n := 128) x0 x1 := by
  unfold k0_pay1
  dsimp only
  rw [shapeCast_self, shapeCast_self]
  exact matmul_zero_eq_mm _ none x0 x1

/-- The printed index maps over the grid: the left operand's and the result's row block is the point's number, every
    other block index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two whole operand arrays. -/
theorem flushed_eq (c : Dev nD) (t : Fin cfg0.N) :
    (dat0 V c).flushed 2 t = ((cfg0.win 2).blk t).view.read (Elt Ideal)
      (mm (m := 400000) (k := 128) (n := 128) (V c (Pipeline.arrRef spec0 0)) (V c (Pipeline.arrRef spec0 1))) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x128) offsets_zero]
  rw [payload_eq]
  obtain ⟨e0, e1, e2, e3, e4, e5⟩ := index_maps t
  funext j
  show mm (m := 10000) (k := 128) (n := 128) (iblk0 V c 0 t) (iblk0 V c 1 t) j
    = mm (m := 400000) (k := 128) (n := 128) (V c (Pipeline.arrRef spec0 0)) (V c (Pipeline.arrRef spec0 1)) (((cfg0.win 2).blk t).view.emb j)
  refine mm_of_row_col _ _ _ _ j _ (fun k => ?_) (fun k => ?_)
  · show V c (Pipeline.arrRef spec0 0) (((cfg0.win 0).blk t).view.emb (ix2 (j 0) k))
      = V c (Pipeline.arrRef spec0 0) (ix2 ((((cfg0.win 2).blk t).view.emb j) 0) k)
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V c (Pipeline.arrRef spec0 1) (((cfg0.win 1).blk t).view.emb (ix2 k (j 1)))
      = V c (Pipeline.arrRef spec0 1) (ix2 k ((((cfg0.win 2).blk t).view.emb j) 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the result array is in point t's block iff each coordinate is in the block's range on its axis. -/
theorem mem_block (t : Fin cfg0.N) (i : S400000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v20).slice (win0_2.rect t)).set ↔ _
  rw [View.set_slice_whole, Rect.mem_set_unit]
  exact Iff.rfl

/-- Every index of the result array lies in the block of the point numbered by its row divided by 10000. -/
theorem covered (i : S400000x128.Idx) :
    ∃ t : Fin cfg0.N, (cfg0.win 2).flush t = true ∧ i ∈ ((cfg0.win 2).blk t).view.set := by
  have hi0 : (i 0).val < 400000 := (i 0).isLt
  have hi1 : (i 1).val < 128 := (i 1).isLt
  have hN : (i 0).val / 10000 < cfg0.N := by
    show (i 0).val / 10000 < grid0.N
    rw [N_0]; omega
  refine ⟨⟨(i 0).val / 10000, hN⟩, flush0_2 _, ?_⟩
  rw [mem_block]
  obtain ⟨e0, e1, e2, e3, e4, e5⟩ := index_maps ⟨(i 0).val / 10000, hN⟩
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [e5]
    omega

/-- THE RESULT ARRAY after the region: the product of the two operand arrays as the region found them. -/
theorem array_eq (c : Dev nD) :
    (dat0 V c).arrAt 2 cfg0.N
      = mm (m := 400000) (k := 128) (n := 128) (V c (Pipeline.arrRef spec0 0)) (V c (Pipeline.arrRef spec0 1)) :=
  (dat0 V c).arrAt_eq_of_cover 2 _ (fun t _ => flushed_eq V c t) (covered)

end Cert.KernelIdeal.MsgRegion0

end
-- ==== Proof.MsgRegion1.lean ====
/-
  Region 1 of the idealized kernel program: the messages of one relation.

  The region's grid has 30 points; point t multiplies rows 10000·t … 10000·t + 9999 of the gathered 300000 × 256
  operand by the whole 256 × 128 weight matrix on the matrix unit, into an accumulator of zeros, and writes the
  10000 × 128 product back as the same rows of the result. An entry of a matrix product depends on one row of the left
  factor only, so each written block is the restriction of ONE array, the product of the two whole operands; the
  30 row blocks tile the result, so after the region the result array IS that product.
-/
import proofs.«133609_j19868518711903_2_alg».proof.Proof.Gen.KernelIdeal.Frame
import proofs.«133609_j19868518711903_2_alg».proof.Proof.LibMatrixProduct
import Idealize.ShloMosaic.Lib.Pipeline.Value
import Idealize.ShloMosaic.Lib.ValueIdx

set_option maxRecDepth 16384

noncomputable section

namespace Cert.KernelIdeal.MsgRegion1

open Cert.KernelIdeal Cert.KernelIdeal.Gen Cert.MatrixProduct
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's one stored value is the matrix product of its two loaded blocks. -/
theorem payload_eq (x0 : Vec Ideal S10000x256 .bf16) (x1 : Vec Ideal S256x128 .bf16) :
    k1_pay1 x0 x1 = mm (m := 10000) (k := 256) (n := 128) x0 x1 := by
  unfold k1_pay1
  dsimp only
  rw [shapeCast_self, shapeCast_self]
  exact matmul_zero_eq_mm _ none x0 x1

/-- The printed index maps over the grid: the left operand's and the result's row block is the point's number, every
    other block index is zero. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two whole operand arrays. -/
theorem flushed_eq (c : Dev nD) (t : Fin cfg1.N) :
    (dat1 V c).flushed 2 t = ((cfg1.win 2).blk t).view.read (Elt Ideal)
      (mm (m := 300000) (k := 256) (n := 128) (V c (Pipeline.arrRef spec1 0)) (V c (Pipeline.arrRef spec1 1))) := by
  show (cfg1.win 2).cut (grid1.coords t) ((dat1 V c).after 2 t) = _
  rw [after1_2]
  unfold out1_2
  rw [View.canon_unit_zero offsets_zero]
  simp only [View.ld_unit_zero (S := S10000x256) offsets_zero, View.ld_unit_zero (S := S256x128) offsets_zero]
  rw [payload_eq]
  obtain ⟨e0, e1, e2, e3, e4, e5⟩ := index_maps t
  funext j
  show mm (m := 10000) (k := 256) (n := 128) (iblk1 V c 0 t) (iblk1 V c 1 t) j
    = mm (m := 300000) (k := 256) (n := 128) (V c (Pipeline.arrRef spec1 0)) (V c (Pipeline.arrRef spec1 1)) (((cfg1.win 2).blk t).view.emb j)
  refine mm_of_row_col _ _ _ _ j _ (fun k => ?_) (fun k => ?_)
  · show V c (Pipeline.arrRef spec1 0) (((cfg1.win 0).blk t).view.emb (ix2 (j 0) k))
      = V c (Pipeline.arrRef spec1 0) (ix2 ((((cfg1.win 2).blk t).view.emb j) 0) k)
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 256 + 1 * k.val = k.val
      omega
  · show V c (Pipeline.arrRef spec1 1) (((cfg1.win 1).blk t).view.emb (ix2 k (j 1)))
      = V c (Pipeline.arrRef spec1 1) (ix2 k ((((cfg1.win 2).blk t).view.emb j) 1))
    refine congrArg _ (funext fun a => Fin.ext ?_)
    match a with
    | ⟨0, _⟩ =>
      show win1_1.index t (0 : Fin 2) * 256 + 1 * k.val = k.val
      omega
    | ⟨1, _⟩ =>
      show win1_1.index t (1 : Fin 2) * 128 + 1 * (j 1).val = win1_2.index t (1 : Fin 2) * 128 + 1 * (j 1).val
      omega

/-- An index of the result array is in point t's block iff each coordinate is in the block's range on its axis. -/
theorem mem_block (t : Fin cfg1.N) (i : S300000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v44).slice (win1_2.rect t)).set ↔ _
  rw [View.set_slice_whole, Rect.mem_set_unit]
  exact Iff.rfl

/-- Every index of the result array lies in the block of the point numbered by its row divided by 10000. -/
theorem covered (i : S300000x128.Idx) :
    ∃ t : Fin cfg1.N, (cfg1.win 2).flush t = true ∧ i ∈ ((cfg1.win 2).blk t).view.set := by
  have hi0 : (i 0).val < 300000 := (i 0).isLt
  have hi1 : (i 1).val < 128 := (i 1).isLt
  have hN : (i 0).val / 10000 < cfg1.N := by
    show (i 0).val / 10000 < grid1.N
    rw [N_1]; omega
  refine ⟨⟨(i 0).val / 10000, hN⟩, flush1_2 _, ?_⟩
  rw [mem_block]
  obtain ⟨e0, e1, e2, e3, e4, e5⟩ := index_maps ⟨(i 0).val / 10000, hN⟩
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    rw [e5]
    omega

/-- THE RESULT ARRAY after the region: the product of the two operand arrays as the region found them. -/
theorem array_eq (c : Dev nD) :
    (dat1 V c).arrAt 2 cfg1.N
      = mm (m := 300000) (k := 256) (n := 128) (V c (Pipeline.arrRef spec1 0)) (V c (Pipeline.arrRef spec1 1)) :=
  (dat1 V c).arrAt_eq_of_cover 2 _ (fun t _ => flushed_eq V c t) (covered)

end Cert.KernelIdeal.MsgRegion1

end
-- ==== Proof.MsgRegion2.lean ====
/-
  Region 2 of the idealized kernel program: the messages of one relation.

  The region's grid has 20 points; point t multiplies rows 10000·t … 10000·t + 9999 of the gathered 200000 × 384
  operand by the whole 384 × 128 weight matrix on the matrix unit, into an accumulator of zeros, and writes the
  10000 × 128 product back as the same rows of the result. An entry of a matrix product depends on one row of the left
  factor only, so each written block is the restriction of ONE array, the product of the two whole operands; the
  20 row blocks tile the result, so after the region the result array IS that product.
-/
import proofs.«133609_j19868518711903_2_alg».proof.Proof.Gen.KernelIdeal.Frame
import proofs.«133609_j19868518711903_2_alg».proof.Proof.LibMatrixProduct
import Idealize.ShloMosaic.Lib.Pipeline.Value
import Idealize.ShloMosaic.Lib.ValueIdx

set_option maxRecDepth 16384

noncomputable section

namespace Cert.KernelIdeal.MsgRegion2

open Cert.KernelIdeal Cert.KernelIdeal.Gen Cert.MatrixProduct
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's one stored value is the matrix product of its two loaded blocks. -/
theorem payload_eq (x0 : Vec Ideal S10000x384 .bf16) (x1 : Vec Ideal S384x128 .bf16) :
    k2_pay1 x0 x1 = mm (m := 10000) (k := 384) (n := 128) x0 x1 := by
  unfold k2_pay1
  dsimp only
  rw [shapeCast_self, shapeCast_self]
  exact matmul_zero_eq_mm _ none x0 x1

/-- The printed index maps over the grid: the left operand's and the result's row block is the point's number, every
    other block index is zero. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two whole operand arrays. -/
theorem flushed_eq (c : Dev nD) (t : Fin cfg2.N) :
    (dat2 V c).flushed 2 t = ((cfg2.win 2).blk t).view.read (Elt Ideal)
      (mm (m := 200000) (k := 384) (n := 128) (V c (Pipeline.arrRef spec2 0)) (V c (Pipeline.arrRef spec2 1))) := by
  show (cfg2.win 2).cut (grid2.coords t) ((dat2 V c).after 2 t) = _
  rw [after2_2]
  unfold out2_2
  rw [View.canon_unit_zero offsets_zero]
  simp only [View.ld_unit_zero (S := S10000x384) offsets_zero, View.ld_unit_zero (S := S384x128) offsets_zero]
  rw [payload_eq]
  obtain ⟨e0, e1, e2, e3, e4, e5⟩ := index_maps t
  funext j
  show mm (m := 10000) (k := 384) (n := 128) (iblk2 V c 0 t) (iblk2 V c 1 t) j
    = mm (m := 200000) (k := 384) (n := 128) (V c (Pipeline.arrRef spec2 0)) (V c (Pipeline.arrRef spec2 1)) (((cfg2.win 2).blk t).view.emb j)
  refine mm_of_row_col _ _ _ _ j _ (fun k => ?_) (fun k => ?_)
  · show V c (Pipeline.arrRef spec2 0) (((cfg2.win 0).blk t).view.emb (ix2 (j 0) k))
      = V c (Pipeline.arrRef spec2 0) (ix2 ((((cfg2.win 2).blk t).view.emb j) 0) k)
    refine congrArg _ (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 384 + 1 * k.val = k.val
      omega
  · show V c (Pipeline.arrRef spec2 1) (((cfg2.win 1).blk t).view.emb (ix2 k (j 1)))
      = V c (Pipeline.arrRef spec2 1) (ix2 k ((((cfg2.win 2).blk t).view.emb j) 1))
    refine congrArg _ (funext fun a => Fin.ext ?_)
    match a with
    | ⟨0, _⟩ =>
      show win2_1.index t (0 : Fin 2) * 384 + 1 * k.val = k.val
      omega
    | ⟨1, _⟩ =>
      show win2_1.index t (1 : Fin 2) * 128 + 1 * (j 1).val = win2_2.index t (1 : Fin 2) * 128 + 1 * (j 1).val
      omega

/-- An index of the result array is in point t's block iff each coordinate is in the block's range on its axis. -/
theorem mem_block (t : Fin cfg2.N) (i : S200000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v68).slice (win2_2.rect t)).set ↔ _
  rw [View.set_slice_whole, Rect.mem_set_unit]
  exact Iff.rfl

/-- Every index of the result array lies in the block of the point numbered by its row divided by 10000. -/
theorem covered (i : S200000x128.Idx) :
    ∃ t : Fin cfg2.N, (cfg2.win 2).flush t = true ∧ i ∈ ((cfg2.win 2).blk t).view.set := by
  have hi0 : (i 0).val < 200000 := (i 0).isLt
  have hi1 : (i 1).val < 128 := (i 1).isLt
  have hN : (i 0).val / 10000 < cfg2.N := by
    show (i 0).val / 10000 < grid2.N
    rw [N_2]; omega
  refine ⟨⟨(i 0).val / 10000, hN⟩, flush2_2 _, ?_⟩
  rw [mem_block]
  obtain ⟨e0, e1, e2, e3, e4, e5⟩ := index_maps ⟨(i 0).val / 10000, hN⟩
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hN⟩ (1 : Fin 2) * 128 ≤ (i 1).val
      ∧ (i 1).val < win2_2.index ⟨(i 0).val / 10000, hN⟩ (1 : Fin 2) * 128 + 128
    rw [e5]
    omega

/-- THE RESULT ARRAY after the region: the product of the two operand arrays as the region found them. -/
theorem array_eq (c : Dev nD) :
    (dat2 V c).arrAt 2 cfg2.N
      = mm (m := 200000) (k := 384) (n := 128) (V c (Pipeline.arrRef spec2 0)) (V c (Pipeline.arrRef spec2 1)) :=
  (dat2 V c).arrAt_eq_of_cover 2 _ (fun t _ => flushed_eq V c t) (covered)

end Cert.KernelIdeal.MsgRegion2

end
-- ==== Proof.HostWalkA.lean ====
/-
  The buffer contents of the idealized kernel program at the boundaries between its segments, up to the exit of the
  third message region.

  The generated frame folds the contents through the segments: a stretch of host operations rewrites the buffers it
  computes and leaves every other buffer as it was; a region rewrites its result array and nothing else. Here each
  buffer a later segment reads is followed through that fold to a closed array of the launch memory: at the stretch
  that computes it, by evaluating the stretch's operations; through every other segment, unchanged. A region's result
  is the product of its two operands as the region found them.
-/
import proofs.«133609_j19868518711903_2_alg».proof.Proof.Gen.KernelIdeal.Frame
import proofs.«133609_j19868518711903_2_alg».proof.Proof.KernelValue
import proofs.«133609_j19868518711903_2_alg».proof.Proof.MsgRegion0
import proofs.«133609_j19868518711903_2_alg».proof.Proof.MsgRegion1
import proofs.«133609_j19868518711903_2_alg».proof.Proof.MsgRegion2
import Idealize.ShloMosaic.Lib.StableHlo.Run
import Idealize.ShloMosaic.Lib.ValueIdx

set_option maxRecDepth 16384
set_option maxHeartbeats 1000000

noncomputable section

namespace Cert.KernelIdeal.HostWalk

open Cert.KernelIdeal Cert.KernelIdeal.Gen Cert.MatrixProduct
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem W0_arg0 (c : Dev nD) : W0 m ρ c (Proc.devRef .tc main_arg0) = (m ((c : Thread nD τ).loc main_arg0)) := rfl
theorem W0_arg1 (c : Dev nD) : W0 m ρ c (Proc.devRef .tc main_arg1) = (m ((c : Thread nD τ).loc main_arg1)) := rfl
theorem W0_arg2 (c : Dev nD) : W0 m ρ c (Proc.devRef .tc main_arg2) = (m ((c : Thread nD τ).loc main_arg2)) := rfl
theorem W0_arg3 (c : Dev nD) : W0 m ρ c (Proc.devRef .tc main_arg3) = (m ((c : Thread nD τ).loc main_arg3)) := rfl
theorem W0_arg4 (c : Dev nD) : W0 m ρ c (Proc.devRef .tc main_arg4) = (m ((c : Thread nD τ).loc main_arg4)) := rfl
theorem W0_arg5 (c : Dev nD) : W0 m ρ c (Proc.devRef .tc main_arg5) = (m ((c : Thread nD τ).loc main_arg5)) := rfl
theorem W0_arg6 (c : Dev nD) : W0 m ρ c (Proc.devRef .tc main_arg6) = (m ((c : Thread nD τ).loc main_arg6)) := rfl
theorem W0_arg7 (c : Dev nD) : W0 m ρ c (Proc.devRef .tc main_arg7) = (m ((c : Thread nD τ).loc main_arg7)) := rfl

/-! ### Boundary 1: after the host operations `hostOps0` -/

theorem W1_arg0 (c : Dev nD) : W1 m ρ c (Proc.devRef .tc main_arg0) = (m ((c : Thread nD τ).loc main_arg0)) :=
  (show StableHlo.after hostOps0 (W0 m ρ c) (Proc.devRef .tc main_arg0) = W0 m ρ c (Proc.devRef .tc main_arg0) by
    generalize W0 m ρ c = F; after_results).trans (W0_arg0 m ρ c)
theorem W1_arg1 (c : Dev nD) : W1 m ρ c (Proc.devRef .tc main_arg1) = (m ((c : Thread nD τ).loc main_arg1)) :=
  (show StableHlo.after hostOps0 (W0 m ρ c) (Proc.devRef .tc main_arg1) = W0 m ρ c (Proc.devRef .tc main_arg1) by
    generalize W0 m ρ c = F; after_results).trans (W0_arg1 m ρ c)
theorem W1_arg2 (c : Dev nD) : W1 m ρ c (Proc.devRef .tc main_arg2) = (m ((c : Thread nD τ).loc main_arg2)) :=
  (show StableHlo.after hostOps0 (W0 m ρ c) (Proc.devRef .tc main_arg2) = W0 m ρ c (Proc.devRef .tc main_arg2) by
    generalize W0 m ρ c = F; after_results).trans (W0_arg2 m ρ c)
theorem W1_arg3 (c : Dev nD) : W1 m ρ c (Proc.devRef .tc main_arg3) = (m ((c : Thread nD τ).loc main_arg3)) :=
  (show StableHlo.after hostOps0 (W0 m ρ c) (Proc.devRef .tc main_arg3) = W0 m ρ c (Proc.devRef .tc main_arg3) by
    generalize W0 m ρ c = F; after_results).trans (W0_arg3 m ρ c)
theorem W1_arg4 (c : Dev nD) : W1 m ρ c (Proc.devRef .tc main_arg4) = (m ((c : Thread nD τ).loc main_arg4)) :=
  (show StableHlo.after hostOps0 (W0 m ρ c) (Proc.devRef .tc main_arg4) = W0 m ρ c (Proc.devRef .tc main_arg4) by
    generalize W0 m ρ c = F; after_results).trans (W0_arg4 m ρ c)
theorem W1_arg5 (c : Dev nD) : W1 m ρ c (Proc.devRef .tc main_arg5) = (m ((c : Thread nD τ).loc main_arg5)) :=
  (show StableHlo.after hostOps0 (W0 m ρ c) (Proc.devRef .tc main_arg5) = W0 m ρ c (Proc.devRef .tc main_arg5) by
    generalize W0 m ρ c = F; after_results).trans (W0_arg5 m ρ c)
theorem W1_arg6 (c : Dev nD) : W1 m ρ c (Proc.devRef .tc main_arg6) = (m ((c : Thread nD τ).loc main_arg6)) :=
  (show StableHlo.after hostOps0 (W0 m ρ c) (Proc.devRef .tc main_arg6) = W0 m ρ c (Proc.devRef .tc main_arg6) by
    generalize W0 m ρ c = F; after_results).trans (W0_arg6 m ρ c)
theorem W1_arg7 (c : Dev nD) : W1 m ρ c (Proc.devRef .tc main_arg7) = (m ((c : Thread nD τ).loc main_arg7)) :=
  (show StableHlo.after hostOps0 (W0 m ρ c) (Proc.devRef .tc main_arg7) = W0 m ρ c (Proc.devRef .tc main_arg7) by
    generalize W0 m ρ c = F; after_results).trans (W0_arg7 m ρ c)
theorem W1_v0 (c : Dev nD) : W1 m ρ c (Proc.devRef .tc main_v0) = (truncf (F := Ideal) (s := S100000x128) (φ := .f32) .bf16 (m ((c : Thread nD τ).loc main_arg0)) bitsLt_bf16_f32) := by
  have e : StableHlo.after hostOps0 (W0 m ρ c) (Proc.devRef .tc main_v0) = truncf (F := Ideal) (s := S100000x128) (φ := .f32) .bf16 (W0 m ρ c (Proc.devRef .tc main_arg0)) bitsLt_bf16_f32 := by
    generalize W0 m ρ c = F
    after_results
    try rfl
  rw [W0_arg0 m ρ c] at e
  exact e
theorem W1_v1 (c : Dev nD) : W1 m ρ c (Proc.devRef .tc main_v1) = (truncf (F := Ideal) (s := S128x128) (φ := .f32) .bf16 (m ((c : Thread nD τ).loc main_arg4)) bitsLt_bf16_f32) := by
  have e : StableHlo.after hostOps0 (W0 m ρ c) (Proc.devRef .tc main_v1) = truncf (F := Ideal) (s := S128x128) (φ := .f32) .bf16 (W0 m ρ c (Proc.devRef .tc main_arg4)) bitsLt_bf16_f32 := by
    generalize W0 m ρ c = F
    after_results
    try rfl
  rw [W0_arg4 m ρ c] at e
  exact e
theorem W1_v2 (c : Dev nD) : W1 m ρ c (Proc.devRef .tc main_v2) = (truncf (F := Ideal) (s := S256x128) (φ := .f32) .bf16 (m ((c : Thread nD τ).loc main_arg5)) bitsLt_bf16_f32) := by
  have e : StableHlo.after hostOps0 (W0 m ρ c) (Proc.devRef .tc main_v2) = truncf (F := Ideal) (s := S256x128) (φ := .f32) .bf16 (W0 m ρ c (Proc.devRef .tc main_arg5)) bitsLt_bf16_f32 := by
    generalize W0 m ρ c = F
    after_results
    try rfl
  rw [W0_arg5 m ρ c] at e
  exact e
theorem W1_v3 (c : Dev nD) : W1 m ρ c (Proc.devRef .tc main_v3) = (truncf (F := Ideal) (s := S384x128) (φ := .f32) .bf16 (m ((c : Thread nD τ).loc main_arg6)) bitsLt_bf16_f32) := by
  have e : StableHlo.after hostOps0 (W0 m ρ c) (Proc.devRef .tc main_v3) = truncf (F := Ideal) (s := S384x128) (φ := .f32) .bf16 (W0 m ρ c (Proc.devRef .tc main_arg6)) bitsLt_bf16_f32 := by
    generalize W0 m ρ c = F
    after_results
    try rfl
  rw [W0_arg6 m ρ c] at e
  exact e
theorem W1_v4 (c : Dev nD) : W1 m ρ c (Proc.devRef .tc main_v4) = (truncf (F := Ideal) (s := S128x128) (φ := .f32) .bf16 (m ((c : Thread nD τ).loc main_arg7)) bitsLt_bf16_f32) := by
  have e : StableHlo.after hostOps0 (W0 m ρ c) (Proc.devRef .tc main_v4) = truncf (F := Ideal) (s := S128x128) (φ := .f32) .bf16 (W0 m ρ c (Proc.devRef .tc main_arg7)) bitsLt_bf16_f32 := by
    generalize W0 m ρ c = F
    after_results
    try rfl
  rw [W0_arg7 m ρ c] at e
  exact e
theorem W1_v11 (c : Dev nD) : W1 m ρ c (Proc.devRef .tc main_v11) = (HostTerms.dest1 (m ((c : Thread nD τ).loc main_arg1))) := by
  have e : StableHlo.after hostOps0 (W0 m ρ c) (Proc.devRef .tc main_v11) = HostTerms.dest1 (W0 m ρ c (Proc.devRef .tc main_arg1)) := by
    generalize W0 m ρ c = F
    after_results
    try rfl
  rw [W0_arg1 m ρ c] at e
  exact e
theorem W1_v19 (c : Dev nD) : W1 m ρ c (Proc.devRef .tc main_v19) = (HostTerms.gat1 (truncf (F := Ideal) (s := S100000x128) (φ := .f32) .bf16 (m ((c : Thread nD τ).loc main_arg0)) bitsLt_bf16_f32) (m ((c : Thread nD τ).loc main_arg1))) := by
  have e : StableHlo.after hostOps0 (W0 m ρ c) (Proc.devRef .tc main_v19) = HostTerms.gat1 (truncf (F := Ideal) (s := S100000x128) (φ := .f32) .bf16 (W0 m ρ c (Proc.devRef .tc main_arg0)) bitsLt_bf16_f32) (W0 m ρ c (Proc.devRef .tc main_arg1)) := by
    generalize W0 m ρ c = F
    after_results
    try rfl
  rw [W0_arg0 m ρ c, W0_arg1 m ρ c] at e
  exact e

/-! ### Boundary 2: after region 0 -/

theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_v0 (c : Dev nD) : W2 m ρ c (Proc.devRef .tc main_v0) = (truncf (F := Ideal) (s := S100000x128) (φ := .f32) .bf16 (m ((c : Thread nD τ).loc main_arg0)) bitsLt_bf16_f32) :=
  (W2_of_ne m ρ c main_v0 (by decide)).trans (W1_v0 m ρ c)
theorem W2_v2 (c : Dev nD) : W2 m ρ c (Proc.devRef .tc main_v2) = (truncf (F := Ideal) (s := S256x128) (φ := .f32) .bf16 (m ((c : Thread nD τ).loc main_arg5)) bitsLt_bf16_f32) :=
  (W2_of_ne m ρ c main_v2 (by decide)).trans (W1_v2 m ρ c)
theorem W2_v3 (c : Dev nD) : W2 m ρ c (Proc.devRef .tc main_v3) = (truncf (F := Ideal) (s := S384x128) (φ := .f32) .bf16 (m ((c : Thread nD τ).loc main_arg6)) bitsLt_bf16_f32) :=
  (W2_of_ne m ρ c main_v3 (by decide)).trans (W1_v3 m ρ c)
theorem W2_v4 (c : Dev nD) : W2 m ρ c (Proc.devRef .tc main_v4) = (truncf (F := Ideal) (s := S128x128) (φ := .f32) .bf16 (m ((c : Thread nD τ).loc main_arg7)) bitsLt_bf16_f32) :=
  (W2_of_ne m ρ c main_v4 (by decide)).trans (W1_v4 m ρ c)
theorem W2_v11 (c : Dev nD) : W2 m ρ c (Proc.devRef .tc main_v11) = (HostTerms.dest1 (m ((c : Thread nD τ).loc main_arg1))) :=
  (W2_of_ne m ρ c main_v11 (by decide)).trans (W1_v11 m ρ c)
theorem W2_v20 (c : Dev nD) : W2 m ρ c (Proc.devRef .tc main_v20) = (HostTerms.msg1 (m ((c : Thread nD τ).loc main_arg0)) (m ((c : Thread nD τ).loc main_arg1)) (m ((c : Thread nD τ).loc main_arg4))) := by
  have h := W2_arr m ρ c 2
  rw [MsgRegion0.array_eq (V1 m ρ) c] at h
  have h0 : V1 m ρ c (Pipeline.arrRef spec0 0) = (HostTerms.gat1 (truncf (F := Ideal) (s := S100000x128) (φ := .f32) .bf16 (m ((c : Thread nD τ).loc main_arg0)) bitsLt_bf16_f32) (m ((c : Thread nD τ).loc main_arg1))) := W1_v19 m ρ c
  have h1 : V1 m ρ c (Pipeline.arrRef spec0 1) = (truncf (F := Ideal) (s := S128x128) (φ := .f32) .bf16 (m ((c : Thread nD τ).loc main_arg4)) bitsLt_bf16_f32) := W1_v1 m ρ c
  rw [h0, h1] at h
  exact h

/-! ### Boundary 3: after the host operations `hostOps1` -/

theorem W3_arg2 (c : Dev nD) : W3 m ρ c (Proc.devRef .tc main_arg2) = (m ((c : Thread nD τ).loc main_arg2)) :=
  (show StableHlo.after hostOps1 (W2 m ρ c) (Proc.devRef .tc main_arg2) = W2 m ρ c (Proc.devRef .tc main_arg2) by
    generalize W2 m ρ c = F; after_results).trans (W2_arg2 m ρ c)
theorem W3_arg3 (c : Dev nD) : W3 m ρ c (Proc.devRef .tc main_arg3) = (m ((c : Thread nD τ).loc main_arg3)) :=
  (show StableHlo.after hostOps1 (W2 m ρ c) (Proc.devRef .tc main_arg3) = W2 m ρ c (Proc.devRef .tc main_arg3) by
    generalize W2 m ρ c = F; after_results).trans (W2_arg3 m ρ c)
theorem W3_v0 (c : Dev nD) : W3 m ρ c (Proc.devRef .tc main_v0) = (truncf (F := Ideal) (s := S100000x128) (φ := .f32) .bf16 (m ((c : Thread nD τ).loc main_arg0)) bitsLt_bf16_f32) :=
  (show StableHlo.after hostOps1 (W2 m ρ c) (Proc.devRef .tc main_v0) = W2 m ρ c (Proc.devRef .tc main_v0) by
    generalize W2 m ρ c = F; after_results).trans (W2_v0 m ρ c)
theorem W3_v2 (c : Dev nD) : W3 m ρ c (Proc.devRef .tc main_v2) = (truncf (F := Ideal) (s := S256x128) (φ := .f32) .bf16 (m ((c : Thread nD τ).loc main_arg5)) bitsLt_bf16_f32) :=
  (show StableHlo.after hostOps1 (W2 m ρ c) (Proc.devRef .tc main_v2) = W2 m ρ c (Proc.devRef .tc main_v2) by
    generalize W2 m ρ c = F; after_results).trans (W2_v2 m ρ c)
theorem W3_v3 (c : Dev nD) : W3 m ρ c (Proc.devRef .tc main_v3) = (truncf (F := Ideal) (s := S384x128) (φ := .f32) .bf16 (m ((c : Thread nD τ).loc main_arg6)) bitsLt_bf16_f32) :=
  (show StableHlo.after hostOps1 (W2 m ρ c) (Proc.devRef .tc main_v3) = W2 m ρ c (Proc.devRef .tc main_v3) by
    generalize W2 m ρ c = F; after_results).trans (W2_v3 m ρ c)
theorem W3_v4 (c : Dev nD) : W3 m ρ c (Proc.devRef .tc main_v4) = (truncf (F := Ideal) (s := S128x128) (φ := .f32) .bf16 (m ((c : Thread nD τ).loc main_arg7)) bitsLt_bf16_f32) :=
  (show StableHlo.after hostOps1 (W2 m ρ c) (Proc.devRef .tc main_v4) = W2 m ρ c (Proc.devRef .tc main_v4) by
    generalize W2 m ρ c = F; after_results).trans (W2_v4 m ρ c)
theorem W3_v11 (c : Dev nD) : W3 m ρ c (Proc.devRef .tc main_v11) = (HostTerms.dest1 (m ((c : Thread nD τ).loc main_arg1))) :=
  (show StableHlo.after hostOps1 (W2 m ρ c) (Proc.devRef .tc main_v11) = W2 m ρ c (Proc.devRef .tc main_v11) by
    generalize W2 m ρ c = F; after_results).trans (W2_v11 m ρ c)
theorem W3_v20 (c : Dev nD) : W3 m ρ c (Proc.devRef .tc main_v20) = (HostTerms.msg1 (m ((c : Thread nD τ).loc main_arg0)) (m ((c : Thread nD τ).loc main_arg1)) (m ((c : Thread nD τ).loc main_arg4))) :=
  (show StableHlo.after hostOps1 (W2 m ρ c) (Proc.devRef .tc main_v20) = W2 m ρ c (Proc.devRef .tc main_v20) by
    generalize W2 m ρ c = F; after_results).trans (W2_v20 m ρ c)
theorem W3_v24 (c : Dev nD) : W3 m ρ c (Proc.devRef .tc main_v24) = (HostTerms.deg1 (HostTerms.dest1 (m ((c : Thread nD τ).loc main_arg1)))) := by
  have e : StableHlo.after hostOps1 (W2 m ρ c) (Proc.devRef .tc main_v24) = HostTerms.deg1 (W2 m ρ c (Proc.devRef .tc main_v11)) := by
    generalize W2 m ρ c = F
    after_results
    try rfl
  rw [W2_v11 m ρ c] at e
  exact e
theorem W3_v27 (c : Dev nD) : W3 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) := by
  have e : StableHlo.after hostOps1 (W2 m ρ c) (Proc.devRef .tc main_v27) = HostTerms.raw1 (W2 m ρ c (Proc.devRef .tc main_v11)) (W2 m ρ c (Proc.devRef .tc main_v20)) := by
    generalize W2 m ρ c = F
    after_results
    try rfl
  rw [W2_v11 m ρ c, W2_v20 m ρ c] at e
  exact e
theorem W3_v35 (c : Dev nD) : W3 m ρ c (Proc.devRef .tc main_v35) = (HostTerms.dest2 (m ((c : Thread nD τ).loc main_arg2))) := by
  have e : StableHlo.after hostOps1 (W2 m ρ c) (Proc.devRef .tc main_v35) = HostTerms.dest2 (W2 m ρ c (Proc.devRef .tc main_arg2)) := by
    generalize W2 m ρ c = F
    after_results
    try rfl
  rw [W2_arg2 m ρ c] at e
  exact e
theorem W3_v43 (c : Dev nD) : W3 m ρ c (Proc.devRef .tc main_v43) = (HostTerms.gat2 (truncf (F := Ideal) (s := S100000x128) (φ := .f32) .bf16 (m ((c : Thread nD τ).loc main_arg0)) bitsLt_bf16_f32) (m ((c : Thread nD τ).loc main_arg2))) := by
  have e : StableHlo.after hostOps1 (W2 m ρ c) (Proc.devRef .tc main_v43) = HostTerms.gat2 (W2 m ρ c (Proc.devRef .tc main_v0)) (W2 m ρ c (Proc.devRef .tc main_arg2)) := by
    generalize W2 m ρ c = F
    after_results
    try rfl
  rw [W2_v0 m ρ c, W2_arg2 m ρ c] at e
  exact e

/-! ### Boundary 4: after region 1 -/

theorem W4_arg3 (c : Dev nD) : W4 m ρ c (Proc.devRef .tc main_arg3) = (m ((c : Thread nD τ).loc main_arg3)) :=
  (W4_of_ne m ρ c main_arg3 (by decide)).trans (W3_arg3 m ρ c)
theorem W4_v0 (c : Dev nD) : W4 m ρ c (Proc.devRef .tc main_v0) = (truncf (F := Ideal) (s := S100000x128) (φ := .f32) .bf16 (m ((c : Thread nD τ).loc main_arg0)) bitsLt_bf16_f32) :=
  (W4_of_ne m ρ c main_v0 (by decide)).trans (W3_v0 m ρ c)
theorem W4_v3 (c : Dev nD) : W4 m ρ c (Proc.devRef .tc main_v3) = (truncf (F := Ideal) (s := S384x128) (φ := .f32) .bf16 (m ((c : Thread nD τ).loc main_arg6)) bitsLt_bf16_f32) :=
  (W4_of_ne m ρ c main_v3 (by decide)).trans (W3_v3 m ρ c)
theorem W4_v4 (c : Dev nD) : W4 m ρ c (Proc.devRef .tc main_v4) = (truncf (F := Ideal) (s := S128x128) (φ := .f32) .bf16 (m ((c : Thread nD τ).loc main_arg7)) bitsLt_bf16_f32) :=
  (W4_of_ne m ρ c main_v4 (by decide)).trans (W3_v4 m ρ c)
theorem W4_v24 (c : Dev nD) : W4 m ρ c (Proc.devRef .tc main_v24) = (HostTerms.deg1 (HostTerms.dest1 (m ((c : Thread nD τ).loc main_arg1)))) :=
  (W4_of_ne m ρ c main_v24 (by decide)).trans (W3_v24 m ρ c)
theorem W4_v27 (c : Dev nD) : W4 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (W4_of_ne m ρ c main_v27 (by decide)).trans (W3_v27 m ρ c)
theorem W4_v35 (c : Dev nD) : W4 m ρ c (Proc.devRef .tc main_v35) = (HostTerms.dest2 (m ((c : Thread nD τ).loc main_arg2))) :=
  (W4_of_ne m ρ c main_v35 (by decide)).trans (W3_v35 m ρ c)
theorem W4_v44 (c : Dev nD) : W4 m ρ c (Proc.devRef .tc main_v44) = (HostTerms.msg2 (m ((c : Thread nD τ).loc main_arg0)) (m ((c : Thread nD τ).loc main_arg2)) (m ((c : Thread nD τ).loc main_arg5))) := by
  have h := W4_arr m ρ c 2
  rw [MsgRegion1.array_eq (V3 m ρ) c] at h
  have h0 : V3 m ρ c (Pipeline.arrRef spec1 0) = (HostTerms.gat2 (truncf (F := Ideal) (s := S100000x128) (φ := .f32) .bf16 (m ((c : Thread nD τ).loc main_arg0)) bitsLt_bf16_f32) (m ((c : Thread nD τ).loc main_arg2))) := W3_v43 m ρ c
  have h1 : V3 m ρ c (Pipeline.arrRef spec1 1) = (truncf (F := Ideal) (s := S256x128) (φ := .f32) .bf16 (m ((c : Thread nD τ).loc main_arg5)) bitsLt_bf16_f32) := W3_v2 m ρ c
  rw [h0, h1] at h
  exact h

/-! ### Boundary 5: after the host operations `hostOps2` -/

theorem W5_arg3 (c : Dev nD) : W5 m ρ c (Proc.devRef .tc main_arg3) = (m ((c : Thread nD τ).loc main_arg3)) :=
  (show StableHlo.after hostOps2 (W4 m ρ c) (Proc.devRef .tc main_arg3) = W4 m ρ c (Proc.devRef .tc main_arg3) by
    generalize W4 m ρ c = F; after_results).trans (W4_arg3 m ρ c)
theorem W5_v0 (c : Dev nD) : W5 m ρ c (Proc.devRef .tc main_v0) = (truncf (F := Ideal) (s := S100000x128) (φ := .f32) .bf16 (m ((c : Thread nD τ).loc main_arg0)) bitsLt_bf16_f32) :=
  (show StableHlo.after hostOps2 (W4 m ρ c) (Proc.devRef .tc main_v0) = W4 m ρ c (Proc.devRef .tc main_v0) by
    generalize W4 m ρ c = F; after_results).trans (W4_v0 m ρ c)
theorem W5_v3 (c : Dev nD) : W5 m ρ c (Proc.devRef .tc main_v3) = (truncf (F := Ideal) (s := S384x128) (φ := .f32) .bf16 (m ((c : Thread nD τ).loc main_arg6)) bitsLt_bf16_f32) :=
  (show StableHlo.after hostOps2 (W4 m ρ c) (Proc.devRef .tc main_v3) = W4 m ρ c (Proc.devRef .tc main_v3) by
    generalize W4 m ρ c = F; after_results).trans (W4_v3 m ρ c)
theorem W5_v4 (c : Dev nD) : W5 m ρ c (Proc.devRef .tc main_v4) = (truncf (F := Ideal) (s := S128x128) (φ := .f32) .bf16 (m ((c : Thread nD τ).loc main_arg7)) bitsLt_bf16_f32) :=
  (show StableHlo.after hostOps2 (W4 m ρ c) (Proc.devRef .tc main_v4) = W4 m ρ c (Proc.devRef .tc main_v4) by
    generalize W4 m ρ c = F; after_results).trans (W4_v4 m ρ c)
theorem W5_v24 (c : Dev nD) : W5 m ρ c (Proc.devRef .tc main_v24) = (HostTerms.deg1 (HostTerms.dest1 (m ((c : Thread nD τ).loc main_arg1)))) :=
  (show StableHlo.after hostOps2 (W4 m ρ c) (Proc.devRef .tc main_v24) = W4 m ρ c (Proc.devRef .tc main_v24) by
    generalize W4 m ρ c = F; after_results).trans (W4_v24 m ρ c)
theorem W5_v27 (c : Dev nD) : W5 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps2 (W4 m ρ c) (Proc.devRef .tc main_v27) = W4 m ρ c (Proc.devRef .tc main_v27) by
    generalize W4 m ρ c = F; after_results).trans (W4_v27 m ρ c)
theorem W5_v35 (c : Dev nD) : W5 m ρ c (Proc.devRef .tc main_v35) = (HostTerms.dest2 (m ((c : Thread nD τ).loc main_arg2))) :=
  (show StableHlo.after hostOps2 (W4 m ρ c) (Proc.devRef .tc main_v35) = W4 m ρ c (Proc.devRef .tc main_v35) by
    generalize W4 m ρ c = F; after_results).trans (W4_v35 m ρ c)
theorem W5_v44 (c : Dev nD) : W5 m ρ c (Proc.devRef .tc main_v44) = (HostTerms.msg2 (m ((c : Thread nD τ).loc main_arg0)) (m ((c : Thread nD τ).loc main_arg2)) (m ((c : Thread nD τ).loc main_arg5))) :=
  (show StableHlo.after hostOps2 (W4 m ρ c) (Proc.devRef .tc main_v44) = W4 m ρ c (Proc.devRef .tc main_v44) by
    generalize W4 m ρ c = F; after_results).trans (W4_v44 m ρ c)
theorem W5_v48 (c : Dev nD) : W5 m ρ c (Proc.devRef .tc main_v48) = (HostTerms.deg2 (HostTerms.dest2 (m ((c : Thread nD τ).loc main_arg2)))) := by
  have e : StableHlo.after hostOps2 (W4 m ρ c) (Proc.devRef .tc main_v48) = HostTerms.deg2 (W4 m ρ c (Proc.devRef .tc main_v35)) := by
    generalize W4 m ρ c = F
    after_results
    try rfl
  rw [W4_v35 m ρ c] at e
  exact e
theorem W5_v51 (c : Dev nD) : W5 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) := by
  have e : StableHlo.after hostOps2 (W4 m ρ c) (Proc.devRef .tc main_v51) = HostTerms.raw2 (W4 m ρ c (Proc.devRef .tc main_v35)) (W4 m ρ c (Proc.devRef .tc main_v44)) := by
    generalize W4 m ρ c = F
    after_results
    try rfl
  rw [W4_v35 m ρ c, W4_v44 m ρ c] at e
  exact e
theorem W5_v59 (c : Dev nD) : W5 m ρ c (Proc.devRef .tc main_v59) = (HostTerms.dest3 (m ((c : Thread nD τ).loc main_arg3))) := by
  have e : StableHlo.after hostOps2 (W4 m ρ c) (Proc.devRef .tc main_v59) = HostTerms.dest3 (W4 m ρ c (Proc.devRef .tc main_arg3)) := by
    generalize W4 m ρ c = F
    after_results
    try rfl
  rw [W4_arg3 m ρ c] at e
  exact e
theorem W5_v67 (c : Dev nD) : W5 m ρ c (Proc.devRef .tc main_v67) = (HostTerms.gat3 (truncf (F := Ideal) (s := S100000x128) (φ := .f32) .bf16 (m ((c : Thread nD τ).loc main_arg0)) bitsLt_bf16_f32) (m ((c : Thread nD τ).loc main_arg3))) := by
  have e : StableHlo.after hostOps2 (W4 m ρ c) (Proc.devRef .tc main_v67) = HostTerms.gat3 (W4 m ρ c (Proc.devRef .tc main_v0)) (W4 m ρ c (Proc.devRef .tc main_arg3)) := by
    generalize W4 m ρ c = F
    after_results
    try rfl
  rw [W4_v0 m ρ c, W4_arg3 m ρ c] at e
  exact e

/-! ### Boundary 6: after region 2 -/

theorem W6_v0 (c : Dev nD) : W6 m ρ c (Proc.devRef .tc main_v0) = (truncf (F := Ideal) (s := S100000x128) (φ := .f32) .bf16 (m ((c : Thread nD τ).loc main_arg0)) bitsLt_bf16_f32) :=
  (W6_of_ne m ρ c main_v0 (by decide)).trans (W5_v0 m ρ c)
theorem W6_v4 (c : Dev nD) : W6 m ρ c (Proc.devRef .tc main_v4) = (truncf (F := Ideal) (s := S128x128) (φ := .f32) .bf16 (m ((c : Thread nD τ).loc main_arg7)) bitsLt_bf16_f32) :=
  (W6_of_ne m ρ c main_v4 (by decide)).trans (W5_v4 m ρ c)
theorem W6_v24 (c : Dev nD) : W6 m ρ c (Proc.devRef .tc main_v24) = (HostTerms.deg1 (HostTerms.dest1 (m ((c : Thread nD τ).loc main_arg1)))) :=
  (W6_of_ne m ρ c main_v24 (by decide)).trans (W5_v24 m ρ c)
theorem W6_v27 (c : Dev nD) : W6 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (W6_of_ne m ρ c main_v27 (by decide)).trans (W5_v27 m ρ c)
theorem W6_v48 (c : Dev nD) : W6 m ρ c (Proc.devRef .tc main_v48) = (HostTerms.deg2 (HostTerms.dest2 (m ((c : Thread nD τ).loc main_arg2)))) :=
  (W6_of_ne m ρ c main_v48 (by decide)).trans (W5_v48 m ρ c)
theorem W6_v51 (c : Dev nD) : W6 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (W6_of_ne m ρ c main_v51 (by decide)).trans (W5_v51 m ρ c)
theorem W6_v59 (c : Dev nD) : W6 m ρ c (Proc.devRef .tc main_v59) = (HostTerms.dest3 (m ((c : Thread nD τ).loc main_arg3))) :=
  (W6_of_ne m ρ c main_v59 (by decide)).trans (W5_v59 m ρ c)
theorem W6_v68 (c : Dev nD) : W6 m ρ c (Proc.devRef .tc main_v68) = (HostTerms.msg3 (m ((c : Thread nD τ).loc main_arg0)) (m ((c : Thread nD τ).loc main_arg3)) (m ((c : Thread nD τ).loc main_arg6))) := by
  have h := W6_arr m ρ c 2
  rw [MsgRegion2.array_eq (V5 m ρ) c] at h
  have h0 : V5 m ρ c (Pipeline.arrRef spec2 0) = (HostTerms.gat3 (truncf (F := Ideal) (s := S100000x128) (φ := .f32) .bf16 (m ((c : Thread nD τ).loc main_arg0)) bitsLt_bf16_f32) (m ((c : Thread nD τ).loc main_arg3))) := W5_v67 m ρ c
  have h1 : V5 m ρ c (Pipeline.arrRef spec2 1) = (truncf (F := Ideal) (s := S384x128) (φ := .f32) .bf16 (m ((c : Thread nD τ).loc main_arg6)) bitsLt_bf16_f32) := W5_v3 m ρ c
  rw [h0, h1] at h
  exact h

end Cert.KernelIdeal.HostWalk

end
-- ==== Proof.HostWalkB.lean ====
/-
  The buffer contents of the idealized kernel program at the boundaries between its segments, from the exit of the third
  message region to the entry of the node-update region: the third relation's scatters, and the three inverse
  in-degree columns (a comparison, a quotient, a select through an outlined function, a reshape each).
-/
import proofs.«133609_j19868518711903_2_alg».proof.Proof.Gen.KernelIdeal.Frame
import proofs.«133609_j19868518711903_2_alg».proof.Proof.KernelValue
import proofs.«133609_j19868518711903_2_alg».proof.Proof.MsgRegion0
import proofs.«133609_j19868518711903_2_alg».proof.Proof.MsgRegion1
import proofs.«133609_j19868518711903_2_alg».proof.Proof.MsgRegion2
import proofs.«133609_j19868518711903_2_alg».proof.Proof.HostWalkA
import Idealize.ShloMosaic.Lib.StableHlo.Run
import Idealize.ShloMosaic.Lib.ValueIdx

set_option maxRecDepth 16384
set_option maxHeartbeats 1000000

noncomputable section

namespace Cert.KernelIdeal.HostWalk

open Cert.KernelIdeal Cert.KernelIdeal.Gen Cert.MatrixProduct
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ### Boundary 7: after the host operations `hostOps3` -/

theorem W7_v0 (c : Dev nD) : W7 m ρ c (Proc.devRef .tc main_v0) = (truncf (F := Ideal) (s := S100000x128) (φ := .f32) .bf16 (m ((c : Thread nD τ).loc main_arg0)) bitsLt_bf16_f32) :=
  (show StableHlo.after hostOps3 (W6 m ρ c) (Proc.devRef .tc main_v0) = W6 m ρ c (Proc.devRef .tc main_v0) by
    generalize W6 m ρ c = F; after_results).trans (W6_v0 m ρ c)
theorem W7_v4 (c : Dev nD) : W7 m ρ c (Proc.devRef .tc main_v4) = (truncf (F := Ideal) (s := S128x128) (φ := .f32) .bf16 (m ((c : Thread nD τ).loc main_arg7)) bitsLt_bf16_f32) :=
  (show StableHlo.after hostOps3 (W6 m ρ c) (Proc.devRef .tc main_v4) = W6 m ρ c (Proc.devRef .tc main_v4) by
    generalize W6 m ρ c = F; after_results).trans (W6_v4 m ρ c)
theorem W7_v24 (c : Dev nD) : W7 m ρ c (Proc.devRef .tc main_v24) = (HostTerms.deg1 (HostTerms.dest1 (m ((c : Thread nD τ).loc main_arg1)))) :=
  (show StableHlo.after hostOps3 (W6 m ρ c) (Proc.devRef .tc main_v24) = W6 m ρ c (Proc.devRef .tc main_v24) by
    generalize W6 m ρ c = F; after_results).trans (W6_v24 m ρ c)
theorem W7_v27 (c : Dev nD) : W7 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps3 (W6 m ρ c) (Proc.devRef .tc main_v27) = W6 m ρ c (Proc.devRef .tc main_v27) by
    generalize W6 m ρ c = F; after_results).trans (W6_v27 m ρ c)
theorem W7_v48 (c : Dev nD) : W7 m ρ c (Proc.devRef .tc main_v48) = (HostTerms.deg2 (HostTerms.dest2 (m ((c : Thread nD τ).loc main_arg2)))) :=
  (show StableHlo.after hostOps3 (W6 m ρ c) (Proc.devRef .tc main_v48) = W6 m ρ c (Proc.devRef .tc main_v48) by
    generalize W6 m ρ c = F; after_results).trans (W6_v48 m ρ c)
theorem W7_v51 (c : Dev nD) : W7 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (show StableHlo.after hostOps3 (W6 m ρ c) (Proc.devRef .tc main_v51) = W6 m ρ c (Proc.devRef .tc main_v51) by
    generalize W6 m ρ c = F; after_results).trans (W6_v51 m ρ c)
theorem W7_v59 (c : Dev nD) : W7 m ρ c (Proc.devRef .tc main_v59) = (HostTerms.dest3 (m ((c : Thread nD τ).loc main_arg3))) :=
  (show StableHlo.after hostOps3 (W6 m ρ c) (Proc.devRef .tc main_v59) = W6 m ρ c (Proc.devRef .tc main_v59) by
    generalize W6 m ρ c = F; after_results).trans (W6_v59 m ρ c)
theorem W7_v68 (c : Dev nD) : W7 m ρ c (Proc.devRef .tc main_v68) = (HostTerms.msg3 (m ((c : Thread nD τ).loc main_arg0)) (m ((c : Thread nD τ).loc main_arg3)) (m ((c : Thread nD τ).loc main_arg6))) :=
  (show StableHlo.after hostOps3 (W6 m ρ c) (Proc.devRef .tc main_v68) = W6 m ρ c (Proc.devRef .tc main_v68) by
    generalize W6 m ρ c = F; after_results).trans (W6_v68 m ρ c)
theorem W7_v72 (c : Dev nD) : W7 m ρ c (Proc.devRef .tc main_v72) = (HostTerms.deg3 (HostTerms.dest3 (m ((c : Thread nD τ).loc main_arg3)))) := by
  have e : StableHlo.after hostOps3 (W6 m ρ c) (Proc.devRef .tc main_v72) = HostTerms.deg3 (W6 m ρ c (Proc.devRef .tc main_v59)) := by
    generalize W6 m ρ c = F
    after_results
    try rfl
  rw [W6_v59 m ρ c] at e
  exact e
theorem W7_v75 (c : Dev nD) : W7 m ρ c (Proc.devRef .tc main_v75) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) := by
  have e : StableHlo.after hostOps3 (W6 m ρ c) (Proc.devRef .tc main_v75) = HostTerms.raw3 (W6 m ρ c (Proc.devRef .tc main_v59)) (W6 m ρ c (Proc.devRef .tc main_v68)) := by
    generalize W6 m ρ c = F
    after_results
    try rfl
  rw [W6_v59 m ρ c, W6_v68 m ρ c] at e
  exact e
theorem W7_v77 (c : Dev nD) : W7 m ρ c (Proc.devRef .tc main_v77) = (cmpf (F := Ideal) .ogt (HostTerms.deg1 (HostTerms.dest1 (m ((c : Thread nD τ).loc main_arg1)))) (broadcastInDim S100000 ![] bcast_S_S100000 (constant (F := Ideal) S_ .f32 0x00000000#32))) := by
  have e : StableHlo.after hostOps3 (W6 m ρ c) (Proc.devRef .tc main_v77) = cmpf (F := Ideal) .ogt (W6 m ρ c (Proc.devRef .tc main_v24)) (broadcastInDim S100000 ![] bcast_S_S100000 (constant (F := Ideal) S_ .f32 0x00000000#32)) := by
    generalize W6 m ρ c = F
    after_results
    try rfl
  rw [W6_v24 m ρ c] at e
  exact e
theorem W7_v79 (c : Dev nD) : W7 m ρ c (Proc.devRef .tc main_v79) = (Host.divf (broadcastInDim S100000 ![] bcast_S_S100000 (constant (F := Ideal) S_ .f32 0x3F800000#32)) (HostTerms.deg1 (HostTerms.dest1 (m ((c : Thread nD τ).loc main_arg1))))) := by
  have e : StableHlo.after hostOps3 (W6 m ρ c) (Proc.devRef .tc main_v79) = Host.divf (broadcastInDim S100000 ![] bcast_S_S100000 (constant (F := Ideal) S_ .f32 0x3F800000#32)) (W6 m ρ c (Proc.devRef .tc main_v24)) := by
    generalize W6 m ρ c = F
    after_results
    try rfl
  rw [W6_v24 m ρ c] at e
  exact e
theorem W7_cst_15 (c : Dev nD) : W7 m ρ c (Proc.devRef .tc main_cst_15) = (constant (F := Ideal) S_ .f32 0x00000000#32) := by
  have e : StableHlo.after hostOps3 (W6 m ρ c) (Proc.devRef .tc main_cst_15) = constant (F := Ideal) S_ .f32 0x00000000#32 := by
    generalize W6 m ρ c = F
    after_results
    try rfl
  exact e

/-! ### Boundary 8: after the host operations `hostOps3_1` -/

theorem W8_v0 (c : Dev nD) : W8 m ρ c (Proc.devRef .tc main_v0) = (truncf (F := Ideal) (s := S100000x128) (φ := .f32) .bf16 (m ((c : Thread nD τ).loc main_arg0)) bitsLt_bf16_f32) :=
  (show StableHlo.after hostOps3_1 (W7 m ρ c) (Proc.devRef .tc main_v0) = W7 m ρ c (Proc.devRef .tc main_v0) by
    generalize W7 m ρ c = F; after_results).trans (W7_v0 m ρ c)
theorem W8_v4 (c : Dev nD) : W8 m ρ c (Proc.devRef .tc main_v4) = (truncf (F := Ideal) (s := S128x128) (φ := .f32) .bf16 (m ((c : Thread nD τ).loc main_arg7)) bitsLt_bf16_f32) :=
  (show StableHlo.after hostOps3_1 (W7 m ρ c) (Proc.devRef .tc main_v4) = W7 m ρ c (Proc.devRef .tc main_v4) by
    generalize W7 m ρ c = F; after_results).trans (W7_v4 m ρ c)
theorem W8_v27 (c : Dev nD) : W8 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps3_1 (W7 m ρ c) (Proc.devRef .tc main_v27) = W7 m ρ c (Proc.devRef .tc main_v27) by
    generalize W7 m ρ c = F; after_results).trans (W7_v27 m ρ c)
theorem W8_v48 (c : Dev nD) : W8 m ρ c (Proc.devRef .tc main_v48) = (HostTerms.deg2 (HostTerms.dest2 (m ((c : Thread nD τ).loc main_arg2)))) :=
  (show StableHlo.after hostOps3_1 (W7 m ρ c) (Proc.devRef .tc main_v48) = W7 m ρ c (Proc.devRef .tc main_v48) by
    generalize W7 m ρ c = F; after_results).trans (W7_v48 m ρ c)
theorem W8_v51 (c : Dev nD) : W8 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (show StableHlo.after hostOps3_1 (W7 m ρ c) (Proc.devRef .tc main_v51) = W7 m ρ c (Proc.devRef .tc main_v51) by
    generalize W7 m ρ c = F; after_results).trans (W7_v51 m ρ c)
theorem W8_v72 (c : Dev nD) : W8 m ρ c (Proc.devRef .tc main_v72) = (HostTerms.deg3 (HostTerms.dest3 (m ((c : Thread nD τ).loc main_arg3)))) :=
  (show StableHlo.after hostOps3_1 (W7 m ρ c) (Proc.devRef .tc main_v72) = W7 m ρ c (Proc.devRef .tc main_v72) by
    generalize W7 m ρ c = F; after_results).trans (W7_v72 m ρ c)
theorem W8_v75 (c : Dev nD) : W8 m ρ c (Proc.devRef .tc main_v75) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) :=
  (show StableHlo.after hostOps3_1 (W7 m ρ c) (Proc.devRef .tc main_v75) = W7 m ρ c (Proc.devRef .tc main_v75) by
    generalize W7 m ρ c = F; after_results).trans (W7_v75 m ρ c)
theorem W8_v77 (c : Dev nD) : W8 m ρ c (Proc.devRef .tc main_v77) = (cmpf (F := Ideal) .ogt (HostTerms.deg1 (HostTerms.dest1 (m ((c : Thread nD τ).loc main_arg1)))) (broadcastInDim S100000 ![] bcast_S_S100000 (constant (F := Ideal) S_ .f32 0x00000000#32))) :=
  (show StableHlo.after hostOps3_1 (W7 m ρ c) (Proc.devRef .tc main_v77) = W7 m ρ c (Proc.devRef .tc main_v77) by
    generalize W7 m ρ c = F; after_results).trans (W7_v77 m ρ c)
theorem W8_v79 (c : Dev nD) : W8 m ρ c (Proc.devRef .tc main_v79) = (Host.divf (broadcastInDim S100000 ![] bcast_S_S100000 (constant (F := Ideal) S_ .f32 0x3F800000#32)) (HostTerms.deg1 (HostTerms.dest1 (m ((c : Thread nD τ).loc main_arg1))))) :=
  (show StableHlo.after hostOps3_1 (W7 m ρ c) (Proc.devRef .tc main_v79) = W7 m ρ c (Proc.devRef .tc main_v79) by
    generalize W7 m ρ c = F; after_results).trans (W7_v79 m ρ c)
theorem W8_cst_15 (c : Dev nD) : W8 m ρ c (Proc.devRef .tc main_cst_15) = (constant (F := Ideal) S_ .f32 0x00000000#32) :=
  (show StableHlo.after hostOps3_1 (W7 m ρ c) (Proc.devRef .tc main_cst_15) = W7 m ρ c (Proc.devRef .tc main_cst_15) by
    generalize W7 m ρ c = F; after_results).trans (W7_cst_15 m ρ c)
theorem W8_v80 (c : Dev nD) : W8 m ρ c (Proc.devRef .tc main_v80) = (select (cmpf (F := Ideal) .ogt (HostTerms.deg1 (HostTerms.dest1 (m ((c : Thread nD τ).loc main_arg1)))) (broadcastInDim S100000 ![] bcast_S_S100000 (constant (F := Ideal) S_ .f32 0x00000000#32))) (Host.divf (broadcastInDim S100000 ![] bcast_S_S100000 (constant (F := Ideal) S_ .f32 0x3F800000#32)) (HostTerms.deg1 (HostTerms.dest1 (m ((c : Thread nD τ).loc main_arg1))))) (broadcastInDim S100000 ![] bcast_S_S100000 (id (constant (F := Ideal) S_ .f32 0x00000000#32)))) := by
  have e : StableHlo.after hostOps3_1 (W7 m ρ c) (Proc.devRef .tc main_v80) = select (W7 m ρ c (Proc.devRef .tc main_v77)) (W7 m ρ c (Proc.devRef .tc main_v79)) (broadcastInDim S100000 ![] bcast_S_S100000 (id (W7 m ρ c (Proc.devRef .tc main_cst_15)))) := by
    generalize W7 m ρ c = F
    after_results
    try rfl
  rw [W7_v77 m ρ c, W7_v79 m ρ c, W7_cst_15 m ρ c] at e
  exact e

/-! ### Boundary 9: after the host operations `hostOps3_2` -/

theorem W9_v0 (c : Dev nD) : W9 m ρ c (Proc.devRef .tc main_v0) = (truncf (F := Ideal) (s := S100000x128) (φ := .f32) .bf16 (m ((c : Thread nD τ).loc main_arg0)) bitsLt_bf16_f32) :=
  (show StableHlo.after hostOps3_2 (W8 m ρ c) (Proc.devRef .tc main_v0) = W8 m ρ c (Proc.devRef .tc main_v0) by
    generalize W8 m ρ c = F; after_results).trans (W8_v0 m ρ c)
theorem W9_v4 (c : Dev nD) : W9 m ρ c (Proc.devRef .tc main_v4) = (truncf (F := Ideal) (s := S128x128) (φ := .f32) .bf16 (m ((c : Thread nD τ).loc main_arg7)) bitsLt_bf16_f32) :=
  (show StableHlo.after hostOps3_2 (W8 m ρ c) (Proc.devRef .tc main_v4) = W8 m ρ c (Proc.devRef .tc main_v4) by
    generalize W8 m ρ c = F; after_results).trans (W8_v4 m ρ c)
theorem W9_v27 (c : Dev nD) : W9 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps3_2 (W8 m ρ c) (Proc.devRef .tc main_v27) = W8 m ρ c (Proc.devRef .tc main_v27) by
    generalize W8 m ρ c = F; after_results).trans (W8_v27 m ρ c)
theorem W9_v48 (c : Dev nD) : W9 m ρ c (Proc.devRef .tc main_v48) = (HostTerms.deg2 (HostTerms.dest2 (m ((c : Thread nD τ).loc main_arg2)))) :=
  (show StableHlo.after hostOps3_2 (W8 m ρ c) (Proc.devRef .tc main_v48) = W8 m ρ c (Proc.devRef .tc main_v48) by
    generalize W8 m ρ c = F; after_results).trans (W8_v48 m ρ c)
theorem W9_v51 (c : Dev nD) : W9 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (show StableHlo.after hostOps3_2 (W8 m ρ c) (Proc.devRef .tc main_v51) = W8 m ρ c (Proc.devRef .tc main_v51) by
    generalize W8 m ρ c = F; after_results).trans (W8_v51 m ρ c)
theorem W9_v72 (c : Dev nD) : W9 m ρ c (Proc.devRef .tc main_v72) = (HostTerms.deg3 (HostTerms.dest3 (m ((c : Thread nD τ).loc main_arg3)))) :=
  (show StableHlo.after hostOps3_2 (W8 m ρ c) (Proc.devRef .tc main_v72) = W8 m ρ c (Proc.devRef .tc main_v72) by
    generalize W8 m ρ c = F; after_results).trans (W8_v72 m ρ c)
theorem W9_v75 (c : Dev nD) : W9 m ρ c (Proc.devRef .tc main_v75) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) :=
  (show StableHlo.after hostOps3_2 (W8 m ρ c) (Proc.devRef .tc main_v75) = W8 m ρ c (Proc.devRef .tc main_v75) by
    generalize W8 m ρ c = F; after_results).trans (W8_v75 m ρ c)
theorem W9_v80 (c : Dev nD) : W9 m ρ c (Proc.devRef .tc main_v80) = (select (cmpf (F := Ideal) .ogt (HostTerms.deg1 (HostTerms.dest1 (m ((c : Thread nD τ).loc main_arg1)))) (broadcastInDim S100000 ![] bcast_S_S100000 (constant (F := Ideal) S_ .f32 0x00000000#32))) (Host.divf (broadcastInDim S100000 ![] bcast_S_S100000 (constant (F := Ideal) S_ .f32 0x3F800000#32)) (HostTerms.deg1 (HostTerms.dest1 (m ((c : Thread nD τ).loc main_arg1))))) (broadcastInDim S100000 ![] bcast_S_S100000 (id (constant (F := Ideal) S_ .f32 0x00000000#32)))) :=
  (show StableHlo.after hostOps3_2 (W8 m ρ c) (Proc.devRef .tc main_v80) = W8 m ρ c (Proc.devRef .tc main_v80) by
    generalize W8 m ρ c = F; after_results).trans (W8_v80 m ρ c)
theorem W9_v81 (c : Dev nD) : W9 m ρ c (Proc.devRef .tc main_v81) = (HostTerms.inv (HostTerms.deg1 (HostTerms.dest1 (m ((c : Thread nD τ).loc main_arg1))))) := by
  have e : StableHlo.after hostOps3_2 (W8 m ρ c) (Proc.devRef .tc main_v81) = shapeCast S100000x1 (W8 m ρ c (Proc.devRef .tc main_v80)) shapeCasts_S100000_S100000x1 := by
    generalize W8 m ρ c = F
    after_results
    try rfl
  rw [W8_v80 m ρ c] at e
  exact e
theorem W9_v83 (c : Dev nD) : W9 m ρ c (Proc.devRef .tc main_v83) = (cmpf (F := Ideal) .ogt (HostTerms.deg2 (HostTerms.dest2 (m ((c : Thread nD τ).loc main_arg2)))) (broadcastInDim S100000 ![] bcast_S_S100000 (constant (F := Ideal) S_ .f32 0x00000000#32))) := by
  have e : StableHlo.after hostOps3_2 (W8 m ρ c) (Proc.devRef .tc main_v83) = cmpf (F := Ideal) .ogt (W8 m ρ c (Proc.devRef .tc main_v48)) (broadcastInDim S100000 ![] bcast_S_S100000 (constant (F := Ideal) S_ .f32 0x00000000#32)) := by
    generalize W8 m ρ c = F
    after_results
    try rfl
  rw [W8_v48 m ρ c] at e
  exact e
theorem W9_v85 (c : Dev nD) : W9 m ρ c (Proc.devRef .tc main_v85) = (Host.divf (broadcastInDim S100000 ![] bcast_S_S100000 (constant (F := Ideal) S_ .f32 0x3F800000#32)) (HostTerms.deg2 (HostTerms.dest2 (m ((c : Thread nD τ).loc main_arg2))))) := by
  have e : StableHlo.after hostOps3_2 (W8 m ρ c) (Proc.devRef .tc main_v85) = Host.divf (broadcastInDim S100000 ![] bcast_S_S100000 (constant (F := Ideal) S_ .f32 0x3F800000#32)) (W8 m ρ c (Proc.devRef .tc main_v48)) := by
    generalize W8 m ρ c = F
    after_results
    try rfl
  rw [W8_v48 m ρ c] at e
  exact e
theorem W9_cst_18 (c : Dev nD) : W9 m ρ c (Proc.devRef .tc main_cst_18) = (constant (F := Ideal) S_ .f32 0x00000000#32) := by
  have e : StableHlo.after hostOps3_2 (W8 m ρ c) (Proc.devRef .tc main_cst_18) = constant (F := Ideal) S_ .f32 0x00000000#32 := by
    generalize W8 m ρ c = F
    after_results
    try rfl
  exact e

/-! ### Boundary 10: after the host operations `hostOps3_3` -/

theorem W10_v0 (c : Dev nD) : W10 m ρ c (Proc.devRef .tc main_v0) = (truncf (F := Ideal) (s := S100000x128) (φ := .f32) .bf16 (m ((c : Thread nD τ).loc main_arg0)) bitsLt_bf16_f32) :=
  (show StableHlo.after hostOps3_3 (W9 m ρ c) (Proc.devRef .tc main_v0) = W9 m ρ c (Proc.devRef .tc main_v0) by
    generalize W9 m ρ c = F; after_results).trans (W9_v0 m ρ c)
theorem W10_v4 (c : Dev nD) : W10 m ρ c (Proc.devRef .tc main_v4) = (truncf (F := Ideal) (s := S128x128) (φ := .f32) .bf16 (m ((c : Thread nD τ).loc main_arg7)) bitsLt_bf16_f32) :=
  (show StableHlo.after hostOps3_3 (W9 m ρ c) (Proc.devRef .tc main_v4) = W9 m ρ c (Proc.devRef .tc main_v4) by
    generalize W9 m ρ c = F; after_results).trans (W9_v4 m ρ c)
theorem W10_v27 (c : Dev nD) : W10 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps3_3 (W9 m ρ c) (Proc.devRef .tc main_v27) = W9 m ρ c (Proc.devRef .tc main_v27) by
    generalize W9 m ρ c = F; after_results).trans (W9_v27 m ρ c)
theorem W10_v51 (c : Dev nD) : W10 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (show StableHlo.after hostOps3_3 (W9 m ρ c) (Proc.devRef .tc main_v51) = W9 m ρ c (Proc.devRef .tc main_v51) by
    generalize W9 m ρ c = F; after_results).trans (W9_v51 m ρ c)
theorem W10_v72 (c : Dev nD) : W10 m ρ c (Proc.devRef .tc main_v72) = (HostTerms.deg3 (HostTerms.dest3 (m ((c : Thread nD τ).loc main_arg3)))) :=
  (show StableHlo.after hostOps3_3 (W9 m ρ c) (Proc.devRef .tc main_v72) = W9 m ρ c (Proc.devRef .tc main_v72) by
    generalize W9 m ρ c = F; after_results).trans (W9_v72 m ρ c)
theorem W10_v75 (c : Dev nD) : W10 m ρ c (Proc.devRef .tc main_v75) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) :=
  (show StableHlo.after hostOps3_3 (W9 m ρ c) (Proc.devRef .tc main_v75) = W9 m ρ c (Proc.devRef .tc main_v75) by
    generalize W9 m ρ c = F; after_results).trans (W9_v75 m ρ c)
theorem W10_v81 (c : Dev nD) : W10 m ρ c (Proc.devRef .tc main_v81) = (HostTerms.inv (HostTerms.deg1 (HostTerms.dest1 (m ((c : Thread nD τ).loc main_arg1))))) :=
  (show StableHlo.after hostOps3_3 (W9 m ρ c) (Proc.devRef .tc main_v81) = W9 m ρ c (Proc.devRef .tc main_v81) by
    generalize W9 m ρ c = F; after_results).trans (W9_v81 m ρ c)
theorem W10_v83 (c : Dev nD) : W10 m ρ c (Proc.devRef .tc main_v83) = (cmpf (F := Ideal) .ogt (HostTerms.deg2 (HostTerms.dest2 (m ((c : Thread nD τ).loc main_arg2)))) (broadcastInDim S100000 ![] bcast_S_S100000 (constant (F := Ideal) S_ .f32 0x00000000#32))) :=
  (show StableHlo.after hostOps3_3 (W9 m ρ c) (Proc.devRef .tc main_v83) = W9 m ρ c (Proc.devRef .tc main_v83) by
    generalize W9 m ρ c = F; after_results).trans (W9_v83 m ρ c)
theorem W10_v85 (c : Dev nD) : W10 m ρ c (Proc.devRef .tc main_v85) = (Host.divf (broadcastInDim S100000 ![] bcast_S_S100000 (constant (F := Ideal) S_ .f32 0x3F800000#32)) (HostTerms.deg2 (HostTerms.dest2 (m ((c : Thread nD τ).loc main_arg2))))) :=
  (show StableHlo.after hostOps3_3 (W9 m ρ c) (Proc.devRef .tc main_v85) = W9 m ρ c (Proc.devRef .tc main_v85) by
    generalize W9 m ρ c = F; after_results).trans (W9_v85 m ρ c)
theorem W10_cst_18 (c : Dev nD) : W10 m ρ c (Proc.devRef .tc main_cst_18) = (constant (F := Ideal) S_ .f32 0x00000000#32) :=
  (show StableHlo.after hostOps3_3 (W9 m ρ c) (Proc.devRef .tc main_cst_18) = W9 m ρ c (Proc.devRef .tc main_cst_18) by
    generalize W9 m ρ c = F; after_results).trans (W9_cst_18 m ρ c)
theorem W10_v86 (c : Dev nD) : W10 m ρ c (Proc.devRef .tc main_v86) = (select (cmpf (F := Ideal) .ogt (HostTerms.deg2 (HostTerms.dest2 (m ((c : Thread nD τ).loc main_arg2)))) (broadcastInDim S100000 ![] bcast_S_S100000 (constant (F := Ideal) S_ .f32 0x00000000#32))) (Host.divf (broadcastInDim S100000 ![] bcast_S_S100000 (constant (F := Ideal) S_ .f32 0x3F800000#32)) (HostTerms.deg2 (HostTerms.dest2 (m ((c : Thread nD τ).loc main_arg2))))) (broadcastInDim S100000 ![] bcast_S_S100000 (id (constant (F := Ideal) S_ .f32 0x00000000#32)))) := by
  have e : StableHlo.after hostOps3_3 (W9 m ρ c) (Proc.devRef .tc main_v86) = select (W9 m ρ c (Proc.devRef .tc main_v83)) (W9 m ρ c (Proc.devRef .tc main_v85)) (broadcastInDim S100000 ![] bcast_S_S100000 (id (W9 m ρ c (Proc.devRef .tc main_cst_18)))) := by
    generalize W9 m ρ c = F
    after_results
    try rfl
  rw [W9_v83 m ρ c, W9_v85 m ρ c, W9_cst_18 m ρ c] at e
  exact e

/-! ### Boundary 11: after the host operations `hostOps3_4` -/

theorem W11_v0 (c : Dev nD) : W11 m ρ c (Proc.devRef .tc main_v0) = (truncf (F := Ideal) (s := S100000x128) (φ := .f32) .bf16 (m ((c : Thread nD τ).loc main_arg0)) bitsLt_bf16_f32) :=
  (show StableHlo.after hostOps3_4 (W10 m ρ c) (Proc.devRef .tc main_v0) = W10 m ρ c (Proc.devRef .tc main_v0) by
    generalize W10 m ρ c = F; after_results).trans (W10_v0 m ρ c)
theorem W11_v4 (c : Dev nD) : W11 m ρ c (Proc.devRef .tc main_v4) = (truncf (F := Ideal) (s := S128x128) (φ := .f32) .bf16 (m ((c : Thread nD τ).loc main_arg7)) bitsLt_bf16_f32) :=
  (show StableHlo.after hostOps3_4 (W10 m ρ c) (Proc.devRef .tc main_v4) = W10 m ρ c (Proc.devRef .tc main_v4) by
    generalize W10 m ρ c = F; after_results).trans (W10_v4 m ρ c)
theorem W11_v27 (c : Dev nD) : W11 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps3_4 (W10 m ρ c) (Proc.devRef .tc main_v27) = W10 m ρ c (Proc.devRef .tc main_v27) by
    generalize W10 m ρ c = F; after_results).trans (W10_v27 m ρ c)
theorem W11_v51 (c : Dev nD) : W11 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (show StableHlo.after hostOps3_4 (W10 m ρ c) (Proc.devRef .tc main_v51) = W10 m ρ c (Proc.devRef .tc main_v51) by
    generalize W10 m ρ c = F; after_results).trans (W10_v51 m ρ c)
theorem W11_v72 (c : Dev nD) : W11 m ρ c (Proc.devRef .tc main_v72) = (HostTerms.deg3 (HostTerms.dest3 (m ((c : Thread nD τ).loc main_arg3)))) :=
  (show StableHlo.after hostOps3_4 (W10 m ρ c) (Proc.devRef .tc main_v72) = W10 m ρ c (Proc.devRef .tc main_v72) by
    generalize W10 m ρ c = F; after_results).trans (W10_v72 m ρ c)
theorem W11_v75 (c : Dev nD) : W11 m ρ c (Proc.devRef .tc main_v75) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) :=
  (show StableHlo.after hostOps3_4 (W10 m ρ c) (Proc.devRef .tc main_v75) = W10 m ρ c (Proc.devRef .tc main_v75) by
    generalize W10 m ρ c = F; after_results).trans (W10_v75 m ρ c)
theorem W11_v81 (c : Dev nD) : W11 m ρ c (Proc.devRef .tc main_v81) = (HostTerms.inv (HostTerms.deg1 (HostTerms.dest1 (m ((c : Thread nD τ).loc main_arg1))))) :=
  (show StableHlo.after hostOps3_4 (W10 m ρ c) (Proc.devRef .tc main_v81) = W10 m ρ c (Proc.devRef .tc main_v81) by
    generalize W10 m ρ c = F; after_results).trans (W10_v81 m ρ c)
theorem W11_v86 (c : Dev nD) : W11 m ρ c (Proc.devRef .tc main_v86) = (select (cmpf (F := Ideal) .ogt (HostTerms.deg2 (HostTerms.dest2 (m ((c : Thread nD τ).loc main_arg2)))) (broadcastInDim S100000 ![] bcast_S_S100000 (constant (F := Ideal) S_ .f32 0x00000000#32))) (Host.divf (broadcastInDim S100000 ![] bcast_S_S100000 (constant (F := Ideal) S_ .f32 0x3F800000#32)) (HostTerms.deg2 (HostTerms.dest2 (m ((c : Thread nD τ).loc main_arg2))))) (broadcastInDim S100000 ![] bcast_S_S100000 (id (constant (F := Ideal) S_ .f32 0x00000000#32)))) :=
  (show StableHlo.after hostOps3_4 (W10 m ρ c) (Proc.devRef .tc main_v86) = W10 m ρ c (Proc.devRef .tc main_v86) by
    generalize W10 m ρ c = F; after_results).trans (W10_v86 m ρ c)
theorem W11_v87 (c : Dev nD) : W11 m ρ c (Proc.devRef .tc main_v87) = (HostTerms.inv (HostTerms.deg2 (HostTerms.dest2 (m ((c : Thread nD τ).loc main_arg2))))) := by
  have e : StableHlo.after hostOps3_4 (W10 m ρ c) (Proc.devRef .tc main_v87) = shapeCast S100000x1 (W10 m ρ c (Proc.devRef .tc main_v86)) shapeCasts_S100000_S100000x1 := by
    generalize W10 m ρ c = F
    after_results
    try rfl
  rw [W10_v86 m ρ c] at e
  exact e
theorem W11_v89 (c : Dev nD) : W11 m ρ c (Proc.devRef .tc main_v89) = (cmpf (F := Ideal) .ogt (HostTerms.deg3 (HostTerms.dest3 (m ((c : Thread nD τ).loc main_arg3)))) (broadcastInDim S100000 ![] bcast_S_S100000 (constant (F := Ideal) S_ .f32 0x00000000#32))) := by
  have e : StableHlo.after hostOps3_4 (W10 m ρ c) (Proc.devRef .tc main_v89) = cmpf (F := Ideal) .ogt (W10 m ρ c (Proc.devRef .tc main_v72)) (broadcastInDim S100000 ![] bcast_S_S100000 (constant (F := Ideal) S_ .f32 0x00000000#32)) := by
    generalize W10 m ρ c = F
    after_results
    try rfl
  rw [W10_v72 m ρ c] at e
  exact e
theorem W11_v91 (c : Dev nD) : W11 m ρ c (Proc.devRef .tc main_v91) = (Host.divf (broadcastInDim S100000 ![] bcast_S_S100000 (constant (F := Ideal) S_ .f32 0x3F800000#32)) (HostTerms.deg3 (HostTerms.dest3 (m ((c : Thread nD τ).loc main_arg3))))) := by
  have e : StableHlo.after hostOps3_4 (W10 m ρ c) (Proc.devRef .tc main_v91) = Host.divf (broadcastInDim S100000 ![] bcast_S_S100000 (constant (F := Ideal) S_ .f32 0x3F800000#32)) (W10 m ρ c (Proc.devRef .tc main_v72)) := by
    generalize W10 m ρ c = F
    after_results
    try rfl
  rw [W10_v72 m ρ c] at e
  exact e
theorem W11_cst_21 (c : Dev nD) : W11 m ρ c (Proc.devRef .tc main_cst_21) = (constant (F := Ideal) S_ .f32 0x00000000#32) := by
  have e : StableHlo.after hostOps3_4 (W10 m ρ c) (Proc.devRef .tc main_cst_21) = constant (F := Ideal) S_ .f32 0x00000000#32 := by
    generalize W10 m ρ c = F
    after_results
    try rfl
  exact e

/-! ### Boundary 12: after the host operations `hostOps3_5` -/

theorem W12_v0 (c : Dev nD) : W12 m ρ c (Proc.devRef .tc main_v0) = (truncf (F := Ideal) (s := S100000x128) (φ := .f32) .bf16 (m ((c : Thread nD τ).loc main_arg0)) bitsLt_bf16_f32) :=
  (show StableHlo.after hostOps3_5 (W11 m ρ c) (Proc.devRef .tc main_v0) = W11 m ρ c (Proc.devRef .tc main_v0) by
    generalize W11 m ρ c = F; after_results).trans (W11_v0 m ρ c)
theorem W12_v4 (c : Dev nD) : W12 m ρ c (Proc.devRef .tc main_v4) = (truncf (F := Ideal) (s := S128x128) (φ := .f32) .bf16 (m ((c : Thread nD τ).loc main_arg7)) bitsLt_bf16_f32) :=
  (show StableHlo.after hostOps3_5 (W11 m ρ c) (Proc.devRef .tc main_v4) = W11 m ρ c (Proc.devRef .tc main_v4) by
    generalize W11 m ρ c = F; after_results).trans (W11_v4 m ρ c)
theorem W12_v27 (c : Dev nD) : W12 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps3_5 (W11 m ρ c) (Proc.devRef .tc main_v27) = W11 m ρ c (Proc.devRef .tc main_v27) by
    generalize W11 m ρ c = F; after_results).trans (W11_v27 m ρ c)
theorem W12_v51 (c : Dev nD) : W12 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (show StableHlo.after hostOps3_5 (W11 m ρ c) (Proc.devRef .tc main_v51) = W11 m ρ c (Proc.devRef .tc main_v51) by
    generalize W11 m ρ c = F; after_results).trans (W11_v51 m ρ c)
theorem W12_v75 (c : Dev nD) : W12 m ρ c (Proc.devRef .tc main_v75) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) :=
  (show StableHlo.after hostOps3_5 (W11 m ρ c) (Proc.devRef .tc main_v75) = W11 m ρ c (Proc.devRef .tc main_v75) by
    generalize W11 m ρ c = F; after_results).trans (W11_v75 m ρ c)
theorem W12_v81 (c : Dev nD) : W12 m ρ c (Proc.devRef .tc main_v81) = (HostTerms.inv (HostTerms.deg1 (HostTerms.dest1 (m ((c : Thread nD τ).loc main_arg1))))) :=
  (show StableHlo.after hostOps3_5 (W11 m ρ c) (Proc.devRef .tc main_v81) = W11 m ρ c (Proc.devRef .tc main_v81) by
    generalize W11 m ρ c = F; after_results).trans (W11_v81 m ρ c)
theorem W12_v87 (c : Dev nD) : W12 m ρ c (Proc.devRef .tc main_v87) = (HostTerms.inv (HostTerms.deg2 (HostTerms.dest2 (m ((c : Thread nD τ).loc main_arg2))))) :=
  (show StableHlo.after hostOps3_5 (W11 m ρ c) (Proc.devRef .tc main_v87) = W11 m ρ c (Proc.devRef .tc main_v87) by
    generalize W11 m ρ c = F; after_results).trans (W11_v87 m ρ c)
theorem W12_v89 (c : Dev nD) : W12 m ρ c (Proc.devRef .tc main_v89) = (cmpf (F := Ideal) .ogt (HostTerms.deg3 (HostTerms.dest3 (m ((c : Thread nD τ).loc main_arg3)))) (broadcastInDim S100000 ![] bcast_S_S100000 (constant (F := Ideal) S_ .f32 0x00000000#32))) :=
  (show StableHlo.after hostOps3_5 (W11 m ρ c) (Proc.devRef .tc main_v89) = W11 m ρ c (Proc.devRef .tc main_v89) by
    generalize W11 m ρ c = F; after_results).trans (W11_v89 m ρ c)
theorem W12_v91 (c : Dev nD) : W12 m ρ c (Proc.devRef .tc main_v91) = (Host.divf (broadcastInDim S100000 ![] bcast_S_S100000 (constant (F := Ideal) S_ .f32 0x3F800000#32)) (HostTerms.deg3 (HostTerms.dest3 (m ((c : Thread nD τ).loc main_arg3))))) :=
  (show StableHlo.after hostOps3_5 (W11 m ρ c) (Proc.devRef .tc main_v91) = W11 m ρ c (Proc.devRef .tc main_v91) by
    generalize W11 m ρ c = F; after_results).trans (W11_v91 m ρ c)
theorem W12_cst_21 (c : Dev nD) : W12 m ρ c (Proc.devRef .tc main_cst_21) = (constant (F := Ideal) S_ .f32 0x00000000#32) :=
  (show StableHlo.after hostOps3_5 (W11 m ρ c) (Proc.devRef .tc main_cst_21) = W11 m ρ c (Proc.devRef .tc main_cst_21) by
    generalize W11 m ρ c = F; after_results).trans (W11_cst_21 m ρ c)
theorem W12_v92 (c : Dev nD) : W12 m ρ c (Proc.devRef .tc main_v92) = (select (cmpf (F := Ideal) .ogt (HostTerms.deg3 (HostTerms.dest3 (m ((c : Thread nD τ).loc main_arg3)))) (broadcastInDim S100000 ![] bcast_S_S100000 (constant (F := Ideal) S_ .f32 0x00000000#32))) (Host.divf (broadcastInDim S100000 ![] bcast_S_S100000 (constant (F := Ideal) S_ .f32 0x3F800000#32)) (HostTerms.deg3 (HostTerms.dest3 (m ((c : Thread nD τ).loc main_arg3))))) (broadcastInDim S100000 ![] bcast_S_S100000 (id (constant (F := Ideal) S_ .f32 0x00000000#32)))) := by
  have e : StableHlo.after hostOps3_5 (W11 m ρ c) (Proc.devRef .tc main_v92) = select (W11 m ρ c (Proc.devRef .tc main_v89)) (W11 m ρ c (Proc.devRef .tc main_v91)) (broadcastInDim S100000 ![] bcast_S_S100000 (id (W11 m ρ c (Proc.devRef .tc main_cst_21)))) := by
    generalize W11 m ρ c = F
    after_results
    try rfl
  rw [W11_v89 m ρ c, W11_v91 m ρ c, W11_cst_21 m ρ c] at e
  exact e

/-! ### Boundary 13: after the host operations `hostOps3_6` -/

theorem W13_v0 (c : Dev nD) : W13 m ρ c (Proc.devRef .tc main_v0) = (truncf (F := Ideal) (s := S100000x128) (φ := .f32) .bf16 (m ((c : Thread nD τ).loc main_arg0)) bitsLt_bf16_f32) :=
  (show StableHlo.after hostOps3_6 (W12 m ρ c) (Proc.devRef .tc main_v0) = W12 m ρ c (Proc.devRef .tc main_v0) by
    generalize W12 m ρ c = F; after_results).trans (W12_v0 m ρ c)
theorem W13_v4 (c : Dev nD) : W13 m ρ c (Proc.devRef .tc main_v4) = (truncf (F := Ideal) (s := S128x128) (φ := .f32) .bf16 (m ((c : Thread nD τ).loc main_arg7)) bitsLt_bf16_f32) :=
  (show StableHlo.after hostOps3_6 (W12 m ρ c) (Proc.devRef .tc main_v4) = W12 m ρ c (Proc.devRef .tc main_v4) by
    generalize W12 m ρ c = F; after_results).trans (W12_v4 m ρ c)
theorem W13_v27 (c : Dev nD) : W13 m ρ c (Proc.devRef .tc main_v27) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) :=
  (show StableHlo.after hostOps3_6 (W12 m ρ c) (Proc.devRef .tc main_v27) = W12 m ρ c (Proc.devRef .tc main_v27) by
    generalize W12 m ρ c = F; after_results).trans (W12_v27 m ρ c)
theorem W13_v51 (c : Dev nD) : W13 m ρ c (Proc.devRef .tc main_v51) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) :=
  (show StableHlo.after hostOps3_6 (W12 m ρ c) (Proc.devRef .tc main_v51) = W12 m ρ c (Proc.devRef .tc main_v51) by
    generalize W12 m ρ c = F; after_results).trans (W12_v51 m ρ c)
theorem W13_v75 (c : Dev nD) : W13 m ρ c (Proc.devRef .tc main_v75) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) :=
  (show StableHlo.after hostOps3_6 (W12 m ρ c) (Proc.devRef .tc main_v75) = W12 m ρ c (Proc.devRef .tc main_v75) by
    generalize W12 m ρ c = F; after_results).trans (W12_v75 m ρ c)
theorem W13_v81 (c : Dev nD) : W13 m ρ c (Proc.devRef .tc main_v81) = (HostTerms.inv (HostTerms.deg1 (HostTerms.dest1 (m ((c : Thread nD τ).loc main_arg1))))) :=
  (show StableHlo.after hostOps3_6 (W12 m ρ c) (Proc.devRef .tc main_v81) = W12 m ρ c (Proc.devRef .tc main_v81) by
    generalize W12 m ρ c = F; after_results).trans (W12_v81 m ρ c)
theorem W13_v87 (c : Dev nD) : W13 m ρ c (Proc.devRef .tc main_v87) = (HostTerms.inv (HostTerms.deg2 (HostTerms.dest2 (m ((c : Thread nD τ).loc main_arg2))))) :=
  (show StableHlo.after hostOps3_6 (W12 m ρ c) (Proc.devRef .tc main_v87) = W12 m ρ c (Proc.devRef .tc main_v87) by
    generalize W12 m ρ c = F; after_results).trans (W12_v87 m ρ c)
theorem W13_v92 (c : Dev nD) : W13 m ρ c (Proc.devRef .tc main_v92) = (select (cmpf (F := Ideal) .ogt (HostTerms.deg3 (HostTerms.dest3 (m ((c : Thread nD τ).loc main_arg3)))) (broadcastInDim S100000 ![] bcast_S_S100000 (constant (F := Ideal) S_ .f32 0x00000000#32))) (Host.divf (broadcastInDim S100000 ![] bcast_S_S100000 (constant (F := Ideal) S_ .f32 0x3F800000#32)) (HostTerms.deg3 (HostTerms.dest3 (m ((c : Thread nD τ).loc main_arg3))))) (broadcastInDim S100000 ![] bcast_S_S100000 (id (constant (F := Ideal) S_ .f32 0x00000000#32)))) :=
  (show StableHlo.after hostOps3_6 (W12 m ρ c) (Proc.devRef .tc main_v92) = W12 m ρ c (Proc.devRef .tc main_v92) by
    generalize W12 m ρ c = F; after_results).trans (W12_v92 m ρ c)
theorem W13_v93 (c : Dev nD) : W13 m ρ c (Proc.devRef .tc main_v93) = (HostTerms.inv (HostTerms.deg3 (HostTerms.dest3 (m ((c : Thread nD τ).loc main_arg3))))) := by
  have e : StableHlo.after hostOps3_6 (W12 m ρ c) (Proc.devRef .tc main_v93) = shapeCast S100000x1 (W12 m ρ c (Proc.devRef .tc main_v92)) shapeCasts_S100000_S100000x1 := by
    generalize W12 m ρ c = F
    after_results
    try rfl
  rw [W12_v92 m ρ c] at e
  exact e

/-! ### The bias vector, an argument no segment writes, through every boundary -/

theorem W0_arg8 (c : Dev nD) : W0 m ρ c (Proc.devRef .tc main_arg8) = (m ((c : Thread nD τ).loc main_arg8)) := rfl
theorem W1_arg8 (c : Dev nD) : W1 m ρ c (Proc.devRef .tc main_arg8) = (m ((c : Thread nD τ).loc main_arg8)) :=
  (show StableHlo.after hostOps0 (W0 m ρ c) (Proc.devRef .tc main_arg8) = W0 m ρ c (Proc.devRef .tc main_arg8) by
    generalize W0 m ρ c = F; after_results).trans (W0_arg8 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W3_arg8 (c : Dev nD) : W3 m ρ c (Proc.devRef .tc main_arg8) = (m ((c : Thread nD τ).loc main_arg8)) :=
  (show StableHlo.after hostOps1 (W2 m ρ c) (Proc.devRef .tc main_arg8) = W2 m ρ c (Proc.devRef .tc main_arg8) by
    generalize W2 m ρ c = F; after_results).trans (W2_arg8 m ρ c)
theorem W4_arg8 (c : Dev nD) : W4 m ρ c (Proc.devRef .tc main_arg8) = (m ((c : Thread nD τ).loc main_arg8)) :=
  (W4_of_ne m ρ c main_arg8 (by decide)).trans (W3_arg8 m ρ c)
theorem W5_arg8 (c : Dev nD) : W5 m ρ c (Proc.devRef .tc main_arg8) = (m ((c : Thread nD τ).loc main_arg8)) :=
  (show StableHlo.after hostOps2 (W4 m ρ c) (Proc.devRef .tc main_arg8) = W4 m ρ c (Proc.devRef .tc main_arg8) by
    generalize W4 m ρ c = F; after_results).trans (W4_arg8 m ρ c)
theorem W6_arg8 (c : Dev nD) : W6 m ρ c (Proc.devRef .tc main_arg8) = (m ((c : Thread nD τ).loc main_arg8)) :=
  (W6_of_ne m ρ c main_arg8 (by decide)).trans (W5_arg8 m ρ c)
theorem W7_arg8 (c : Dev nD) : W7 m ρ c (Proc.devRef .tc main_arg8) = (m ((c : Thread nD τ).loc main_arg8)) :=
  (show StableHlo.after hostOps3 (W6 m ρ c) (Proc.devRef .tc main_arg8) = W6 m ρ c (Proc.devRef .tc main_arg8) by
    generalize W6 m ρ c = F; after_results).trans (W6_arg8 m ρ c)
theorem W8_arg8 (c : Dev nD) : W8 m ρ c (Proc.devRef .tc main_arg8) = (m ((c : Thread nD τ).loc main_arg8)) :=
  (show StableHlo.after hostOps3_1 (W7 m ρ c) (Proc.devRef .tc main_arg8) = W7 m ρ c (Proc.devRef .tc main_arg8) by
    generalize W7 m ρ c = F; after_results).trans (W7_arg8 m ρ c)
theorem W9_arg8 (c : Dev nD) : W9 m ρ c (Proc.devRef .tc main_arg8) = (m ((c : Thread nD τ).loc main_arg8)) :=
  (show StableHlo.after hostOps3_2 (W8 m ρ c) (Proc.devRef .tc main_arg8) = W8 m ρ c (Proc.devRef .tc main_arg8) by
    generalize W8 m ρ c = F; after_results).trans (W8_arg8 m ρ c)
theorem W10_arg8 (c : Dev nD) : W10 m ρ c (Proc.devRef .tc main_arg8) = (m ((c : Thread nD τ).loc main_arg8)) :=
  (show StableHlo.after hostOps3_3 (W9 m ρ c) (Proc.devRef .tc main_arg8) = W9 m ρ c (Proc.devRef .tc main_arg8) by
    generalize W9 m ρ c = F; after_results).trans (W9_arg8 m ρ c)
theorem W11_arg8 (c : Dev nD) : W11 m ρ c (Proc.devRef .tc main_arg8) = (m ((c : Thread nD τ).loc main_arg8)) :=
  (show StableHlo.after hostOps3_4 (W10 m ρ c) (Proc.devRef .tc main_arg8) = W10 m ρ c (Proc.devRef .tc main_arg8) by
    generalize W10 m ρ c = F; after_results).trans (W10_arg8 m ρ c)
theorem W12_arg8 (c : Dev nD) : W12 m ρ c (Proc.devRef .tc main_arg8) = (m ((c : Thread nD τ).loc main_arg8)) :=
  (show StableHlo.after hostOps3_5 (W11 m ρ c) (Proc.devRef .tc main_arg8) = W11 m ρ c (Proc.devRef .tc main_arg8) by
    generalize W11 m ρ c = F; after_results).trans (W11_arg8 m ρ c)
theorem W13_arg8 (c : Dev nD) : W13 m ρ c (Proc.devRef .tc main_arg8) = (m ((c : Thread nD τ).loc main_arg8)) :=
  (show StableHlo.after hostOps3_6 (W12 m ρ c) (Proc.devRef .tc main_arg8) = W12 m ρ c (Proc.devRef .tc main_arg8) by
    generalize W12 m ρ c = F; after_results).trans (W12_arg8 m ρ c)

end Cert.KernelIdeal.HostWalk

end
-- ==== Proof.KernelResult.lean ====
/-
  The idealized kernel program's result array after the run, as one array of the launch memory's argument arrays.

  The last segment is the node-update region. Its result array is the node update 'combine' of its nine operand arrays as
  the region found them; each of the nine has been followed through the fold of the earlier segments to a closed array
  of the arguments. Together: the result is 'kernelValue' of the nine argument arrays.
-/
import proofs.«133609_j19868518711903_2_alg».proof.Proof.HostWalkB
import proofs.«133609_j19868518711903_2_alg».proof.Proof.FinalRegion

set_option maxRecDepth 16384
set_option maxHeartbeats 1000000

noncomputable section

namespace Cert.KernelIdeal.HostWalk

open Cert.KernelIdeal Cert.KernelIdeal.Gen Cert.MatrixProduct
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result array at the last boundary of the fold is the program's closed-form value of the arguments. -/
theorem result_eq (c : Dev nD) :
    W14 m ρ c (Proc.devRef .tc main_v94)
      = HostTerms.kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := W14_arr m ρ c 9
  rw [FinalRegion.array_eq (V13 m ρ) c] at h
  have h0 : V13 m ρ c (Pipeline.arrRef spec3 0) = (truncf (F := Ideal) (s := S100000x128) (φ := .f32) .bf16 (m ((c : Thread nD τ).loc main_arg0)) bitsLt_bf16_f32) := W13_v0 m ρ c
  have h1 : V13 m ρ c (Pipeline.arrRef spec3 1) = (truncf (F := Ideal) (s := S128x128) (φ := .f32) .bf16 (m ((c : Thread nD τ).loc main_arg7)) bitsLt_bf16_f32) := W13_v4 m ρ c
  have h2 : V13 m ρ c (Pipeline.arrRef spec3 2) = (m ((c : Thread nD τ).loc main_arg8)) := W13_arg8 m ρ c
  have h3 : V13 m ρ c (Pipeline.arrRef spec3 3) = (HostTerms.raw1 (HostTerms.dest1 (m ((c : Thread nD τ).loc main_arg1))) (HostTerms.msg1 (m ((c : Thread nD τ).loc main_arg0)) (m ((c : Thread nD τ).loc main_arg1)) (m ((c : Thread nD τ).loc main_arg4)))) := W13_v27 m ρ c
  have h4 : V13 m ρ c (Pipeline.arrRef spec3 4) = (HostTerms.raw2 (HostTerms.dest2 (m ((c : Thread nD τ).loc main_arg2))) (HostTerms.msg2 (m ((c : Thread nD τ).loc main_arg0)) (m ((c : Thread nD τ).loc main_arg2)) (m ((c : Thread nD τ).loc main_arg5)))) := W13_v51 m ρ c
  have h5 : V13 m ρ c (Pipeline.arrRef spec3 5) = (HostTerms.raw3 (HostTerms.dest3 (m ((c : Thread nD τ).loc main_arg3))) (HostTerms.msg3 (m ((c : Thread nD τ).loc main_arg0)) (m ((c : Thread nD τ).loc main_arg3)) (m ((c : Thread nD τ).loc main_arg6)))) := W13_v75 m ρ c
  have h6 : V13 m ρ c (Pipeline.arrRef spec3 6) = (HostTerms.inv (HostTerms.deg1 (HostTerms.dest1 (m ((c : Thread nD τ).loc main_arg1))))) := W13_v81 m ρ c
  have h7 : V13 m ρ c (Pipeline.arrRef spec3 7) = (HostTerms.inv (HostTerms.deg2 (HostTerms.dest2 (m ((c : Thread nD τ).loc main_arg2))))) := W13_v87 m ρ c
  have h8 : V13 m ρ c (Pipeline.arrRef spec3 8) = (HostTerms.inv (HostTerms.deg3 (HostTerms.dest3 (m ((c : Thread nD τ).loc main_arg3))))) := W13_v93 m ρ c
  rw [h0, h1, h2, h3, h4, h5, h6, h7, h8] at h
  exact h

end Cert.KernelIdeal.HostWalk

end
-- ==== Proof.RefEntry.lean ====
/-
  The reference program read at an entry of its result, and its three aggregates in plain operations.

  The result at node n, feature o is (x · C_w)(n, o) + C_b(o) plus the sum of the three relations' aggregates at
  (n, o). Each aggregate is a scatter-add, onto the destination nodes, of the messages of the relation's edges:
  the gathered source rows times the relation's matrix, divided by the degree of the destination.
-/
import proofs.«133609_j19868518711903_2_alg».proof.Proof.Gen.ReferenceIdeal.Read
import proofs.«133609_j19868518711903_2_alg».proof.Proof.LibMatrixProduct
import Idealize.ShloMosaic.Lib.ValueIdx
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx Cert.MatrixProduct

/-! ## The result at an entry -/

/-- THE RESULT AT (n, o): the product of the node array with C_w at (n, o), plus C_b at o, plus the three
    aggregates at (n, o). -/
theorem result_apply (x0 : (⟨S100000x128, .f32⟩ : BufTy).Contents (Elt Ideal))
    (x1 : (⟨S2x400000, .i32⟩ : BufTy).Contents (Elt Ideal)) (x2 x3 : (⟨S2x600000, .i32⟩ : BufTy).Contents (Elt Ideal))
    (x4 : (⟨S128x128, .f32⟩ : BufTy).Contents (Elt Ideal)) (x5 : (⟨S256x128, .f32⟩ : BufTy).Contents (Elt Ideal))
    (x6 : (⟨S384x128, .f32⟩ : BufTy).Contents (Elt Ideal)) (x7 : (⟨S128x128, .f32⟩ : BufTy).Contents (Elt Ideal))
    (x8 : (⟨S128, .f32⟩ : BufTy).Contents (Elt Ideal)) (n : Fin 100000) (o : Fin 128) :
    Read.val_main_v103 (F := Ideal) x0 x1 x2 x3 x4 x5 x6 x7 x8 (ix2 n o)
      = (mm (m := 100000) (k := 128) (n := 128) x0 x7 (ix2 n o) + x8 (ix1 o))
        + ((Read.val_main_v30 (F := Ideal) x0 x1 x4 (ix2 n o) + Read.val_main_v63 (F := Ideal) x0 x2 x5 (ix2 n o))
          + Read.val_main_v97 (F := Ideal) x0 x3 x6 (ix2 n o)) := by
  have h99 : Read.val_main_v99 (F := Ideal) x0 x7 = mm (m := 100000) (k := 128) (n := 128) x0 x7 :=
    dotGeneral_eq_mm dot_S100000x128_S128x128_S100000x128_1_0_0_1_n_n_wf none x0 x7
  have hidx : Read.idx_main_v100 (Read.idx_main_v101 (ix2 n o)) = ix1 o :=
    funext fun a => Fin.ext (by match a with | ⟨0, _⟩ => rfl)
  rw [Read.val_main_v103_apply, Read.val_main_v102_apply, Read.val_main_v98_apply, Read.val_main_v64_apply,
    Read.val_main_v101_apply, Read.val_main_v100_apply, h99, hidx]
  rfl

/-! ## Relation 1 -/

/-- The destination numbers of relation 1: the second row of its index array. -/
abbrev dest1 (x1 : (⟨S2x400000, .i32⟩ : BufTy).Contents (Elt Ideal)) : (⟨S400000, .i32⟩ : BufTy).Contents (Elt Ideal) :=
  shapeCast S400000 (shapeCast S400000x1 (shapeCast S400000 (extractStridedSlice S1x400000 ![1, 0] x1 slices_S2x400000_S1x400000_1_0) shapeCasts_S1x400000_S400000) shapeCasts_S400000_S400000x1) shapeCasts_S400000x1_S400000
theorem dest1_def (x1 : (⟨S2x400000, .i32⟩ : BufTy).Contents (Elt Ideal)) : dest1 x1 = shapeCast S400000 (shapeCast S400000x1 (shapeCast S400000 (extractStridedSlice S1x400000 ![1, 0] x1 slices_S2x400000_S1x400000_1_0) shapeCasts_S1x400000_S400000) shapeCasts_S400000_S400000x1) shapeCasts_S400000x1_S400000 := rfl

/-- The source numbers of relation 1: the first row of its index array. -/
abbrev src1 (x1 : (⟨S2x400000, .i32⟩ : BufTy).Contents (Elt Ideal)) : (⟨S400000, .i32⟩ : BufTy).Contents (Elt Ideal) :=
  shapeCast S400000 (extractStridedSlice S1x400000 ![0, 0] x1 slices_S2x400000_S1x400000_0_0) shapeCasts_S1x400000_S400000
theorem src1_def (x1 : (⟨S2x400000, .i32⟩ : BufTy).Contents (Elt Ideal)) : src1 x1 = shapeCast S400000 (extractStridedSlice S1x400000 ![0, 0] x1 slices_S2x400000_S1x400000_0_0) shapeCasts_S1x400000_S400000 := rfl

/-- The degrees of relation 1: a one scattered onto each destination number, added up per node. -/
abbrev deg1 (x1 : (⟨S2x400000, .i32⟩ : BufTy).Contents (Elt Ideal)) : (⟨S100000, .f32⟩ : BufTy).Contents (Elt Ideal) :=
  Host.scatterAdd scatter_S100000_S400000x1_S400000_n_0_0_1
    (broadcastInDim S100000 ![] bcast_S_S100000 (constant (F := Ideal) S_ .f32 0x00000000#32))
    (broadcastInDim S400000x1 ![0] bcast_S400000_S400000x1_0 (dest1 x1))
    (broadcastInDim S400000 ![] bcast_S_S400000 (constant (F := Ideal) S_ .f32 0x3F800000#32))
theorem deg1_def (x1 : (⟨S2x400000, .i32⟩ : BufTy).Contents (Elt Ideal)) : deg1 x1 =
  Host.scatterAdd scatter_S100000_S400000x1_S400000_n_0_0_1
    (broadcastInDim S100000 ![] bcast_S_S100000 (constant (F := Ideal) S_ .f32 0x00000000#32))
    (broadcastInDim S400000x1 ![0] bcast_S400000_S400000x1_0 (dest1 x1))
    (broadcastInDim S400000 ![] bcast_S_S400000 (constant (F := Ideal) S_ .f32 0x3F800000#32)) := rfl

/-- The gathered rows of relation 1: the rows of the node array at the normalised source numbers. -/
abbrev rows1 (x0 : (⟨S100000x128, .f32⟩ : BufTy).Contents (Elt Ideal)) (x1 : (⟨S2x400000, .i32⟩ : BufTy).Contents (Elt Ideal)) : (⟨S400000x128, .f32⟩ : BufTy).Contents (Elt Ideal) :=
  Host.gather gather_S100000x128_S400000x1_S400000x128_1_0_n_n_0_1_1128 x0
      (broadcastInDim S400000x1 ![0] bcast_S400000_S400000x1_0
        (select (cmpi .slt (src1 x1) (broadcastInDim S400000 ![] bcast_S_S400000 (constantI S_ 32 0#32)))
          (addi (src1 x1) (broadcastInDim S400000 ![] bcast_S_S400000 (constantI S_ 32 100000#32)))
          (src1 x1)))
theorem rows1_def (x0 : (⟨S100000x128, .f32⟩ : BufTy).Contents (Elt Ideal)) (x1 : (⟨S2x400000, .i32⟩ : BufTy).Contents (Elt Ideal)) : rows1 x0 x1 =
  Host.gather gather_S100000x128_S400000x1_S400000x128_1_0_n_n_0_1_1128 x0
      (broadcastInDim S400000x1 ![0] bcast_S400000_S400000x1_0
        (select (cmpi .slt (src1 x1) (broadcastInDim S400000 ![] bcast_S_S400000 (constantI S_ 32 0#32)))
          (addi (src1 x1) (broadcastInDim S400000 ![] bcast_S_S400000 (constantI S_ 32 100000#32)))
          (src1 x1))) := rfl

/-- THE AGGREGATE OF RELATION 1 in plain operations: the messages (gathered rows times the relation's matrix), each
    divided by the degree of its destination, scattered onto the destinations and added up. -/
theorem agg1_raw (x0 : (⟨S100000x128, .f32⟩ : BufTy).Contents (Elt Ideal)) (x1 : (⟨S2x400000, .i32⟩ : BufTy).Contents (Elt Ideal)) (x4 : (⟨S128x128, .f32⟩ : BufTy).Contents (Elt Ideal)) :
    Read.val_main_v30 (F := Ideal) x0 x1 x4 =
      Host.scatterAdd scatter_S100000x128_S400000x1_S400000x128_1_0_0_1
        (broadcastInDim S100000x128 ![] bcast_S_S100000x128 (constant (F := Ideal) S_ .f32 0x00000000#32))
        (broadcastInDim S400000x1 ![0] bcast_S400000_S400000x1_0 (dest1 x1))
        (Host.divf (mm (m := 400000) (k := 128) (n := 128) (rows1 x0 x1) x4)
          (broadcastInDim S400000x128 ![0, 1] bcast_S400000x1_S400000x128_0_1
            (broadcastInDim S400000x1 ![0] bcast_S400000_S400000x1_0
              (Host.gather gather_S100000_S400000x1_S400000_n_0_n_n_0_1_1 (deg1 x1)
                (broadcastInDim S400000x1 ![0] bcast_S400000_S400000x1_0
                  (select (cmpi .slt (dest1 x1) (broadcastInDim S400000 ![] bcast_S_S400000 (constantI S_ 32 0#32)))
                    (addi (dest1 x1) (broadcastInDim S400000 ![] bcast_S_S400000 (constantI S_ 32 100000#32)))
                    (dest1 x1))))))) := by
  rw [← dotGeneral_eq_mm dot_S400000x128_S128x128_S400000x128_1_0_0_1_n_n_wf none (rows1 x0 x1) x4]
  rfl

/-! ## Relation 2 -/

/-- The destination numbers of relation 2: the second row of its index array, cut into groups of 2, the first of each group. -/
abbrev dest2 (x2 : (⟨S2x600000, .i32⟩ : BufTy).Contents (Elt Ideal)) : (⟨S300000, .i32⟩ : BufTy).Contents (Elt Ideal) :=
  shapeCast S300000 (extractStridedSlice S300000x1 ![0, 0] (shapeCast S300000x2 (shapeCast S600000 (extractStridedSlice S1x600000 ![1, 0] x2 slices_S2x600000_S1x600000_1_0) shapeCasts_S1x600000_S600000) shapeCasts_S600000_S300000x2) slices_S300000x2_S300000x1_0_0) shapeCasts_S300000x1_S300000
theorem dest2_def (x2 : (⟨S2x600000, .i32⟩ : BufTy).Contents (Elt Ideal)) : dest2 x2 = shapeCast S300000 (extractStridedSlice S300000x1 ![0, 0] (shapeCast S300000x2 (shapeCast S600000 (extractStridedSlice S1x600000 ![1, 0] x2 slices_S2x600000_S1x600000_1_0) shapeCasts_S1x600000_S600000) shapeCasts_S600000_S300000x2) slices_S300000x2_S300000x1_0_0) shapeCasts_S300000x1_S300000 := rfl

/-- The source numbers of relation 2: the first row of its index array. -/
abbrev src2 (x2 : (⟨S2x600000, .i32⟩ : BufTy).Contents (Elt Ideal)) : (⟨S600000, .i32⟩ : BufTy).Contents (Elt Ideal) :=
  shapeCast S600000 (extractStridedSlice S1x600000 ![0, 0] x2 slices_S2x600000_S1x600000_0_0) shapeCasts_S1x600000_S600000
theorem src2_def (x2 : (⟨S2x600000, .i32⟩ : BufTy).Contents (Elt Ideal)) : src2 x2 = shapeCast S600000 (extractStridedSlice S1x600000 ![0, 0] x2 slices_S2x600000_S1x600000_0_0) shapeCasts_S1x600000_S600000 := rfl

/-- The degrees of relation 2: a one scattered onto each destination number, added up per node. -/
abbrev deg2 (x2 : (⟨S2x600000, .i32⟩ : BufTy).Contents (Elt Ideal)) : (⟨S100000, .f32⟩ : BufTy).Contents (Elt Ideal) :=
  Host.scatterAdd scatter_S100000_S300000x1_S300000_n_0_0_1
    (broadcastInDim S100000 ![] bcast_S_S100000 (constant (F := Ideal) S_ .f32 0x00000000#32))
    (broadcastInDim S300000x1 ![0] bcast_S300000_S300000x1_0 (dest2 x2))
    (broadcastInDim S300000 ![] bcast_S_S300000 (constant (F := Ideal) S_ .f32 0x3F800000#32))
theorem deg2_def (x2 : (⟨S2x600000, .i32⟩ : BufTy).Contents (Elt Ideal)) : deg2 x2 =
  Host.scatterAdd scatter_S100000_S300000x1_S300000_n_0_0_1
    (broadcastInDim S100000 ![] bcast_S_S100000 (constant (F := Ideal) S_ .f32 0x00000000#32))
    (broadcastInDim S300000x1 ![0] bcast_S300000_S300000x1_0 (dest2 x2))
    (broadcastInDim S300000 ![] bcast_S_S300000 (constant (F := Ideal) S_ .f32 0x3F800000#32)) := rfl

/-- The gathered rows of relation 2: the rows of the node array at the normalised source numbers, 2 rows side by side per edge. -/
abbrev rows2 (x0 : (⟨S100000x128, .f32⟩ : BufTy).Contents (Elt Ideal)) (x2 : (⟨S2x600000, .i32⟩ : BufTy).Contents (Elt Ideal)) : (⟨S300000x256, .f32⟩ : BufTy).Contents (Elt Ideal) :=
  shapeCast S300000x256 (Host.gather gather_S100000x128_S600000x1_S600000x128_1_0_n_n_0_1_1128 x0
      (broadcastInDim S600000x1 ![0] bcast_S600000_S600000x1_0
        (select (cmpi .slt (src2 x2) (broadcastInDim S600000 ![] bcast_S_S600000 (constantI S_ 32 0#32)))
          (addi (src2 x2) (broadcastInDim S600000 ![] bcast_S_S600000 (constantI S_ 32 100000#32)))
          (src2 x2)))) shapeCasts_S600000x128_S300000x256
theorem rows2_def (x0 : (⟨S100000x128, .f32⟩ : BufTy).Contents (Elt Ideal)) (x2 : (⟨S2x600000, .i32⟩ : BufTy).Contents (Elt Ideal)) : rows2 x0 x2 =
  shapeCast S300000x256 (Host.gather gather_S100000x128_S600000x1_S600000x128_1_0_n_n_0_1_1128 x0
      (broadcastInDim S600000x1 ![0] bcast_S600000_S600000x1_0
        (select (cmpi .slt (src2 x2) (broadcastInDim S600000 ![] bcast_S_S600000 (constantI S_ 32 0#32)))
          (addi (src2 x2) (broadcastInDim S600000 ![] bcast_S_S600000 (constantI S_ 32 100000#32)))
          (src2 x2)))) shapeCasts_S600000x128_S300000x256 := rfl

/-- THE AGGREGATE OF RELATION 2 in plain operations: the messages (gathered rows times the relation's matrix), each
    divided by the degree of its destination, scattered onto the destinations and added up. -/
theorem agg2_raw (x0 : (⟨S100000x128, .f32⟩ : BufTy).Contents (Elt Ideal)) (x2 : (⟨S2x600000, .i32⟩ : BufTy).Contents (Elt Ideal)) (x5 : (⟨S256x128, .f32⟩ : BufTy).Contents (Elt Ideal)) :
    Read.val_main_v63 (F := Ideal) x0 x2 x5 =
      Host.scatterAdd scatter_S100000x128_S300000x1_S300000x128_1_0_0_1
        (broadcastInDim S100000x128 ![] bcast_S_S100000x128 (constant (F := Ideal) S_ .f32 0x00000000#32))
        (broadcastInDim S300000x1 ![0] bcast_S300000_S300000x1_0 (dest2 x2))
        (Host.divf (mm (m := 300000) (k := 256) (n := 128) (rows2 x0 x2) x5)
          (broadcastInDim S300000x128 ![0, 1] bcast_S300000x1_S300000x128_0_1
            (broadcastInDim S300000x1 ![0] bcast_S300000_S300000x1_0
              (Host.gather gather_S100000_S300000x1_S300000_n_0_n_n_0_1_1 (deg2 x2)
                (broadcastInDim S300000x1 ![0] bcast_S300000_S300000x1_0
                  (select (cmpi .slt (dest2 x2) (broadcastInDim S300000 ![] bcast_S_S300000 (constantI S_ 32 0#32)))
                    (addi (dest2 x2) (broadcastInDim S300000 ![] bcast_S_S300000 (constantI S_ 32 100000#32)))
                    (dest2 x2))))))) := by
  rw [← dotGeneral_eq_mm dot_S300000x256_S256x128_S300000x128_1_0_0_1_n_n_wf none (rows2 x0 x2) x5]
  rfl

/-! ## Relation 3 -/

/-- The destination numbers of relation 3: the second row of its index array, cut into groups of 3, the first of each group. -/
abbrev dest3 (x3 : (⟨S2x600000, .i32⟩ : BufTy).Contents (Elt Ideal)) : (⟨S200000, .i32⟩ : BufTy).Contents (Elt Ideal) :=
  shapeCast S200000 (extractStridedSlice S200000x1 ![0, 0] (shapeCast S200000x3 (shapeCast S600000 (extractStridedSlice S1x600000 ![1, 0] x3 slices_S2x600000_S1x600000_1_0) shapeCasts_S1x600000_S600000) shapeCasts_S600000_S200000x3) slices_S200000x3_S200000x1_0_0) shapeCasts_S200000x1_S200000
theorem dest3_def (x3 : (⟨S2x600000, .i32⟩ : BufTy).Contents (Elt Ideal)) : dest3 x3 = shapeCast S200000 (extractStridedSlice S200000x1 ![0, 0] (shapeCast S200000x3 (shapeCast S600000 (extractStridedSlice S1x600000 ![1, 0] x3 slices_S2x600000_S1x600000_1_0) shapeCasts_S1x600000_S600000) shapeCasts_S600000_S200000x3) slices_S200000x3_S200000x1_0_0) shapeCasts_S200000x1_S200000 := rfl

/-- The source numbers of relation 3: the first row of its index array. -/
abbrev src3 (x3 : (⟨S2x600000, .i32⟩ : BufTy).Contents (Elt Ideal)) : (⟨S600000, .i32⟩ : BufTy).Contents (Elt Ideal) :=
  shapeCast S600000 (extractStridedSlice S1x600000 ![0, 0] x3 slices_S2x600000_S1x600000_0_0) shapeCasts_S1x600000_S600000
theorem src3_def (x3 : (⟨S2x600000, .i32⟩ : BufTy).Contents (Elt Ideal)) : src3 x3 = shapeCast S600000 (extractStridedSlice S1x600000 ![0, 0] x3 slices_S2x600000_S1x600000_0_0) shapeCasts_S1x600000_S600000 := rfl

/-- The degrees of relation 3: a one scattered onto each destination number, added up per node. -/
abbrev deg3 (x3 : (⟨S2x600000, .i32⟩ : BufTy).Contents (Elt Ideal)) : (⟨S100000, .f32⟩ : BufTy).Contents (Elt Ideal) :=
  Host.scatterAdd scatter_S100000_S200000x1_S200000_n_0_0_1
    (broadcastInDim S100000 ![] bcast_S_S100000 (constant (F := Ideal) S_ .f32 0x00000000#32))
    (broadcastInDim S200000x1 ![0] bcast_S200000_S200000x1_0 (dest3 x3))
    (broadcastInDim S200000 ![] bcast_S_S200000 (constant (F := Ideal) S_ .f32 0x3F800000#32))
theorem deg3_def (x3 : (⟨S2x600000, .i32⟩ : BufTy).Contents (Elt Ideal)) : deg3 x3 =
  Host.scatterAdd scatter_S100000_S200000x1_S200000_n_0_0_1
    (broadcastInDim S100000 ![] bcast_S_S100000 (constant (F := Ideal) S_ .f32 0x00000000#32))
    (broadcastInDim S200000x1 ![0] bcast_S200000_S200000x1_0 (dest3 x3))
    (broadcastInDim S200000 ![] bcast_S_S200000 (constant (F := Ideal) S_ .f32 0x3F800000#32)) := rfl

/-- The gathered rows of relation 3: the rows of the node array at the normalised source numbers, 3 rows side by side per edge. -/
abbrev rows3 (x0 : (⟨S100000x128, .f32⟩ : BufTy).Contents (Elt Ideal)) (x3 : (⟨S2x600000, .i32⟩ : BufTy).Contents (Elt Ideal)) : (⟨S200000x384, .f32⟩ : BufTy).Contents (Elt Ideal) :=
  shapeCast S200000x384 (Host.gather gather_S100000x128_S600000x1_S600000x128_1_0_n_n_0_1_1128 x0
      (broadcastInDim S600000x1 ![0] bcast_S600000_S600000x1_0
        (select (cmpi .slt (src3 x3) (broadcastInDim S600000 ![] bcast_S_S600000 (constantI S_ 32 0#32)))
          (addi (src3 x3) (broadcastInDim S600000 ![] bcast_S_S600000 (constantI S_ 32 100000#32)))
          (src3 x3)))) shapeCasts_S600000x128_S200000x384
theorem rows3_def (x0 : (⟨S100000x128, .f32⟩ : BufTy).Contents (Elt Ideal)) (x3 : (⟨S2x600000, .i32⟩ : BufTy).Contents (Elt Ideal)) : rows3 x0 x3 =
  shapeCast S200000x384 (Host.gather gather_S100000x128_S600000x1_S600000x128_1_0_n_n_0_1_1128 x0
      (broadcastInDim S600000x1 ![0] bcast_S600000_S600000x1_0
        (select (cmpi .slt (src3 x3) (broadcastInDim S600000 ![] bcast_S_S600000 (constantI S_ 32 0#32)))
          (addi (src3 x3) (broadcastInDim S600000 ![] bcast_S_S600000 (constantI S_ 32 100000#32)))
          (src3 x3)))) shapeCasts_S600000x128_S200000x384 := rfl

/-- THE AGGREGATE OF RELATION 3 in plain operations: the messages (gathered rows times the relation's matrix), each
    divided by the degree of its destination, scattered onto the destinations and added up. -/
theorem agg3_raw (x0 : (⟨S100000x128, .f32⟩ : BufTy).Contents (Elt Ideal)) (x3 : (⟨S2x600000, .i32⟩ : BufTy).Contents (Elt Ideal)) (x6 : (⟨S384x128, .f32⟩ : BufTy).Contents (Elt Ideal)) :
    Read.val_main_v97 (F := Ideal) x0 x3 x6 =
      Host.scatterAdd scatter_S100000x128_S200000x1_S200000x128_1_0_0_1
        (broadcastInDim S100000x128 ![] bcast_S_S100000x128 (constant (F := Ideal) S_ .f32 0x00000000#32))
        (broadcastInDim S200000x1 ![0] bcast_S200000_S200000x1_0 (dest3 x3))
        (Host.divf (mm (m := 200000) (k := 384) (n := 128) (rows3 x0 x3) x6)
          (broadcastInDim S200000x128 ![0, 1] bcast_S200000x1_S200000x128_0_1
            (broadcastInDim S200000x1 ![0] bcast_S200000_S200000x1_0
              (Host.gather gather_S100000_S200000x1_S200000_n_0_n_n_0_1_1 (deg3 x3)
                (broadcastInDim S200000x1 ![0] bcast_S200000_S200000x1_0
                  (select (cmpi .slt (dest3 x3) (broadcastInDim S200000 ![] bcast_S_S200000 (constantI S_ 32 0#32)))
                    (addi (dest3 x3) (broadcastInDim S200000 ![] bcast_S_S200000 (constantI S_ 32 100000#32)))
                    (dest3 x3))))))) := by
  rw [← dotGeneral_eq_mm dot_S200000x384_S384x128_S200000x128_1_0_0_1_n_n_wf none (rows3 x0 x3) x6]
  rfl

end Cert.ReferenceIdeal.RefValue

end
-- ==== Proof.LibRowGather.lean ====
/-
  A gather of whole rows, a gather of vector entries, and a scatter of whole rows, each driven by ONE column of
  row numbers, read at an index.

  The start indices are an E × 1 array of integers, one per result row e.
  * Gathering rows of an N × C matrix: result entry (e, l) is the matrix entry (r, l), where r is the integer of
    row e read as a signed number and clamped into [0, N − 1].
  * Gathering entries of a vector of length N: result entry e is the vector's entry r, the same clamped number.
  * Scattering the rows of an E × C array into an N × C matrix: update entry (e, l) lands on entry (r, l) of the
    matrix exactly when the integer of row e, read as a signed number WITHOUT clamping, is a row number r of the
    matrix; otherwise the update is dropped. In particular a landing update has a nonnegative integer, equal to
    the row it lands on, and keeps its column.
-/
import Idealize.ShloMosaic.Lib.ValueIdx
import Idealize.ShloMosaic.PureOps.Ideal

namespace Idealize.ShloMosaic.ValueIdx

open Idealize.ShloMosaic

section
variable {α : Type}

/-- The dimension numbers of a gather of rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of vector entries: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The entry of the one column of row numbers that belongs to result row `e`. -/
abbrev colEntry {E : Nat} (e : Fin E) : (⟨2, ![E, 1]⟩ : Shape).Idx := ix2 e ⟨0, Nat.one_pos⟩

/-- The row a gather reads for result row `e`: the integer, signed, clamped into `[0, N − 1]`. -/
abbrev clampRow {N E w : Nat} (hN : 0 < N) (idx : IVec ⟨2, ![E, 1]⟩ w) (e : Fin E) : Fin N :=
  ⟨min (idx (colEntry e)).toInt.toNat (N - 1), by omega⟩

/-- A GATHER OF ROWS read at `(e, l)`: the operand at the clamped row, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (l : Fin C) :
    Host.gather (rowGatherDims N E C wf) x idx (ix2 e l) = x (ix2 (clampRow hN idx e) l) := by
  have h0 : (rowGatherDims N E C wf).start (ix2 e l) idx (0 : Fin 2) + (rowGatherDims N E C wf).batchCoord (ix2 e l) (0 : Fin 2)
      + (rowGatherDims N E C wf).offCoord (ix2 e l) (0 : Fin 2) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e l) ⟨List.idxOf (0 : Fin 2) (rowGatherDims N E C wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  have h1 : (rowGatherDims N E C wf).start (ix2 e l) idx (1 : Fin 2) + (rowGatherDims N E C wf).batchCoord (ix2 e l) (1 : Fin 2)
      + (rowGatherDims N E C wf).offCoord (ix2 e l) (1 : Fin 2) = l.val := by
    rw [GatherDims.batchCoord_eq_zero _ _ _ List.not_mem_nil]
    have hs : (rowGatherDims N E C wf).start (ix2 e l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-- A GATHER OF VECTOR ENTRIES read at `e`: the operand at the clamped number. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  have h0 : (vecGatherDims N E wf).start (ix1 e) idx (0 : Fin 1) + (vecGatherDims N E wf).batchCoord (ix1 e) (0 : Fin 1)
      + (vecGatherDims N E wf).offCoord (ix1 e) (0 : Fin 1) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- WHERE A SCATTERED ROW LANDS: if update entry `(e, l)` lands on entry `i` of the matrix, then the integer of row
    `e`, read signed, is the row number of `i` (so it is not negative and below `N`), and `i` is in column `l`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx)
    (h : (rowScatterDims N E C wf).resultIdx? (ix2 e l) idx = some i) :
    (idx (colEntry e)).toInt = ((i 0).val : Int) ∧ (i 1).val = l.val := by
  have hs0 : (rowScatterDims N E C wf).start (ix2 e l) idx (0 : Fin 2) = (idx (colEntry e)).toInt := by
    unfold ScatterDims.start
    rw [dif_pos (show (0 : Fin 2) ∈ (rowScatterDims N E C wf).scatterDimsToOperandDims from List.mem_singleton.mpr rfl)]
    have hsi : (rowScatterDims N E C wf).siIdx (ix2 e l) ⟨List.idxOf (0 : Fin 2) (rowScatterDims N E C wf).scatterDimsToOperandDims,
        List.idxOf_lt_length_iff.2 (List.mem_singleton.mpr rfl)⟩ = colEntry e := by
      funext b; refine Fin.ext ?_
      match b with
      | ⟨0, _⟩ => rfl
      | ⟨1, _⟩ => rfl
    rw [hsi]
  have hw0 : (rowScatterDims N E C wf).window (ix2 e l) (0 : Fin 2) = 0 := by
    unfold ScatterDims.window
    rw [dif_neg (show (0 : Fin 2) ∉ (rowScatterDims N E C wf).sKept from (by decide : (0 : Fin 2) ∉ (List.finRange 2).filter (· ∉ ([0] : List (Fin 2)))))]
  have hs1 : (rowScatterDims N E C wf).start (ix2 e l) idx (1 : Fin 2) = 0 := by
    unfold ScatterDims.start
    rw [dif_neg (show (1 : Fin 2) ∉ ([0] : List (Fin 2)) by decide)]
  have hw1 : (rowScatterDims N E C wf).window (ix2 e l) (1 : Fin 2) = l.val := by
    unfold ScatterDims.window
    rw [dif_pos (show (1 : Fin 2) ∈ (rowScatterDims N E C wf).sKept from (by decide : (1 : Fin 2) ∈ (List.finRange 2).filter (· ∉ ([0] : List (Fin 2)))))]
    rfl
  unfold ScatterDims.resultIdx? at h
  split at h
  · rename_i hin
    have hi := Option.some.inj h
    have h0 := hin (0 : Fin 2)
    rw [hs0, hw0] at h0
    have e0 : (i 0).val = ((rowScatterDims N E C wf).start (ix2 e l) idx (0 : Fin 2) + ((rowScatterDims N E C wf).window (ix2 e l) (0 : Fin 2) : Int)).toNat := by
      rw [← hi]
    have e1 : (i 1).val = ((rowScatterDims N E C wf).start (ix2 e l) idx (1 : Fin 2) + ((rowScatterDims N E C wf).window (ix2 e l) (1 : Fin 2) : Int)).toNat := by
      rw [← hi]
    rw [hs0, hw0] at e0
    rw [hs1, hw1] at e1
    constructor
    · omega
    · omega
  · exact absurd h (by simp)

end

end Idealize.ShloMosaic.ValueIdx
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.LibScaleSum.lean ====
/-
  Two facts about the extended reals.

  * Multiplying a finite sum by a factor d with 0 ≤ d < ⊤ can be done term by term: (Σ f) · d = Σ (f · d). On the
    extended reals multiplication does not distribute over addition in general (⊤ + ⊥ = ⊥, and a negative factor
    swaps the two infinities), but it does for a nonnegative finite factor, and a finite sum follows by induction.
  * The reciprocal square root, applied to max x r with r a positive real, is a nonnegative finite number: the
    argument is either ⊤, where the reciprocal square root is 0, or a positive real, where it is a positive real.
-/
import Idealize.ShloMosaic.PureOps.Ideal
import Mathlib.Data.EReal.Operations

open scoped BigOperators

namespace Idealize.ShloMosaic.Ideal

/-- A factor `d` with `0 ≤ d` and `d ≠ ⊤` distributes over a finite sum of extended reals. -/
theorem sum_mul_of_nonneg_of_ne_top {ι : Type*} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- `rsqrt (max x r)` for a positive real `r` is nonnegative and finite. -/
theorem rsqrt_max_pos_range (x : EReal) {r : ℝ} (hr : 0 < r) :
    0 ≤ Ideal.rsqrt (max x (r : EReal)) ∧ Ideal.rsqrt (max x (r : EReal)) ≠ ⊤ := by
  have hle : (r : EReal) ≤ max x (r : EReal) := le_max_right _ _
  induction h : max x (r : EReal) using EReal.rec with
  | bot => rw [h] at hle; exact absurd hle (by simp)
  | top => rw [Ideal.rsqrt_top]; exact ⟨le_refl _, EReal.zero_ne_top⟩
  | coe y =>
    rw [h] at hle
    have hy : 0 < y := lt_of_lt_of_le hr (by exact_mod_cast hle)
    have hs : 0 < Real.sqrt y := Real.sqrt_pos.mpr hy
    rw [Ideal.rsqrt_coe, if_neg (not_lt.mpr hy.le), if_neg hy.ne']
    exact ⟨by exact_mod_cast (inv_pos.mpr hs).le, EReal.coe_ne_top _⟩

end Idealize.ShloMosaic.Ideal
-- ==== Proof.LibDegreeScatter.lean ====
/-
  Counting the rows that land on a node, and the mean of the rows landing on a node taken per row and per node.

  E rows each carry a number: one E × 1 column of integers, read as signed numbers and NOT clamped. A scatter drops
  a row whose number is not a row number of its operand.
  * Scattering a vector of length E into a vector of length N: update entry e lands on entry n exactly when the
    integer of row e is n.
  * The degree: scattering ones into a zero vector of length N gives, at entry n, the number of rows whose integer
    is n, as a real number.
  * The mean. Let deg be the degree of n. Scatter-adding into a zero N × C matrix the rows of an E × C matrix msg,
    each entry first divided by a divisor that equals deg on every row whose integer is n, gives at entry (n, o)

        Σ_{e lands on n} msg(e, o) / deg.

    Scatter-adding msg itself and multiplying the entry (n, o) by select(deg > 0, 1 / deg, 0) gives

        (Σ_{e lands on n} msg(e, o)) · select(deg > 0, 1 / deg, 0).

    The two agree. If no row lands on n both sums are empty and both sides are 0. If some row lands on n then deg
    is a real number k ≥ 1, so deg > 0 holds, x / k = x · k⁻¹ for every extended real x, 1 / k = k⁻¹, and the
    nonnegative finite factor k⁻¹ distributes over the finite sum. Nothing is asked of the entries of msg: they
    may be infinite.
-/
import Idealize.ShloMosaic.Lib.ValueIdx
import Idealize.ShloMosaic.Lib.IdealHost
import Idealize.ShloMosaic.PureOps.Ideal
import Idealize.ShloMosaic.PureOps.Ideal.Laws
import Mathlib.Data.EReal.Operations
import proofs.«133609_j19868518711903_2_alg».proof.Proof.LibRowGather
import proofs.«133609_j19868518711903_2_alg».proof.Proof.LibScaleSum

open scoped BigOperators

namespace Idealize.ShloMosaic.ValueIdx

open Idealize.ShloMosaic

/-- The dimension numbers of a scatter of vector entries: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update entry `e` starts at the integer of row `e`, read signed. -/
theorem scatter_vec_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (colEntry e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = colEntry e := by
    funext b; refine Fin.ext ?_
    match b with
    | ⟨0, _⟩ => rfl
    | ⟨1, _⟩ => rfl
  rw [hsi]

/-- The one operand axis is an inserted one: the window coordinate on it is `0`. -/
theorem scatter_vec_window {N E : Nat}
    (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from (by decide : (0 : Fin 1) ∉ (List.finRange 1).filter (· ∉ ([0] : List (Fin 1)))))]

/-- WHERE A SCATTERED VECTOR ENTRY LANDS: update entry `e` lands on entry `i` of the vector exactly when the integer
    of row `e`, read signed, is the number of `i`. -/
theorem scatter_vec_lands_iff {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx) :
    (vecScatterDims N E wf).resultIdx? (ix1 e) idx = some i ↔ (idx (colEntry e)).toInt = ((i 0).val : Int) := by
  have hs0 := scatter_vec_start wf idx e
  have hw0 := scatter_vec_window wf e
  constructor
  · intro h
    unfold ScatterDims.resultIdx? at h
    split at h
    · have hi := Option.some.inj h
      rename_i hin
      have h0 := hin (0 : Fin 1)
      rw [hs0, hw0] at h0
      have e0 : (i 0).val = ((vecScatterDims N E wf).start (ix1 e) idx (0 : Fin 1) + ((vecScatterDims N E wf).window (ix1 e) (0 : Fin 1) : Int)).toNat := by
        rw [← hi]
      rw [hs0, hw0] at e0
      omega
    · exact absurd h (by simp)
  · intro h
    have hlt : (i 0).val < N := (i 0).isLt
    have hin : ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro a
      match a with
      | ⟨0, _⟩ =>
        show 0 ≤ (vecScatterDims N E wf).start (ix1 e) idx (0 : Fin 1) + ((vecScatterDims N E wf).window (ix1 e) (0 : Fin 1) : Int)
          ∧ (vecScatterDims N E wf).start (ix1 e) idx (0 : Fin 1) + ((vecScatterDims N E wf).window (ix1 e) (0 : Fin 1) : Int) < (N : Int)
        rw [hs0, hw0, h]
        omega
    unfold ScatterDims.resultIdx?
    rw [dif_pos hin]
    congr 1
    funext a
    refine Fin.ext ?_
    match a with
    | ⟨0, _⟩ =>
      show ((vecScatterDims N E wf).start (ix1 e) idx (0 : Fin 1) + ((vecScatterDims N E wf).window (ix1 e) (0 : Fin 1) : Int)).toNat = (i 0).val
      rw [hs0, hw0, h]
      omega

/-- The updates that land on entry `n` of the vector are as many as the rows whose integer, read signed, is `n`. -/
theorem scatter_vec_card {N E w : Nat}
    (wf : ScatterDims.WF ⟨1, ![N]⟩ ⟨2, ![E, 1]⟩ ⟨1, ![E]⟩ [] [0] [0] 1)
    (idx : IVec ⟨2, ![E, 1]⟩ w) (n : Fin N) :
    (Finset.univ.filter (fun j : (⟨1, ![E]⟩ : Shape).Idx => (vecScatterDims N E wf).resultIdx? j idx = some (ix1 n))).card
      = (Finset.univ.filter (fun e : Fin E => (idx (colEntry e)).toInt = (n.val : Int))).card := by
  refine Finset.card_bij (fun j _ => (j 0 : Fin E)) ?_ ?_ ?_
  · intro j hj
    have h := (Finset.mem_filter.mp hj).2
    rw [eq_ix1 j] at h
    exact Finset.mem_filter.mpr ⟨Finset.mem_univ _, (scatter_vec_lands_iff wf idx (j 0) (ix1 n)).mp h⟩
  · intro a _ b _ h
    rw [eq_ix1 a, eq_ix1 b]
    exact congrArg ix1 h
  · intro e he
    exact ⟨ix1 e, Finset.mem_filter.mpr ⟨Finset.mem_univ _,
      (scatter_vec_lands_iff wf idx e (ix1 n)).mpr (Finset.mem_filter.mp he).2⟩, rfl⟩

/-- THE DEGREE: scattering ones into a zero vector counts, at entry `n`, the rows whose integer is `n`. -/
theorem scatter_ones_eq_card {N E w : Nat}
    (wf : ScatterDims.WF ⟨1, ![N]⟩ ⟨2, ![E, 1]⟩ ⟨1, ![E]⟩ [] [0] [0] 1)
    (idx : IVec ⟨2, ![E, 1]⟩ w) (n : Fin N) :
    Ideal.hostScatterAdd (vecScatterDims N E wf) (fun _ => (0 : EReal)) idx (fun _ => (1 : EReal)) (ix1 n)
      = (((Finset.univ.filter (fun e : Fin E => (idx (colEntry e)).toInt = (n.val : Int))).card : ℝ) : EReal) := by
  unfold Ideal.hostScatterAdd
  rw [zero_add, Finset.sum_const, nsmul_one, scatter_vec_card wf idx n, EReal.coe_natCast]

/-- A SUM OF QUOTIENTS BY ONE COUNT: if every divisor of a finite sum of quotients is the same natural number `k`,
    positive as soon as the sum has a term, then the sum of the quotients is the sum of the numerators times
    `select (k > 0) (1 / k) 0`. With no term both sides are `0`. With a term, `x / k = x · k⁻¹` for every extended
    real `x`, `1 / k = k⁻¹`, and the nonnegative finite factor `k⁻¹` distributes over the finite sum. Nothing is asked
    of the numerators. -/
theorem sum_div_count {ι : Type*} (s : Finset ι) (f g : ι → EReal) (k : ℕ) (hk : s.Nonempty → 0 < k)
    (hg : ∀ j ∈ s, g j = ((k : ℝ) : EReal)) :
    (0 : EReal) + ∑ j ∈ s, Ideal.div (f j) (g j)
      = ((0 : EReal) + ∑ j ∈ s, f j)
          * Scalar.select (Ideal.cmp .ogt ((k : ℝ) : EReal) 0) (Ideal.div 1 ((k : ℝ) : EReal)) 0 := by
  rcases s.eq_empty_or_nonempty with rfl | hne
  · rw [Finset.sum_empty, Finset.sum_empty, add_zero, zero_mul]
  · have hk0 : 0 < k := hk hne
    have hkr : (k : ℝ) ≠ 0 := by exact_mod_cast hk0.ne'
    have hpos : (0 : EReal) < ((k : ℝ) : EReal) := by exact_mod_cast hk0
    have hc : Ideal.cmp .ogt ((k : ℝ) : EReal) 0 = 1#1 := by
      unfold Ideal.cmp
      simp only [decide_eq_true hpos]
      rfl
    have hd0 : (0 : EReal) ≤ ((1 / (k : ℝ) : ℝ) : EReal) := EReal.coe_nonneg.mpr (by positivity)
    rw [hc, select_one, Ideal.div_coe hkr, one_mul, zero_add, zero_add,
      Ideal.sum_mul_of_nonneg_of_ne_top s f hd0 (EReal.coe_ne_top _)]
    refine Finset.sum_congr rfl (fun j hj => ?_)
    rw [hg j hj, Ideal.div_coe hkr]

/-- THE MEAN OVER THE ROWS LANDING ON A NODE, PER EDGE AND PER NODE. `E` rows each carry a number (one column of
    integers, read signed, not clamped). `deg` is the count of rows whose number is `n`, got by scattering ones into
    a zero vector. Scattering into a zero matrix the rows of `msg` divided entrywise by a divisor that equals `deg`
    on every row whose number is `n` gives, at entry `(n, o)`, the scatter of `msg` itself times
    `select (deg > 0) (1 / deg) 0`. -/
theorem scatter_mean_eq {N E C w : Nat}
    (wf2 : ScatterDims.WF ⟨2, ![N, C]⟩ ⟨2, ![E, 1]⟩ ⟨2, ![E, C]⟩ [1] [0] [0] 1)
    (wf1 : ScatterDims.WF ⟨1, ![N]⟩ ⟨2, ![E, 1]⟩ ⟨1, ![E]⟩ [] [0] [0] 1)
    (idx : IVec ⟨2, ![E, 1]⟩ w) (msg rowdeg : (⟨2, ![E, C]⟩ : Shape).Idx → EReal) (n : Fin N) (o : Fin C) (deg : EReal)
    (hdeg : deg = Ideal.hostScatterAdd (vecScatterDims N E wf1) (fun _ => (0 : EReal)) idx (fun _ => (1 : EReal)) (ix1 n))
    (hrow : ∀ (e : Fin E) (l : Fin C), (idx (colEntry e)).toInt = (n.val : Int) → rowdeg (ix2 e l) = deg) :
    Ideal.hostScatterAdd (rowScatterDims N E C wf2) (fun _ => (0 : EReal)) idx (fun j => Ideal.div (msg j) (rowdeg j)) (ix2 n o)
      = Ideal.hostScatterAdd (rowScatterDims N E C wf2) (fun _ => (0 : EReal)) idx msg (ix2 n o)
          * Scalar.select (Ideal.cmp .ogt deg 0) (Ideal.div 1 deg) 0 := by
  rw [scatter_ones_eq_card wf1 idx n] at hdeg
  have hland : ∀ j : (⟨2, ![E, C]⟩ : Shape).Idx, (rowScatterDims N E C wf2).resultIdx? j idx = some (ix2 n o) →
      (idx (colEntry (j 0))).toInt = (n.val : Int) := by
    intro j hj
    rw [eq_ix2 j] at hj
    exact (scatter_rows_lands wf2 idx (j 0) (j 1) (ix2 n o) hj).1
  unfold Ideal.hostScatterAdd
  rw [hdeg]
  refine sum_div_count _ msg rowdeg _ ?_ ?_
  · rintro ⟨j, hj⟩
    exact Finset.card_pos.mpr ⟨j 0, Finset.mem_filter.mpr ⟨Finset.mem_univ _, hland j (Finset.mem_filter.mp hj).2⟩⟩
  · intro j hj
    rw [← hdeg, eq_ix2 j]
    exact hrow (j 0) (j 1) (hland j (Finset.mem_filter.mp hj).2)

/-- The reciprocal of a degree vector guarded against zero, read at an index: the vector
    `select (a > b) (c / a) b`, the quotient the host's, is the scalar `select` of the comparison and the quotient
    of the entries. -/
theorem select_cmpf_hostDivf_apply {s : Shape} {φ : FTy} (a b c : FVec Ideal s φ) (i : s.Idx) :
    select (cmpf (F := Ideal) .ogt a b) (Host.divf c a) b i
      = Scalar.select (Ideal.cmp .ogt (a i) (b i)) (Ideal.div (c i) (a i)) (b i) := rfl

/-- The same with the vector unit's quotient. -/
theorem select_cmpf_divf_apply {s : Shape} {φ : FTy} (a b c : FVec Ideal s φ) (i : s.Idx) :
    select (cmpf (F := Ideal) .ogt a b) (divf c a) b i
      = Scalar.select (Ideal.cmp .ogt (a i) (b i)) (Ideal.div (c i) (a i)) (b i) := rfl

/-- The f32 pattern `0x3F800000` is the extended real one. -/
theorem f32_one_eq : Ideal.ofBits .f32 0x3F800000#32 = (1 : EReal) := Ideal.ofBits_one_f32

/-- The f32 pattern `0x00000000` is the extended real zero. -/
theorem f32_zero_eq : Ideal.ofBits .f32 0x00000000#32 = (0 : EReal) := Ideal.ofBits_zero_f32

end Idealize.ShloMosaic.ValueIdx
-- ==== Proof.LibRelationMean.lean ====
/-
  The mean of the messages landing on a node, as two programs spell it.

  E edges each carry a destination row number dest(e), a 32-bit integer read signed. Both programs scatter with
  the E × 1 column of these numbers; a scatter drops an edge whose number is not in [0, N).
  * deg = the scatter-add of ones into a zero vector of length N: deg(n) counts the edges landing on n.
  * Per edge: each entry msg(e, o) is divided by deg read at the edge's row — a gather of deg by the column of
    the numbers select(dest < 0, dest + nb, dest), read signed and clamped into [0, N − 1], repeated across the
    C columns — and the quotients are scatter-added into a zero N × C matrix.
  * Per node: msg is scatter-added into a zero N × C matrix and entry (n, o) is multiplied by entry (n, 0) of the
    N × 1 column select(deg > 0, 1 / deg, 0).
  The two agree at every entry (n, o). An edge that lands on n has dest(e) = n ≥ 0, so the select keeps dest(e),
  the clamp keeps n < N, and the gather reads deg(n); the law of the sum of quotients by one count does the rest.
  The word nb never matters, and nothing is asked of msg.
-/
import Idealize.ShloMosaic.Lib.ValueIdx
import Idealize.ShloMosaic.Lib.Pipeline.Value
import Idealize.ShloMosaic.Lib.IdealHost
import Idealize.ShloMosaic.PureOps.Ideal
import proofs.«133609_j19868518711903_2_alg».proof.Proof.LibRowGather
import proofs.«133609_j19868518711903_2_alg».proof.Proof.LibBiasRows
import proofs.«133609_j19868518711903_2_alg».proof.Proof.LibDegreeScatter

open scoped BigOperators

namespace Idealize.ShloMosaic.ValueIdx

open Idealize.ShloMosaic

/-- The host's accumulating scatter at the ideal values is the exact sum. -/
theorem hostScatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

/-- A vector of length `E` made one column `[E, 1]` reads, at the entry of row `e`, the vector at `e`. -/
theorem column_apply {α : Type} {E : ℕ} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ (![0] : Fin 1 → Fin 2) h v (colEntry e) = v (ix1 e) := by
  refine broadcastInDim_apply _ h v (colEntry e) (ix1 e) (fun ax => ?_)
  match ax with
  | ⟨0, _⟩ =>
    show e.val = if E = 1 then 0 else e.val
    split
    · have := e.isLt; omega
    · rfl

/-- A number that is not negative is kept by `select (v < 0) (v + nb) v`. -/
theorem select_slt_zero_of_nonneg (v nb : BitVec 32) (h : 0 ≤ v.toInt) :
    Scalar.select (IntOp.cmpi .slt v 0#32) (IntOp.addi v nb) v = v := by
  have hs : v.slt 0#32 = false := by
    simp [BitVec.slt]
    omega
  unfold IntOp.cmpi
  simp only [hs]
  exact select_zero _ _

/-- THE MEAN WITH THE DIVISOR GATHERED FROM THE DEGREE VECTOR. `degv` is the scatter of ones by the column `dcol`;
    the per-edge divisor is `degv` gathered by a column `ncol` that agrees with `dcol` on every row whose number
    is not negative, then repeated across the columns. -/
theorem scatter_mean_gathered {N E C : ℕ} (hN : 0 < N)
    (wf1 : ScatterDims.WF ⟨1, ![N]⟩ ⟨2, ![E, 1]⟩ ⟨1, ![E]⟩ [] [0] [0] 1)
    (wf2 : ScatterDims.WF ⟨2, ![N, C]⟩ ⟨2, ![E, 1]⟩ ⟨2, ![E, C]⟩ [1] [0] [0] 1)
    (wfg : GatherDims.WF ⟨1, ![N]⟩ ⟨2, ![E, 1]⟩ ⟨1, ![E]⟩ [] [0] [] [0] [] 1 ![1])
    (dcol ncol : IVec ⟨2, ![E, 1]⟩ 32) (degv : (⟨1, ![N]⟩ : Shape).Idx → EReal)
    (msg : (⟨2, ![E, C]⟩ : Shape).Idx → EReal)
    (hdegv : degv = Ideal.hostScatterAdd (vecScatterDims N E wf1) (fun _ => (0 : EReal)) dcol (fun _ => (1 : EReal)))
    (hn : ∀ e : Fin E, 0 ≤ (dcol (colEntry e)).toInt → ncol (colEntry e) = dcol (colEntry e))
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (n : Fin N) (o : Fin C) :
    Ideal.hostScatterAdd (rowScatterDims N E C wf2) (fun _ => (0 : EReal)) dcol
        (fun j => Ideal.div (msg j)
          (broadcastInDim ⟨2, ![E, C]⟩ (![0, 1] : Fin 2 → Fin 2) h2
            (broadcastInDim ⟨2, ![E, 1]⟩ (![0] : Fin 1 → Fin 2) h1 (Host.gather (vecGatherDims N E wfg) degv ncol)) j)) (ix2 n o)
      = Ideal.hostScatterAdd (rowScatterDims N E C wf2) (fun _ => (0 : EReal)) dcol msg (ix2 n o)
          * Scalar.select (Ideal.cmp .ogt (degv (ix1 n)) 0) (Ideal.div 1 (degv (ix1 n))) 0 := by
  refine scatter_mean_eq wf2 wf1 dcol msg _ n o (degv (ix1 n)) (by rw [hdegv]) (fun e l he => ?_)
  rw [row_factors_apply _ h1 h2 e l, gather_vec_apply hN wfg degv ncol e]
  congr 1
  refine congrArg ix1 (Fin.ext ?_)
  show min (ncol (colEntry e)).toInt.toNat (N - 1) = n.val
  rw [hn e (by omega), he]
  have := n.isLt
  omega

/-- THE TWO PROGRAMS' MEANS AGREE at every entry `(n, o)`: the per-edge form (each message divided by the degree
    gathered at its row, then scatter-added) equals the per-node form (the scatter-added messages times the
    guarded reciprocal of the degree, stored as an `N × 1` column). -/
theorem relation_mean_eq {N E C : ℕ} (hN : 0 < N)
    (wf1 : ScatterDims.WF ⟨1, ![N]⟩ ⟨2, ![E, 1]⟩ ⟨1, ![E]⟩ [] [0] [0] 1)
    (wf2 : ScatterDims.WF ⟨2, ![N, C]⟩ ⟨2, ![E, 1]⟩ ⟨2, ![E, C]⟩ [1] [0] [0] 1)
    (wfg : GatherDims.WF ⟨1, ![N]⟩ ⟨2, ![E, 1]⟩ ⟨1, ![E]⟩ [] [0] [] [0] [] 1 ![1])
    (dest : IVec ⟨1, ![E]⟩ 32) (nb : BitVec 32) (msg : FVec Ideal ⟨2, ![E, C]⟩ .f32)
    (zs : FVec Ideal ⟨0, ![]⟩ .f32) (hzs : zs = constant (F := Ideal) ⟨0, ![]⟩ .f32 0x00000000#32)
    (hc hc' h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (hz1 hz1' hz1'' ho' : (⟨0, ![]⟩ : Shape).BroadcastsInDim ⟨1, ![N]⟩ ![])
    (ho hzi hni : (⟨0, ![]⟩ : Shape).BroadcastsInDim ⟨1, ![E]⟩ ![])
    (hz2 : (⟨0, ![]⟩ : Shape).BroadcastsInDim ⟨2, ![N, C]⟩ ![])
    (hsc : (⟨1, ![N]⟩ : Shape).ShapeCasts ⟨2, ![N, 1]⟩)
    (n : Fin N) (o : Fin C) :
    Host.scatterAdd (F := Ideal) (rowScatterDims N E C wf2)
        (broadcastInDim ⟨2, ![N, C]⟩ ![] hz2 (constant (F := Ideal) ⟨0, ![]⟩ .f32 0x00000000#32))
        (broadcastInDim ⟨2, ![E, 1]⟩ (![0] : Fin 1 → Fin 2) hc dest)
        (Host.divf msg
          (broadcastInDim ⟨2, ![E, C]⟩ (![0, 1] : Fin 2 → Fin 2) h2
            (broadcastInDim ⟨2, ![E, 1]⟩ (![0] : Fin 1 → Fin 2) h1
              (Host.gather (vecGatherDims N E wfg)
                (Host.scatterAdd (F := Ideal) (vecScatterDims N E wf1)
                  (broadcastInDim ⟨1, ![N]⟩ ![] hz1 (constant (F := Ideal) ⟨0, ![]⟩ .f32 0x00000000#32))
                  (broadcastInDim ⟨2, ![E, 1]⟩ (![0] : Fin 1 → Fin 2) hc dest)
                  (broadcastInDim ⟨1, ![E]⟩ ![] ho (constant (F := Ideal) ⟨0, ![]⟩ .f32 0x3F800000#32)))
                (broadcastInDim ⟨2, ![E, 1]⟩ (![0] : Fin 1 → Fin 2) hc'
                  (select (cmpi .slt dest (broadcastInDim ⟨1, ![E]⟩ ![] hzi (constantI ⟨0, ![]⟩ 32 0#32)))
                    (addi dest (broadcastInDim ⟨1, ![E]⟩ ![] hni (constantI ⟨0, ![]⟩ 32 nb))) dest))))))
        (ix2 n o)
      = Host.scatterAdd (F := Ideal) (rowScatterDims N E C wf2)
            (broadcastInDim ⟨2, ![N, C]⟩ ![] hz2 (constant (F := Ideal) ⟨0, ![]⟩ .f32 0x00000000#32))
            (broadcastInDim ⟨2, ![E, 1]⟩ (![0] : Fin 1 → Fin 2) hc dest) msg (ix2 n o)
          * shapeCast ⟨2, ![N, 1]⟩
              (select
                (cmpf (F := Ideal) .ogt
                  (Host.scatterAdd (F := Ideal) (vecScatterDims N E wf1)
                    (broadcastInDim ⟨1, ![N]⟩ ![] hz1 (constant (F := Ideal) ⟨0, ![]⟩ .f32 0x00000000#32))
                    (broadcastInDim ⟨2, ![E, 1]⟩ (![0] : Fin 1 → Fin 2) hc dest)
                    (broadcastInDim ⟨1, ![E]⟩ ![] ho (constant (F := Ideal) ⟨0, ![]⟩ .f32 0x3F800000#32)))
                  (broadcastInDim ⟨1, ![N]⟩ ![] hz1' (constant (F := Ideal) ⟨0, ![]⟩ .f32 0x00000000#32)))
                (Host.divf (broadcastInDim ⟨1, ![N]⟩ ![] ho' (constant (F := Ideal) ⟨0, ![]⟩ .f32 0x3F800000#32))
                  (Host.scatterAdd (F := Ideal) (vecScatterDims N E wf1)
                    (broadcastInDim ⟨1, ![N]⟩ ![] hz1 (constant (F := Ideal) ⟨0, ![]⟩ .f32 0x00000000#32))
                    (broadcastInDim ⟨2, ![E, 1]⟩ (![0] : Fin 1 → Fin 2) hc dest)
                    (broadcastInDim ⟨1, ![E]⟩ ![] ho (constant (F := Ideal) ⟨0, ![]⟩ .f32 0x3F800000#32))))
                (broadcastInDim ⟨1, ![N]⟩ ![] hz1'' zs))
              hsc (ix2 n (0 : Fin 1)) := by
  subst hzs
  -- the scalar splats, as functions
  have z2 : broadcastInDim ⟨2, ![N, C]⟩ ![] hz2 (constant (F := Ideal) ⟨0, ![]⟩ .f32 0x00000000#32) = fun _ => (0 : EReal) :=
    funext fun _ => f32_zero_eq
  have z1 : broadcastInDim ⟨1, ![N]⟩ ![] hz1 (constant (F := Ideal) ⟨0, ![]⟩ .f32 0x00000000#32) = fun _ => (0 : EReal) :=
    funext fun _ => f32_zero_eq
  have o1 : broadcastInDim ⟨1, ![E]⟩ ![] ho (constant (F := Ideal) ⟨0, ![]⟩ .f32 0x3F800000#32) = fun _ => (1 : EReal) :=
    funext fun _ => f32_one_eq
  -- the N × 1 column read at (n, 0) is the vector read at n
  rw [shapeCast_apply _ hsc (ix2 n (0 : Fin 1)) (ix1 n) (by
    rw [Shape.rowMajor_val_one, Shape.rowMajor_val_two]
    show n.val = n.val * 1 + 0
    omega)]
  rw [select_cmpf_hostDivf_apply]
  rw [show broadcastInDim ⟨1, ![N]⟩ ![] hz1' (constant (F := Ideal) ⟨0, ![]⟩ .f32 0x00000000#32) (ix1 n) = (0 : EReal) from f32_zero_eq,
    show broadcastInDim ⟨1, ![N]⟩ ![] ho' (constant (F := Ideal) ⟨0, ![]⟩ .f32 0x3F800000#32) (ix1 n) = (1 : EReal) from f32_one_eq]
  rw [hostScatterAdd_ideal, hostScatterAdd_ideal, hostScatterAdd_ideal, z2, z1, o1]
  refine scatter_mean_gathered hN wf1 wf2 wfg _ _ _ msg rfl (fun e he => ?_) h1 h2 n o
  rw [column_apply _ hc' e, column_apply _ hc e] at *
  exact select_slt_zero_of_nonneg (dest (ix1 e)) nb he

end Idealize.ShloMosaic.ValueIdx
-- ==== Proof.LibTableGather.lean ====
/-
  A table of row numbers gathers rows of a matrix, read two ways.

  An N × C matrix x has rows picked by a flat list src of M = E·s integers. Each integer v is first normalised
  (a negative v has a fixed word added to it), then read as a signed number and clamped into [0, N − 1]: that is
  the row taken. The list is laid out either as an E × s table, gathered with three-dimensional start indices into
  an E × s × C array and flattened to E × (s·C); or left a list of length M, gathered row by row into an M × C
  array and reshaped to E × (s·C). Both give the array whose entry (e, j·C + l) is x(row(src(e·s + j)), l).
-/
import Idealize.ShloMosaic.Lib.ValueIdx
import Idealize.ShloMosaic.Lib.Pipeline.Value
import Idealize.ShloMosaic.PureOps.Ideal
import proofs.«133609_j19868518711903_2_alg».proof.Proof.LibRowGather

namespace Idealize.ShloMosaic.ValueIdx

open Idealize.ShloMosaic

section
variable {α β : Type}

/-- The dimension numbers of a gather of rows by a table: operand [N, C], start indices [E, s, 1],
    result [E, s, C]. -/
abbrev tableGatherDims (N E s C : Nat)
    (wf : GatherDims.WF ⟨2, ![N, C]⟩ ⟨3, ![E, s, 1]⟩ ⟨3, ![E, s, C]⟩ [2] [0] [] [0] [] 2 ![1, C]) :
    GatherDims ⟨2, ![N, C]⟩ ⟨3, ![E, s, 1]⟩ ⟨3, ![E, s, C]⟩ where
  offsetDims := [2]
  collapsedSliceDims := [0]
  operandBatchingDims := []
  startIndicesBatchingDims := []
  startIndexMap := [0]
  indexVectorDim := 2
  sliceSizes := ![1, C]
  wf := wf

/-- The entry of the table of row numbers that belongs to result entry (e, j, ·). -/
abbrev tblEntry {E s : Nat} (e : Fin E) (j : Fin s) : (⟨3, ![E, s, 1]⟩ : Shape).Idx := ix3 e j ⟨0, Nat.one_pos⟩

/-- A GATHER BY A TABLE read at (e, j, l): the operand at the clamped row, same column. -/
theorem gather_table_apply {N E s C w : Nat} (hN : 0 < N)
    (wf : GatherDims.WF ⟨2, ![N, C]⟩ ⟨3, ![E, s, 1]⟩ ⟨3, ![E, s, C]⟩ [2] [0] [] [0] [] 2 ![1, C])
    (x : (⟨2, ![N, C]⟩ : Shape).Idx → α) (idx : IVec ⟨3, ![E, s, 1]⟩ w) (e : Fin E) (j : Fin s) (l : Fin C) :
    Host.gather (tableGatherDims N E s C wf) x idx (ix3 e j l)
      = x (ix2 ⟨min (idx (ix3 e j ⟨0, Nat.one_pos⟩)).toInt.toNat (N - 1), by omega⟩ l) := by
  have h0 : (tableGatherDims N E s C wf).start (ix3 e j l) idx (0 : Fin 2)
      + (tableGatherDims N E s C wf).batchCoord (ix3 e j l) (0 : Fin 2)
      + (tableGatherDims N E s C wf).offCoord (ix3 e j l) (0 : Fin 2)
        = min (idx (tblEntry e j)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableGatherDims N E s C wf).startIndexMap from List.mem_singleton.mpr rfl)]
    have hsi : (tableGatherDims N E s C wf).siIdx (ix3 e j l)
        ⟨List.idxOf (0 : Fin 2) (tableGatherDims N E s C wf).startIndexMap,
          List.idxOf_lt_length_iff.2 (List.mem_singleton.mpr rfl)⟩ = tblEntry e j := by
      funext b; refine Fin.ext ?_
      match b with
      | ⟨0, _⟩ => rfl
      | ⟨1, _⟩ => rfl
      | ⟨2, _⟩ => rfl
    rw [hsi]
    rfl
  have h1 : (tableGatherDims N E s C wf).start (ix3 e j l) idx (1 : Fin 2)
      + (tableGatherDims N E s C wf).batchCoord (ix3 e j l) (1 : Fin 2)
      + (tableGatherDims N E s C wf).offCoord (ix3 e j l) (1 : Fin 2) = l.val := by
    rw [GatherDims.batchCoord_eq_zero _ _ _ List.not_mem_nil]
    have hs : (tableGatherDims N E s C wf).start (ix3 e j l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-! ## Flattened positions -/

/-- Column j·C + l of the flattened array is below K = s·C. -/
theorem table_col_lt {s C K : ℕ} (hK : K = s * C) (j : Fin s) (l : Fin C) : j.val * C + l.val < K := by
  subst hK
  have hj := j.isLt
  have hl := l.isLt
  calc j.val * C + l.val < j.val * C + C := by omega
    _ = (j.val + 1) * C := by ring
    _ ≤ s * C := Nat.mul_le_mul_right C hj

/-- Position e·s + j of the flat list is below M = E·s. -/
theorem table_row_lt {E s M : ℕ} (hM : M = E * s) (e : Fin E) (j : Fin s) : e.val * s + j.val < M := by
  subst hM
  have he := e.isLt
  have hj := j.isLt
  calc e.val * s + j.val < e.val * s + s := by omega
    _ = (e.val + 1) * s := by ring
    _ ≤ E * s := Nat.mul_le_mul_right s he

/-- Column j·C + l of the flattened array. -/
abbrev tblCol {s C K : ℕ} (hK : K = s * C) (j : Fin s) (l : Fin C) : Fin K := ⟨j.val * C + l.val, table_col_lt hK j l⟩
/-- Position e·s + j of the flat list. -/
abbrev tblRow {E s M : ℕ} (hM : M = E * s) (e : Fin E) (j : Fin s) : Fin M := ⟨e.val * s + j.val, table_row_lt hM e j⟩

/-- The reshape [E, s, C] → [E, s·C] read at (e, j·C + l) is the operand at (e, j, l). -/
theorem reshape_table_apply {E s C K : ℕ} (hK : K = s * C) (y : (⟨3, ![E, s, C]⟩ : Shape).Idx → α)
    (h : (⟨3, ![E, s, C]⟩ : Shape).ShapeCasts ⟨2, ![E, K]⟩) (e : Fin E) (j : Fin s) (l : Fin C) :
    shapeCast ⟨2, ![E, K]⟩ y h (ix2 e (tblCol hK j l)) = y (ix3 e j l) := by
  refine shapeCast_apply y h _ (ix3 e j l) ?_
  rw [Shape.rowMajor_val_three, Shape.rowMajor_val_two]
  show (e.val * s + j.val) * C + l.val = e.val * K + (j.val * C + l.val)
  subst hK
  ring

/-- The reshape [M, C] → [E, s·C] read at (e, j·C + l) is the operand at (e·s + j, l). -/
theorem reshape_rows_apply {E s C M K : ℕ} (hM : M = E * s) (hK : K = s * C) (y : (⟨2, ![M, C]⟩ : Shape).Idx → α)
    (h : (⟨2, ![M, C]⟩ : Shape).ShapeCasts ⟨2, ![E, K]⟩) (e : Fin E) (j : Fin s) (l : Fin C) :
    shapeCast ⟨2, ![E, K]⟩ y h (ix2 e (tblCol hK j l)) = y (ix2 (tblRow hM e j) l) := by
  refine shapeCast_apply y h _ (ix2 (tblRow hM e j) l) ?_
  rw [Shape.rowMajor_val_two, Shape.rowMajor_val_two]
  show (e.val * s + j.val) * C + l.val = e.val * K + (j.val * C + l.val)
  subst hK
  ring

/-- The reshape [M] → [E, s] read at (e, j) is the list at e·s + j. -/
theorem reshape_list_apply {E s M : ℕ} (hM : M = E * s) (v : (⟨1, ![M]⟩ : Shape).Idx → β)
    (h : (⟨1, ![M]⟩ : Shape).ShapeCasts ⟨2, ![E, s]⟩) (e : Fin E) (j : Fin s) :
    shapeCast ⟨2, ![E, s]⟩ v h (ix2 e j) = v (ix1 (tblRow hM e j)) := by
  refine shapeCast_apply v h _ (ix1 (tblRow hM e j)) ?_
  rw [Shape.rowMajor_val_one, Shape.rowMajor_val_two]
  rfl

/-- Every index of the flattened array is (e, j·C + l) for some e, j, l. -/
theorem exists_tblCol {E s C K : ℕ} (hK : K = s * C) (i : (⟨2, ![E, K]⟩ : Shape).Idx) :
    ∃ (e : Fin E) (j : Fin s) (l : Fin C), i = ix2 e (tblCol hK j l) := by
  have hi := idx2_lt1 i
  rcases Nat.eq_zero_or_pos C with hC | hC
  · subst hC
    rw [Nat.mul_zero] at hK
    omega
  · have hj : (i 1).val / C < s := Nat.div_lt_of_lt_mul (by rw [Nat.mul_comm, ← hK]; exact hi)
    refine ⟨i 0, ⟨(i 1).val / C, hj⟩, ⟨(i 1).val % C, Nat.mod_lt _ hC⟩, ?_⟩
    have h1 : i 1 = tblCol hK ⟨(i 1).val / C, hj⟩ ⟨(i 1).val % C, Nat.mod_lt _ hC⟩ :=
      Fin.ext (Nat.div_add_mod' (i 1).val C).symm
    rw [← h1]
    exact eq_ix2 i

/-! ## Broadcasts that add the unit axis of the start indices -/

/-- An [E, s] table broadcast to [E, s, 1] reads, at (e, j, 0), the table at (e, j). -/
theorem table_unit_apply {E s : ℕ} (v : (⟨2, ![E, s]⟩ : Shape).Idx → β)
    (h : (⟨2, ![E, s]⟩ : Shape).BroadcastsInDim ⟨3, ![E, s, 1]⟩ (![0, 1] : Fin 2 → Fin 3))
    (e : Fin E) (j : Fin s) :
    broadcastInDim ⟨3, ![E, s, 1]⟩ (![0, 1] : Fin 2 → Fin 3) h v (ix3 e j ⟨0, Nat.one_pos⟩) = v (ix2 e j) := by
  refine broadcastInDim_apply _ h v _ (ix2 e j) (fun ax => ?_)
  match ax with
  | ⟨0, _⟩ =>
    show e.val = if E = 1 then 0 else e.val
    split
    · have := e.isLt; omega
    · rfl
  | ⟨1, _⟩ =>
    show j.val = if s = 1 then 0 else j.val
    split
    · have := j.isLt; omega
    · rfl

/-- A length-M list broadcast to one column [M, 1] reads, at (m, 0), the list at m. -/
theorem list_unit_apply {M : ℕ} (v : (⟨1, ![M]⟩ : Shape).Idx → β)
    (h : (⟨1, ![M]⟩ : Shape).BroadcastsInDim ⟨2, ![M, 1]⟩ (![0] : Fin 1 → Fin 2)) (m : Fin M) :
    broadcastInDim ⟨2, ![M, 1]⟩ (![0] : Fin 1 → Fin 2) h v (ix2 m ⟨0, Nat.one_pos⟩) = v (ix1 m) := by
  refine broadcastInDim_apply _ h v _ (ix1 m) (fun ax => ?_)
  match ax with
  | ⟨0, _⟩ =>
    show m.val = if M = 1 then 0 else m.val
    split
    · have := m.isLt; omega
    · rfl

end

/-! ## The normalised row number, and the two gathers read at an index -/

section
variable {α : Type}

/-- A row number normalised: a negative one has the word nb added. -/
abbrev nrmRow (nb v : BitVec 32) : BitVec 32 := Scalar.select (IntOp.cmpi .slt v 0#32) (IntOp.addi v nb) v

/-- The normalisation of an array of row numbers, read at an index, is the normalised entry. -/
theorem nrm_apply {sh : Shape} (nb : BitVec 32) (v : IVec sh 32)
    (hz hn : (⟨0, ![]⟩ : Shape).BroadcastsInDim sh (![] : Fin 0 → Fin sh.rank)) (i : sh.Idx) :
    select (cmpi .slt v (broadcastInDim sh (![] : Fin 0 → Fin sh.rank) hz (constantI ⟨0, ![]⟩ 32 0#32)))
      (addi v (broadcastInDim sh (![] : Fin 0 → Fin sh.rank) hn (constantI ⟨0, ![]⟩ 32 nb))) v i
      = nrmRow nb (v i) := rfl

/-- THE TABLE SIDE read at (e, j·C + l): the matrix at the clamped normalised row number src(e·s + j), column l. -/
theorem table_side_apply {N E s C M K : ℕ} (hM : M = E * s) (hK : K = s * C) (hN : 0 < N)
    (wf : GatherDims.WF ⟨2, ![N, C]⟩ ⟨3, ![E, s, 1]⟩ ⟨3, ![E, s, C]⟩ [2] [0] [] [0] [] 2 ![1, C])
    (x : (⟨2, ![N, C]⟩ : Shape).Idx → α) (src : IVec ⟨1, ![M]⟩ 32) (nb : BitVec 32)
    (hcs : (⟨1, ![M]⟩ : Shape).ShapeCasts ⟨2, ![E, s]⟩)
    (hz hn : (⟨0, ![]⟩ : Shape).BroadcastsInDim ⟨2, ![E, s]⟩ (![] : Fin 0 → Fin 2))
    (hb3 : (⟨2, ![E, s]⟩ : Shape).BroadcastsInDim ⟨3, ![E, s, 1]⟩ (![0, 1] : Fin 2 → Fin 3))
    (hcK : (⟨3, ![E, s, C]⟩ : Shape).ShapeCasts ⟨2, ![E, K]⟩)
    (e : Fin E) (j : Fin s) (l : Fin C) :
    shapeCast ⟨2, ![E, K]⟩ (Host.gather (tableGatherDims N E s C wf) x
      (broadcastInDim ⟨3, ![E, s, 1]⟩ (![0, 1] : Fin 2 → Fin 3) hb3
        (select (cmpi .slt (shapeCast ⟨2, ![E, s]⟩ src hcs)
            (broadcastInDim ⟨2, ![E, s]⟩ (![] : Fin 0 → Fin 2) hz (constantI ⟨0, ![]⟩ 32 0#32)))
          (addi (shapeCast ⟨2, ![E, s]⟩ src hcs)
            (broadcastInDim ⟨2, ![E, s]⟩ (![] : Fin 0 → Fin 2) hn (constantI ⟨0, ![]⟩ 32 nb)))
          (shapeCast ⟨2, ![E, s]⟩ src hcs)))) hcK (ix2 e (tblCol hK j l))
      = x (ix2 ⟨min (nrmRow nb (src (ix1 (tblRow hM e j)))).toInt.toNat (N - 1), by omega⟩ l) := by
  refine (reshape_table_apply hK _ hcK e j l).trans ?_
  refine (gather_table_apply hN wf x _ e j l).trans ?_
  have key : broadcastInDim ⟨3, ![E, s, 1]⟩ (![0, 1] : Fin 2 → Fin 3) hb3
        (select (cmpi .slt (shapeCast ⟨2, ![E, s]⟩ src hcs)
            (broadcastInDim ⟨2, ![E, s]⟩ (![] : Fin 0 → Fin 2) hz (constantI ⟨0, ![]⟩ 32 0#32)))
          (addi (shapeCast ⟨2, ![E, s]⟩ src hcs)
            (broadcastInDim ⟨2, ![E, s]⟩ (![] : Fin 0 → Fin 2) hn (constantI ⟨0, ![]⟩ 32 nb)))
          (shapeCast ⟨2, ![E, s]⟩ src hcs)) (ix3 e j ⟨0, Nat.one_pos⟩)
      = nrmRow nb (src (ix1 (tblRow hM e j))) := by
    refine (table_unit_apply _ hb3 e j).trans ?_
    refine (nrm_apply nb (shapeCast ⟨2, ![E, s]⟩ src hcs) hz hn (ix2 e j)).trans ?_
    rw [reshape_list_apply hM src hcs e j]
  exact congrArg (fun v : BitVec 32 => x (ix2 (⟨min v.toInt.toNat (N - 1), by omega⟩ : Fin N) l)) key

/-- THE ROW SIDE read at (m, l): the matrix at the clamped normalised row number src(m), column l. -/
theorem rows_side_apply {N M C : ℕ} (hN : 0 < N)
    (wfR : GatherDims.WF ⟨2, ![N, C]⟩ ⟨2, ![M, 1]⟩ ⟨2, ![M, C]⟩ [1] [0] [] [0] [] 1 ![1, C])
    (x : (⟨2, ![N, C]⟩ : Shape).Idx → α) (src : IVec ⟨1, ![M]⟩ 32) (nb : BitVec 32)
    (hb2 : (⟨1, ![M]⟩ : Shape).BroadcastsInDim ⟨2, ![M, 1]⟩ (![0] : Fin 1 → Fin 2))
    (hz' hn' : (⟨0, ![]⟩ : Shape).BroadcastsInDim ⟨1, ![M]⟩ (![] : Fin 0 → Fin 1))
    (m : Fin M) (l : Fin C) :
    Host.gather (rowGatherDims N M C wfR) x
      (broadcastInDim ⟨2, ![M, 1]⟩ (![0] : Fin 1 → Fin 2) hb2
        (select (cmpi .slt src (broadcastInDim ⟨1, ![M]⟩ (![] : Fin 0 → Fin 1) hz' (constantI ⟨0, ![]⟩ 32 0#32)))
          (addi src (broadcastInDim ⟨1, ![M]⟩ (![] : Fin 0 → Fin 1) hn' (constantI ⟨0, ![]⟩ 32 nb)))
          src)) (ix2 m l)
      = x (ix2 ⟨min (nrmRow nb (src (ix1 m))).toInt.toNat (N - 1), by omega⟩ l) := by
  refine (gather_rows_apply hN wfR x _ m l).trans ?_
  have key : broadcastInDim ⟨2, ![M, 1]⟩ (![0] : Fin 1 → Fin 2) hb2
        (select (cmpi .slt src (broadcastInDim ⟨1, ![M]⟩ (![] : Fin 0 → Fin 1) hz' (constantI ⟨0, ![]⟩ 32 0#32)))
          (addi src (broadcastInDim ⟨1, ![M]⟩ (![] : Fin 0 → Fin 1) hn' (constantI ⟨0, ![]⟩ 32 nb)))
          src) (colEntry m)
      = nrmRow nb (src (ix1 m)) := by
    refine (list_unit_apply _ hb2 m).trans ?_
    exact nrm_apply nb src hz' hn' (ix1 m)
  exact congrArg (fun v : BitVec 32 => x (ix2 (⟨min v.toInt.toNat (N - 1), by omega⟩ : Fin N) l)) key

/-! ## The two readings agree -/

/-- THE TABLE SIDE IS THE ROW SIDE: gathering by the E × s table and flattening, and gathering row by row from the
    flat list and reshaping, give the same E × (s·C) array. -/
theorem table_gather_eq {N E s C M K : ℕ} (hM : M = E * s) (hK : K = s * C) (hN : 0 < N)
    (wf : GatherDims.WF ⟨2, ![N, C]⟩ ⟨3, ![E, s, 1]⟩ ⟨3, ![E, s, C]⟩ [2] [0] [] [0] [] 2 ![1, C])
    (wfR : GatherDims.WF ⟨2, ![N, C]⟩ ⟨2, ![M, 1]⟩ ⟨2, ![M, C]⟩ [1] [0] [] [0] [] 1 ![1, C])
    (x : (⟨2, ![N, C]⟩ : Shape).Idx → α) (src : IVec ⟨1, ![M]⟩ 32) (nb : BitVec 32)
    (hcs : (⟨1, ![M]⟩ : Shape).ShapeCasts ⟨2, ![E, s]⟩)
    (hz hn : (⟨0, ![]⟩ : Shape).BroadcastsInDim ⟨2, ![E, s]⟩ (![] : Fin 0 → Fin 2))
    (hb3 : (⟨2, ![E, s]⟩ : Shape).BroadcastsInDim ⟨3, ![E, s, 1]⟩ (![0, 1] : Fin 2 → Fin 3))
    (hcK : (⟨3, ![E, s, C]⟩ : Shape).ShapeCasts ⟨2, ![E, K]⟩)
    (hb2 : (⟨1, ![M]⟩ : Shape).BroadcastsInDim ⟨2, ![M, 1]⟩ (![0] : Fin 1 → Fin 2))
    (hz' hn' : (⟨0, ![]⟩ : Shape).BroadcastsInDim ⟨1, ![M]⟩ (![] : Fin 0 → Fin 1))
    (hcR : (⟨2, ![M, C]⟩ : Shape).ShapeCasts ⟨2, ![E, K]⟩) :
    shapeCast ⟨2, ![E, K]⟩ (Host.gather (tableGatherDims N E s C wf) x
      (broadcastInDim ⟨3, ![E, s, 1]⟩ (![0, 1] : Fin 2 → Fin 3) hb3
        (select (cmpi .slt (shapeCast ⟨2, ![E, s]⟩ src hcs)
            (broadcastInDim ⟨2, ![E, s]⟩ (![] : Fin 0 → Fin 2) hz (constantI ⟨0, ![]⟩ 32 0#32)))
          (addi (shapeCast ⟨2, ![E, s]⟩ src hcs)
            (broadcastInDim ⟨2, ![E, s]⟩ (![] : Fin 0 → Fin 2) hn (constantI ⟨0, ![]⟩ 32 nb)))
          (shapeCast ⟨2, ![E, s]⟩ src hcs)))) hcK
      = shapeCast ⟨2, ![E, K]⟩ (Host.gather (rowGatherDims N M C wfR) x
          (broadcastInDim ⟨2, ![M, 1]⟩ (![0] : Fin 1 → Fin 2) hb2
            (select (cmpi .slt src (broadcastInDim ⟨1, ![M]⟩ (![] : Fin 0 → Fin 1) hz' (constantI ⟨0, ![]⟩ 32 0#32)))
              (addi src (broadcastInDim ⟨1, ![M]⟩ (![] : Fin 0 → Fin 1) hn' (constantI ⟨0, ![]⟩ 32 nb)))
              src))) hcR := by
  funext i
  obtain ⟨e, j, l, rfl⟩ := exists_tblCol hK i
  refine (table_side_apply hM hK hN wf x src nb hcs hz hn hb3 hcK e j l).trans ?_
  refine Eq.symm ((reshape_rows_apply hM hK _ hcR e j l).trans ?_)
  exact rows_side_apply hN wfR x src nb hb2 hz' hn' (tblRow hM e j) l

/-- THE SAME WITH ONE ROW NUMBER PER TABLE ROW (s = 1): the flattened table gather is the gather of rows itself. -/
theorem table_gather_eq_flat {N E C : ℕ} (hN : 0 < N)
    (wf : GatherDims.WF ⟨2, ![N, C]⟩ ⟨3, ![E, 1, 1]⟩ ⟨3, ![E, 1, C]⟩ [2] [0] [] [0] [] 2 ![1, C])
    (wfR : GatherDims.WF ⟨2, ![N, C]⟩ ⟨2, ![E, 1]⟩ ⟨2, ![E, C]⟩ [1] [0] [] [0] [] 1 ![1, C])
    (x : (⟨2, ![N, C]⟩ : Shape).Idx → α) (src : IVec ⟨1, ![E]⟩ 32) (nb : BitVec 32)
    (hcs : (⟨1, ![E]⟩ : Shape).ShapeCasts ⟨2, ![E, 1]⟩)
    (hz hn : (⟨0, ![]⟩ : Shape).BroadcastsInDim ⟨2, ![E, 1]⟩ (![] : Fin 0 → Fin 2))
    (hb3 : (⟨2, ![E, 1]⟩ : Shape).BroadcastsInDim ⟨3, ![E, 1, 1]⟩ (![0, 1] : Fin 2 → Fin 3))
    (hcK : (⟨3, ![E, 1, C]⟩ : Shape).ShapeCasts ⟨2, ![E, C]⟩)
    (hb2 : (⟨1, ![E]⟩ : Shape).BroadcastsInDim ⟨2, ![E, 1]⟩ (![0] : Fin 1 → Fin 2))
    (hz' hn' : (⟨0, ![]⟩ : Shape).BroadcastsInDim ⟨1, ![E]⟩ (![] : Fin 0 → Fin 1)) :
    shapeCast ⟨2, ![E, C]⟩ (Host.gather (tableGatherDims N E 1 C wf) x
      (broadcastInDim ⟨3, ![E, 1, 1]⟩ (![0, 1] : Fin 2 → Fin 3) hb3
        (select (cmpi .slt (shapeCast ⟨2, ![E, 1]⟩ src hcs)
            (broadcastInDim ⟨2, ![E, 1]⟩ (![] : Fin 0 → Fin 2) hz (constantI ⟨0, ![]⟩ 32 0#32)))
          (addi (shapeCast ⟨2, ![E, 1]⟩ src hcs)
            (broadcastInDim ⟨2, ![E, 1]⟩ (![] : Fin 0 → Fin 2) hn (constantI ⟨0, ![]⟩ 32 nb)))
          (shapeCast ⟨2, ![E, 1]⟩ src hcs)))) hcK
      = Host.gather (rowGatherDims N E C wfR) x
          (broadcastInDim ⟨2, ![E, 1]⟩ (![0] : Fin 1 → Fin 2) hb2
            (select (cmpi .slt src (broadcastInDim ⟨1, ![E]⟩ (![] : Fin 0 → Fin 1) hz' (constantI ⟨0, ![]⟩ 32 0#32)))
              (addi src (broadcastInDim ⟨1, ![E]⟩ (![] : Fin 0 → Fin 1) hn' (constantI ⟨0, ![]⟩ 32 nb)))
              src)) := by
  funext i
  obtain ⟨e, l, rfl⟩ : ∃ (e : Fin E) (l : Fin C), i = ix2 e l := ⟨i 0, i 1, eq_ix2 i⟩
  have hM : E = E * 1 := (Nat.mul_one E).symm
  have hK : C = 1 * C := (Nat.one_mul C).symm
  have hl : l = tblCol hK (⟨0, Nat.one_pos⟩ : Fin 1) l := Fin.ext (by show l.val = 0 * C + l.val; omega)
  have he : tblRow hM e (⟨0, Nat.one_pos⟩ : Fin 1) = e := Fin.ext (by show e.val * 1 + 0 = e.val; omega)
  conv_lhs => rw [hl]
  refine (table_side_apply hM hK hN wf x src nb hcs hz hn hb3 hcK e ⟨0, Nat.one_pos⟩ l).trans ?_
  refine Eq.symm ((rows_side_apply hN wfR x src nb hb2 hz' hn' e l).trans ?_)
  exact congrArg (fun r : Fin E => x (ix2 (⟨min (nrmRow nb (src (ix1 r))).toInt.toNat (N - 1), by omega⟩ : Fin N) l)) he.symm

end

end Idealize.ShloMosaic.ValueIdx
-- ==== Proof.Bridge.lean ====
/-
  The two programs' aggregates agree, relation by relation.

  For each of the three relations the kernel program scatter-adds the messages by destination and multiplies entry
  (n, o) by the guarded reciprocal of the in-degree of n; the reference program divides each message by the in-degree
  of its destination and scatter-adds the quotients. Both start from the same arrays:
  * the gathered operand — the kernel program gathers the source rows through an E × s table of row numbers and
    flattens, the reference program gathers row by row from the flat list and reshapes; the two gathers give the
    same array, and narrowing the features to a 16-bit float format is the identity over the extended reals, so the
    two message arrays (gathered operand times the relation's weights) are the same array;
  * the destination numbers and the in-degrees are spelt by the same operations in both programs.
  The law of the mean over the rows landing on a node then gives the equality at every entry (n, o).
-/
import proofs.«133609_j19868518711903_2_alg».proof.Proof.KernelValue
import proofs.«133609_j19868518711903_2_alg».proof.Proof.RefEntry
import proofs.«133609_j19868518711903_2_alg».proof.Proof.LibRelationMean
import proofs.«133609_j19868518711903_2_alg».proof.Proof.LibTableGather

namespace Cert.Bridge

open Idealize.ShloMosaic Idealize.ShloMosaic.ValueIdx

/-- The gathered operand of relation 1 is the same array in both programs. -/
theorem gat1_eq (a0 : FVec Ideal Cert.KernelIdeal.S100000x128 .f32) (a1 : IVec Cert.KernelIdeal.S2x400000 32) :
    Cert.KernelIdeal.HostTerms.gat1 (truncf .bf16 a0 Cert.KernelIdeal.Gen.bitsLt_bf16_f32) a1
      = Cert.ReferenceIdeal.RefValue.rows1 a0 a1 :=
  table_gather_eq_flat (N := 100000) (E := 400000) (C := 128) (by norm_num)
    Cert.KernelIdeal.Gen.gather_S100000x128_S400000x1x1_S400000x1x128_2_0_n_n_0_2_1128_wf
    Cert.ReferenceIdeal.Gen.gather_S100000x128_S400000x1_S400000x128_1_0_n_n_0_1_1128_wf
    a0 (Cert.ReferenceIdeal.RefValue.src1 a1) 100000#32
    (by decide) (by decide) (by decide) (by decide) (by decide) (by decide) (by decide) (by decide)

/-- RELATION 1: the per-node mean of the kernel program is the per-edge mean of the reference program, at every
    entry. -/
theorem rel1 (a0 : FVec Ideal Cert.KernelIdeal.S100000x128 .f32) (a1 : IVec Cert.KernelIdeal.S2x400000 32)
    (a4 : FVec Ideal Cert.KernelIdeal.S128x128 .f32) (n : Fin 100000) (o : Fin 128) :
    Cert.KernelIdeal.HostTerms.raw1 (Cert.KernelIdeal.HostTerms.dest1 a1) (Cert.KernelIdeal.HostTerms.msg1 a0 a1 a4) (ix2 n o)
        * Cert.KernelIdeal.HostTerms.inv (Cert.KernelIdeal.HostTerms.deg1 (Cert.KernelIdeal.HostTerms.dest1 a1)) (ix2 n (0 : Fin 1))
      = Cert.ReferenceIdeal.Read.val_main_v30 (F := Ideal) a0 a1 a4 (ix2 n o) := by
  rw [Cert.ReferenceIdeal.RefValue.agg1_raw, ← gat1_eq a0 a1]
  exact (relation_mean_eq (N := 100000) (E := 400000) (C := 128) (by norm_num)
    Cert.KernelIdeal.Gen.scatter_S100000_S400000x1_S400000_n_0_0_1_wf
    Cert.KernelIdeal.Gen.scatter_S100000x128_S400000x1_S400000x128_1_0_0_1_wf
    Cert.ReferenceIdeal.Gen.gather_S100000_S400000x1_S400000_n_0_n_n_0_1_1_wf
    (Cert.KernelIdeal.HostTerms.dest1 a1) 100000#32 (Cert.KernelIdeal.HostTerms.msg1 a0 a1 a4)
    (id (constant (F := Ideal) Cert.KernelIdeal.S_ .f32 0x00000000#32)) rfl
    (by decide) (by decide) (by decide) (by decide) (by decide) (by decide) (by decide) (by decide)
    (by decide) (by decide) (by decide) (by decide) (by decide) n o).symm

/-- The gathered operand of relation 2 is the same array in both programs. -/
theorem gat2_eq (a0 : FVec Ideal Cert.KernelIdeal.S100000x128 .f32) (a2 : IVec Cert.KernelIdeal.S2x600000 32) :
    Cert.KernelIdeal.HostTerms.gat2 (truncf .bf16 a0 Cert.KernelIdeal.Gen.bitsLt_bf16_f32) a2
      = Cert.ReferenceIdeal.RefValue.rows2 a0 a2 :=
  table_gather_eq (N := 100000) (E := 300000) (s := 2) (C := 128) (M := 600000) (K := 256) (by norm_num) (by norm_num) (by norm_num)
    Cert.KernelIdeal.Gen.gather_S100000x128_S300000x2x1_S300000x2x128_2_0_n_n_0_2_1128_wf
    Cert.ReferenceIdeal.Gen.gather_S100000x128_S600000x1_S600000x128_1_0_n_n_0_1_1128_wf
    a0 (Cert.ReferenceIdeal.RefValue.src2 a2) 100000#32
    (by decide) (by decide) (by decide) (by decide) (by decide) (by decide) (by decide) (by decide) (by decide)

/-- RELATION 2: the per-node mean of the kernel program is the per-edge mean of the reference program, at every
    entry. -/
theorem rel2 (a0 : FVec Ideal Cert.KernelIdeal.S100000x128 .f32) (a2 : IVec Cert.KernelIdeal.S2x600000 32)
    (a5 : FVec Ideal Cert.KernelIdeal.S256x128 .f32) (n : Fin 100000) (o : Fin 128) :
    Cert.KernelIdeal.HostTerms.raw2 (Cert.KernelIdeal.HostTerms.dest2 a2) (Cert.KernelIdeal.HostTerms.msg2 a0 a2 a5) (ix2 n o)
        * Cert.KernelIdeal.HostTerms.inv (Cert.KernelIdeal.HostTerms.deg2 (Cert.KernelIdeal.HostTerms.dest2 a2)) (ix2 n (0 : Fin 1))
      = Cert.ReferenceIdeal.Read.val_main_v63 (F := Ideal) a0 a2 a5 (ix2 n o) := by
  rw [Cert.ReferenceIdeal.RefValue.agg2_raw, ← gat2_eq a0 a2]
  exact (relation_mean_eq (N := 100000) (E := 300000) (C := 128) (by norm_num)
    Cert.KernelIdeal.Gen.scatter_S100000_S300000x1_S300000_n_0_0_1_wf
    Cert.KernelIdeal.Gen.scatter_S100000x128_S300000x1_S300000x128_1_0_0_1_wf
    Cert.ReferenceIdeal.Gen.gather_S100000_S300000x1_S300000_n_0_n_n_0_1_1_wf
    (Cert.KernelIdeal.HostTerms.dest2 a2) 100000#32 (Cert.KernelIdeal.HostTerms.msg2 a0 a2 a5)
    (id (constant (F := Ideal) Cert.KernelIdeal.S_ .f32 0x00000000#32)) rfl
    (by decide) (by decide) (by decide) (by decide) (by decide) (by decide) (by decide) (by decide)
    (by decide) (by decide) (by decide) (by decide) (by decide) n o).symm

/-- The gathered operand of relation 3 is the same array in both programs. -/
theorem gat3_eq (a0 : FVec Ideal Cert.KernelIdeal.S100000x128 .f32) (a3 : IVec Cert.KernelIdeal.S2x600000 32) :
    Cert.KernelIdeal.HostTerms.gat3 (truncf .bf16 a0 Cert.KernelIdeal.Gen.bitsLt_bf16_f32) a3
      = Cert.ReferenceIdeal.RefValue.rows3 a0 a3 :=
  table_gather_eq (N := 100000) (E := 200000) (s := 3) (C := 128) (M := 600000) (K := 384) (by norm_num) (by norm_num) (by norm_num)
    Cert.KernelIdeal.Gen.gather_S100000x128_S200000x3x1_S200000x3x128_2_0_n_n_0_2_1128_wf
    Cert.ReferenceIdeal.Gen.gather_S100000x128_S600000x1_S600000x128_1_0_n_n_0_1_1128_wf
    a0 (Cert.ReferenceIdeal.RefValue.src3 a3) 100000#32
    (by decide) (by decide) (by decide) (by decide) (by decide) (by decide) (by decide) (by decide) (by decide)

/-- RELATION 3: the per-node mean of the kernel program is the per-edge mean of the reference program, at every
    entry. -/
theorem rel3 (a0 : FVec Ideal Cert.KernelIdeal.S100000x128 .f32) (a3 : IVec Cert.KernelIdeal.S2x600000 32)
    (a6 : FVec Ideal Cert.KernelIdeal.S384x128 .f32) (n : Fin 100000) (o : Fin 128) :
    Cert.KernelIdeal.HostTerms.raw3 (Cert.KernelIdeal.HostTerms.dest3 a3) (Cert.KernelIdeal.HostTerms.msg3 a0 a3 a6) (ix2 n o)
        * Cert.KernelIdeal.HostTerms.inv (Cert.KernelIdeal.HostTerms.deg3 (Cert.KernelIdeal.HostTerms.dest3 a3)) (ix2 n (0 : Fin 1))
      = Cert.ReferenceIdeal.Read.val_main_v97 (F := Ideal) a0 a3 a6 (ix2 n o) := by
  rw [Cert.ReferenceIdeal.RefValue.agg3_raw, ← gat3_eq a0 a3]
  exact (relation_mean_eq (N := 100000) (E := 200000) (C := 128) (by norm_num)
    Cert.KernelIdeal.Gen.scatter_S100000_S200000x1_S200000_n_0_0_1_wf
    Cert.KernelIdeal.Gen.scatter_S100000x128_S200000x1_S200000x128_1_0_0_1_wf
    Cert.ReferenceIdeal.Gen.gather_S100000_S200000x1_S200000_n_0_n_n_0_1_1_wf
    (Cert.KernelIdeal.HostTerms.dest3 a3) 100000#32 (Cert.KernelIdeal.HostTerms.msg3 a0 a3 a6)
    (id (constant (F := Ideal) Cert.KernelIdeal.S_ .f32 0x00000000#32)) rfl
    (by decide) (by decide) (by decide) (by decide) (by decide) (by decide) (by decide) (by decide)
    (by decide) (by decide) (by decide) (by decide) (by decide) n o).symm

end Cert.Bridge
-- ==== Proof.ValueEq.lean ====
/-
  The idealized kernel program and the reference program compute the same array.

  Both results are, at node n and feature o, the product of the node features with the update's weights at (n, o),
  plus the bias at o, plus the sum over the three relations of the relation's aggregate at (n, o). On the kernel side
  the aggregate is the scattered sum of the messages times the inverse in-degree of n; on the reference side each
  message is divided by the in-degree of its destination before the scatter. The two agree relation by relation, and
  narrowing the features and weights to a shorter float format changes nothing over the extended reals.
-/
import proofs.«133609_j19868518711903_2_alg».proof.Proof.Bridge
import proofs.«133609_j19868518711903_2_alg».proof.Proof.KernelValue
import proofs.«133609_j19868518711903_2_alg».proof.Proof.RefEntry

noncomputable section

namespace Cert.Bridge

open Idealize.ShloMosaic Idealize.ShloMosaic.ValueIdx

/-- THE TWO PROGRAMS' RESULTS ARE EQUAL, as arrays of the nine arguments. -/
theorem value_eq (a0 : FVec Ideal Cert.KernelIdeal.S100000x128 .f32) (a1 : IVec Cert.KernelIdeal.S2x400000 32)
    (a2 a3 : IVec Cert.KernelIdeal.S2x600000 32) (a4 : FVec Ideal Cert.KernelIdeal.S128x128 .f32)
    (a5 : FVec Ideal Cert.KernelIdeal.S256x128 .f32) (a6 : FVec Ideal Cert.KernelIdeal.S384x128 .f32)
    (a7 : FVec Ideal Cert.KernelIdeal.S128x128 .f32) (a8 : FVec Ideal Cert.KernelIdeal.S128 .f32) :
    Cert.KernelIdeal.HostTerms.kernelValue a0 a1 a2 a3 a4 a5 a6 a7 a8
      = Cert.ReferenceIdeal.Read.val_main_v103 (F := Ideal) a0 a1 a2 a3 a4 a5 a6 a7 a8 := by
  funext i
  obtain ⟨n, o, rfl⟩ : ∃ (n : Fin 100000) (o : Fin 128), i = ix2 n o := ⟨i 0, i 1, eq_ix2 i⟩
  rw [Cert.ReferenceIdeal.RefValue.result_apply, ← rel1 a0 a1 a4 n o, ← rel2 a0 a2 a5 n o, ← rel3 a0 a3 a6 n o]
  rfl

end Cert.Bridge

end
-- ==== Proof.lean ====
/-
  The certificate of a three-relation message-passing layer: a kernel program of four pipelined regions against its
  plain reference, equal over the extended reals.

  BOTH programs gather, for each edge of a relation, the source rows of the node features X side by side, multiply by
  the relation's weights A_t, and add the messages up per destination node; both add X·W + b. They differ in where the
  mean over a node's in-edges is taken:
    the reference divides every message by the in-degree of its destination and then adds up:  Σ_e msg(e) / deg(n);
    the kernel adds up the raw messages and multiplies, in its last region, by the node's inverse in-degree
    (taken as zero where the in-degree is not positive):                                      (Σ_e msg(e)) · inv(n).
  Every edge that lands on node n has destination n, so its divisor is deg(n), a whole number ≥ 1; on the extended
  reals x / k = x · k⁻¹ for a nonzero real k, and a nonnegative finite factor distributes over a finite sum, whatever
  the summands — so the two agree without any use of the inputs' finiteness. Where no edge lands both are 0. An edge
  whose destination number is out of range is dropped by both programs' scatters. The kernel narrows X, W and A_t to a
  16-bit float format on the way; over the extended reals that is the identity.

  How the proof is cut:
    KernelRun      the run of the kernel program with its last boundary's buffer contents kept;
    MsgRegion0-2   a message region's result array is the product of its operand arrays; FinalRegion likewise for the
                   node update 'combine';
    HostTerms, KernelValue   the host operations between the regions as named arrays, and the closed-form result;
    HostWalkA/B, KernelResult  every buffer followed through the fold of segments to the closed form;
    RefEntry       the reference's result read at an entry; Bridge, ValueEq  the two closed forms are one array
                   (over LibTableGather: the two gathers; LibDegreeScatter, LibRelationMean: the mean law).
  The three frames are the generated ones (the reference's is its generated run with the result dropped); the ideal
  pass rewrote nothing, so 'preserves' is trivial.
-/
import proofs.«133609_j19868518711903_2_alg».proof.Defs
import proofs.«133609_j19868518711903_2_alg».proof.Proof.Gen.Kernel
import proofs.«133609_j19868518711903_2_alg».proof.Proof.Gen.Kernel.Skeleton
import proofs.«133609_j19868518711903_2_alg».proof.Proof.Gen.Kernel.Launch
import proofs.«133609_j19868518711903_2_alg».proof.Proof.Gen.Kernel.Points
import proofs.«133609_j19868518711903_2_alg».proof.Proof.Gen.Kernel.Frame
import proofs.«133609_j19868518711903_2_alg».proof.Proof.Gen.KernelIdeal
import proofs.«133609_j19868518711903_2_alg».proof.Proof.Gen.KernelIdeal.Skeleton
import proofs.«133609_j19868518711903_2_alg».proof.Proof.Gen.KernelIdeal.Launch
import proofs.«133609_j19868518711903_2_alg».proof.Proof.Gen.KernelIdeal.Points
import proofs.«133609_j19868518711903_2_alg».proof.Proof.Gen.KernelIdeal.Frame
import proofs.«133609_j19868518711903_2_alg».proof.Proof.Gen.ReferenceIdeal
import proofs.«133609_j19868518711903_2_alg».proof.Proof.Gen.ReferenceIdeal.Read
import proofs.«133609_j19868518711903_2_alg».proof.Proof.Gen.Pre_finite_inputs
import proofs.«133609_j19868518711903_2_alg».proof.Proof.KernelRun
import proofs.«133609_j19868518711903_2_alg».proof.Proof.KernelResult
import proofs.«133609_j19868518711903_2_alg».proof.Proof.ValueEq
import Idealize.ShloMosaic.Adequacy
import Idealize.ShloMosaic.Init

set_option maxRecDepth 16384

noncomputable section

namespace Cert.Proof

open Idealize.ShloMosaic Idealize.SL.Sem

namespace Claims

theorem frame_kernel : Cert.frame_Kernel := fun m ρ _ => Cert.Kernel.Gen.frame m ρ
theorem frame_kernelIdeal : Cert.frame_KernelIdeal := fun m ρ _ => Cert.KernelIdeal.Gen.frame m ρ
/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result array: the kernel's closed form of the arguments, which is the reference's
    last stage of the same arguments. -/
theorem algebraic : Cert.algebraic_KernelIdeal_ReferenceIdeal := by
  intro m ρ m' ρ' _ hagree
  refine ⟨fun c => Cert.KernelIdeal.HostTerms.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostWalk.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v103_eq]
    obtain ⟨e0, e1, e2, e3, e4, e5, e6, e7, e8⟩ := hagree c
    rw [e0, e1, e2, e3, e4, e5, e6, e7, e8]
    exact (Cert.Bridge.value_eq _ _ _ _ _ _ _ _ _).symm

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
